-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192x2048 .f32) (main_arg6 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S8192x2048 .f32) (main_arg4 : FVec F S8192 .f32) (main_arg5 : FVec F S8192x2048 .f32) (main_arg6 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S1x8192 : Shape := ⟨2, ![1, 8192]⟩
abbrev S1024x256 : Shape := ⟨2, ![1024, 256]⟩
abbrev S512x256 : Shape := ⟨2, ![512, 256]⟩
abbrev S1x512 : Shape := ⟨2, ![1, 512]⟩
abbrev S1024x512 : Shape := ⟨2, ![1024, 512]⟩

abbrev nBuf : Space → Nat
  | .hbm => 11
  | .vmem => 38
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S8192, .f32⟩
  | .hbm, ⟨8, _⟩ => ⟨S1x8192, .f32⟩
  | .hbm, ⟨9, _⟩ => ⟨S4096x2048, .f32⟩
  | .hbm, ⟨10, _⟩ => ⟨S4096x2048, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1024x512, .f32⟩
  | .local _ .vmem, ⟨29, _⟩ => ⟨S1024x512, .f32⟩
  | .local _ .vmem, ⟨30, _⟩ => ⟨S1024x512, .f32⟩
  | .local _ .vmem, ⟨31, _⟩ => ⟨S1024x512, .f32⟩
  | .local _ .vmem, ⟨32, _⟩ => ⟨S1024x512, .f32⟩
  | .local _ .vmem, ⟨33, _⟩ => ⟨S1024x512, .f32⟩
  | .local _ .vmem, ⟨34, _⟩ => ⟨S1024x512, .f32⟩
  | .local _ .vmem, ⟨35, _⟩ => ⟨S1024x512, .f32⟩
  | .local _ .vmem, ⟨36, _⟩ => ⟨S1024x512, .f32⟩
  | .local _ .vmem, ⟨37, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v55 : BitVec 1 := Scalar.cmpi .eq arg2 c7_i32
  let v56 : BitVec 32 := Scalar.extui v55
  let c0_i32_43 : BitVec 32 := 0#32
  let v57 : BitVec 1 := Scalar.cmpi .ne v56 c0_i32_43
  v57

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![v0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  ![v0.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  ![v0.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![v0.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![v0.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  ![v0.toNat, arg2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  ![v0.toNat, arg2.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

class Facts₀ : Prop where
  shapeCasts_S8192_S1x8192 : S8192.ShapeCasts S1x8192
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x2048.size a
  hwx0_0 : ∀ i : grid0.Coords, EltTy.bits .f32 = 32 ∨ (Rect.block (s := S4096x2048) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x2048.size a
  hwx0_1 : ∀ i : grid0.Coords, EltTy.bits .f32 = 32 ∨ (Rect.block (s := S4096x2048) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x2048.size a
  hwx0_2 : ∀ i : grid0.Coords, EltTy.bits .f32 = 32 ∨ (Rect.block (s := S8192x2048) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x2048.size a
  hwx0_3 : ∀ i : grid0.Coords, EltTy.bits .f32 = 32 ∨ (Rect.block (s := S8192x2048) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x2048.size a
  hwx0_4 : ∀ i : grid0.Coords, EltTy.bits .f32 = 32 ∨ (Rect.block (s := S8192x2048) S512x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x2048.size a
  hwx0_5 : ∀ i : grid0.Coords, EltTy.bits .f32 = 32 ∨ (Rect.block (s := S8192x2048) S512x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S8192x2048.size a
  hwx0_6 : ∀ i : grid0.Coords, EltTy.bits .f32 = 32 ∨ (Rect.block (s := S8192x2048) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S8192x2048.size a
  hwx0_7 : ∀ i : grid0.Coords, EltTy.bits .f32 = 32 ∨ (Rect.block (s := S8192x2048) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S8192x2048.size a
  hwx0_8 : ∀ i : grid0.Coords, EltTy.bits .f32 = 32 ∨ (Rect.block (s := S8192x2048) S512x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S8192x2048.size a
  hwx0_9 : ∀ i : grid0.Coords, EltTy.bits .f32 = 32 ∨ (Rect.block (s := S8192x2048) S512x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x8192.size a
  hwx0_10 : ∀ i : grid0.Coords, EltTy.bits .f32 = 32 ∨ (Rect.block (s := S1x8192) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x8192.size a
  hwx0_11 : ∀ i : grid0.Coords, EltTy.bits .f32 = 32 ∨ (Rect.block (s := S1x8192) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x8192.size a
  hwx0_12 : ∀ i : grid0.Coords, EltTy.bits .f32 = 32 ∨ (Rect.block (s := S1x8192) S1x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x8192.size a
  hwx0_13 : ∀ i : grid0.Coords, EltTy.bits .f32 = 32 ∨ (Rect.block (s := S1x8192) S1x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x512.size a ≤ S4096x2048.size a
  hwx0_14 : ∀ i : grid0.Coords, EltTy.bits .f32 = 32 ∨ (Rect.block (s := S4096x2048) S1024x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x512.size a ≤ S4096x2048.size a
  hwx0_15 : ∀ i : grid0.Coords, EltTy.bits .f32 = 32 ∨ (Rect.block (s := S4096x2048) S1024x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x512.size a ≤ S4096x2048.size a
  hwx0_16 : ∀ i : grid0.Coords, EltTy.bits .f32 = 32 ∨ (Rect.block (s := S4096x2048) S1024x512.size (cc0_transform_16 i) (hinb0_16 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S512x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S512x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S512x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S512x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v1) S1x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v1) S1x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v1) S1x512.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg2) S1024x512.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v2_0) S1024x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v2_1) S1024x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | 16 => fun i => !(k0_cond2 i == 1#1) | ⟨_ + 17, h⟩ => absurd h (Nat.not_lt.2 (Nat.le_add_left _ _))

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1x8192 : Shape := ⟨2, ![1, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S2048x8192, .f32⟩
  | .hbm, ⟨8, _⟩ => ⟨S4096x8192, .f32⟩
  | .hbm, ⟨9, _⟩ => ⟨S1x8192, .f32⟩
  | .hbm, ⟨10, _⟩ => ⟨S4096x8192, .f32⟩
  | .hbm, ⟨11, _⟩ => ⟨S4096x8192, .f32⟩
  | .hbm, ⟨12, _⟩ => ⟨S2048x8192, .f32⟩
  | .hbm, ⟨13, _⟩ => ⟨S4096x8192, .f32⟩
  | .hbm, ⟨14, _⟩ => ⟨S4096x8192, .f32⟩
  | .hbm, ⟨15, _⟩ => ⟨S1x8192, .f32⟩
  | .hbm, ⟨16, _⟩ => ⟨S4096x8192, .f32⟩
  | .hbm, ⟨17, _⟩ => ⟨S4096x8192, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  bcast_S_S4096x2048 : S_.BroadcastsInDim S4096x2048 (![] : Fin 0 → Fin S4096x2048.rank)
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.Kernel.Runs.lean ====
/-
  What the three runs of the kernel body share: the contents of the TensorCore's buffers when the region is entered
  (the two biases already added and laid out as one row), each window's block at a grid point, the two conditions the
  body branches on — the reduction's first step (the four accumulators are reset) and its last (the gates are
  activated and the two results stored) — decided over the grid in closed form, where the two result windows are idle,
  and the staging and scratch memrefs as the pipeline passes them to the body.

  The grid is (4, 4, 8): batch tile, hidden tile, reduction step; point `t` has reduction step `t mod 8`.
-/
import proofs.«164211_j64476049047569_2_alg».proof.Proof.Gen.Kernel.Launch
import proofs.«164211_j64476049047569_2_alg».proof.Proof.Gen.Kernel.Skeleton
import proofs.«164211_j64476049047569_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s TensorCore buffer contents when the region is entered: the launch contents after the two host
    operations before it (the sum of the two bias vectors, and that sum as a one-row matrix). -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the two host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved, and the body leaves the block in place. One statement per input window. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the reduction's first step": the body then resets the four accumulators. -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the reduction's last step": the body then activates the gates and stores the two results. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the result windows are idle -/

/-- Off the reduction's last step the two result windows are idle: nothing is stored into them, -/
theorem idleAt_15 : ∀ t : Fin cfg0.N, ¬cond0_1 (grid0.coords t) → cfg0.idle 15 (grid0.coords t) = true := by decide +kernel
theorem idleAt_16 : ∀ t : Fin cfg0.N, ¬cond0_1 (grid0.coords t) → cfg0.idle 16 (grid0.coords t) = true := by decide +kernel
/-- and their blocks are not written back there. -/
theorem noFlush_15 : ∀ t : Fin cfg0.N, ¬cond0_1 (grid0.coords t) → (cfg0.win 15).flush t = false := by decide +kernel
theorem noFlush_16 : ∀ t : Fin cfg0.N, ¬cond0_1 (grid0.coords t) → (cfg0.win 16).flush t = false := by decide +kernel
/-- At the reduction's last step they are live. -/
theorem liveAt_15 : ∀ t : Fin cfg0.N, cond0_1 (grid0.coords t) → cfg0.idle 15 (grid0.coords t) = false := by decide +kernel
theorem liveAt_16 : ∀ t : Fin cfg0.N, cond0_1 (grid0.coords t) → cfg0.idle 16 (grid0.coords t) = false := by decide +kernel

/-! ## The memrefs the body is called with -/

/-- One staging buffer of each result window, through which its contents are stated. -/
abbrev VO_15 : View sig .tc .vmem S1024x512 .f32 := (Memref.whole cc0_stg15_0 : Memref sig .tc .vmem S1024x512 .f32).view
abbrev VO_16 : View sig .tc .vmem S1024x512 .f32 := (Memref.whole cc0_stg16_0 : Memref sig .tc .vmem S1024x512 .f32).view
abbrev ms_0 (t : Fin cfg0.N) : Memref sig .tc .vmem S1024x256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x256 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S512x256 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x256 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S512x256 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S512x256 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S512x256 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S512x256 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S512x256 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1x512 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S1x512 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S1x512 .f32 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S1x512 .f32 := win0_13.stage (cfg0.slots t 13)
abbrev hs_13 (t : Fin cfg0.N) : (ms_13 t).IsWhole := hstage0_13 ((cfg0.slots t 13).cast nbuf0_13)
abbrev ms_14 (t : Fin cfg0.N) : Memref sig .tc .vmem S1024x512 .f32 := win0_14.stage (cfg0.slots t 14)
abbrev hs_14 (t : Fin cfg0.N) : (ms_14 t).IsWhole := hstage0_14 ((cfg0.slots t 14).cast nbuf0_14)
abbrev ms_15 (t : Fin cfg0.N) : Memref sig .tc .vmem S1024x512 .f32 := win0_15.stage (cfg0.slots t 15)
abbrev hs_15 (t : Fin cfg0.N) : (ms_15 t).IsWhole := hstage0_15 ((cfg0.slots t 15).cast nbuf0_15)
abbrev ms_16 (t : Fin cfg0.N) : Memref sig .tc .vmem S1024x512 .f32 := win0_16.stage (cfg0.slots t 16)
abbrev hs_16 (t : Fin cfg0.N) : (ms_16 t).IsWhole := hstage0_16 ((cfg0.slots t 16).cast nbuf0_16)
/-- Accumulator 0: a whole scratch buffer of the kernel's own. -/
abbrev scM_0 : Memref sig .tc .vmem S1024x512 .f32 := Memref.whole cc0_scratch0
abbrev VS_0 : View sig .tc .vmem S1024x512 .f32 := scM_0.view
/-- Accumulator 1: a whole scratch buffer of the kernel's own. -/
abbrev scM_1 : Memref sig .tc .vmem S1024x512 .f32 := Memref.whole cc0_scratch1
abbrev VS_1 : View sig .tc .vmem S1024x512 .f32 := scM_1.view
/-- Accumulator 2: a whole scratch buffer of the kernel's own. -/
abbrev scM_2 : Memref sig .tc .vmem S1024x512 .f32 := Memref.whole cc0_scratch2
abbrev VS_2 : View sig .tc .vmem S1024x512 .f32 := scM_2.view
/-- Accumulator 3: a whole scratch buffer of the kernel's own. -/
abbrev scM_3 : Memref sig .tc .vmem S1024x512 .f32 := Memref.whole cc0_scratch3
abbrev VS_3 : View sig .tc .vmem S1024x512 .f32 := scM_3.view

/-- The region's plain invariant, with the four accumulators as memrefs owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d)) ∗ (∃ r, prngReg c r)) := by
  unfold Pipeline.ΦA; rw [scopedRest0_eq]; simp only [scM_0, scM_1, scM_2, scM_3, owns_whole]; try rfl

end Cert.Kernel.Frame

end
-- ==== Proof.Kernel.RunA.lean ====
/-
  The kernel body run at the reduction's FIRST step: the four accumulators, holding anything, are reset to zero and the step's products added; the two result buffers are left as found.
  On whole staging memrefs holding the inputs' blocks the body runs to its end, the inputs as they were, each buffer it
  stored into holding its stores as a list of pieces (last first) that the symbolic run finds.
-/
import proofs.«164211_j64476049047569_2_alg».proof.Proof.Kernel.Runs

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two result buffers and the four accumulators, with the body's triple over them. -/
noncomputable def kernelRun_A (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) :
    Σ' (L15 L16 LS0 LS1 LS2 : List (View.Piece (Elt F) S1024x512 .f32)), { LS3 : List (View.Piece (Elt F) S1024x512 .f32) //
      ∀ (xi15 xi16 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], ?_, ?_, ?_, ?_, fun xi15 xi16 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [HS0]; · iexists _; iexact HS0
    isplitl [HS1]; · iexists _; iexact HS1
    isplitl [HS2]; · iexists _; iexact HS2
    iexists _; iexact HS3

end Cert.Kernel.Frame

end
-- ==== Proof.Kernel.RunB.lean ====
/-
  The kernel body run at a MIDDLE step of the reduction: the step's products are added to the four accumulators; the two result buffers are left as found.
  On whole staging memrefs holding the inputs' blocks the body runs to its end, the inputs as they were, each buffer it
  stored into holding its stores as a list of pieces (last first) that the symbolic run finds.
-/
import proofs.«164211_j64476049047569_2_alg».proof.Proof.Kernel.RunA

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two result buffers and the four accumulators, with the body's triple over them. -/
noncomputable def kernelRun_B (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) :
    Σ' (L15 L16 LS0 LS1 LS2 : List (View.Piece (Elt F) S1024x512 .f32)), { LS3 : List (View.Piece (Elt F) S1024x512 .f32) //
      ∀ (xi15 xi16 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], ?_, ?_, ?_, ?_, fun xi15 xi16 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hfs0; obtain rfl := harg21.eq_unread hfs1; obtain rfl := harg22.eq_unread hfs2; obtain rfl := harg23.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [HS0]; · iexists _; iexact HS0
    isplitl [HS1]; · iexists _; iexact HS1
    isplitl [HS2]; · iexists _; iexact HS2
    iexists _; iexact HS3

end Cert.Kernel.Frame

end
-- ==== Proof.Kernel.RunC.lean ====
/-
  The kernel body run at the reduction's LAST step: the step's products are added to the four accumulators, then the gates are activated from them, the biases and the previous cell state, and the new hidden and cell states stored whole into the two result buffers.
  On whole staging memrefs holding the inputs' blocks the body runs to its end, the inputs as they were, each buffer it
  stored into holding its stores as a list of pieces (last first) that the symbolic run finds.
-/
import proofs.«164211_j64476049047569_2_alg».proof.Proof.Kernel.RunB

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two result buffers and the four accumulators, with the body's triple over them. -/
noncomputable def kernelRun_C (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) :
    Σ' (L15 L16 LS0 LS1 LS2 : List (View.Piece (Elt F) S1024x512 .f32)), { LS3 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f L16) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg20.eq_unread hfs0; obtain rfl := harg21.eq_unread hfs1; obtain rfl := harg22.eq_unread hfs2; obtain rfl := harg23.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]; · iexists _; iexact H15
    isplitl [H16]; · iexists _; iexact H16
    isplitl [HS0]; · iexists _; iexact HS0
    isplitl [HS1]; · iexists _; iexact HS1
    isplitl [HS2]; · iexists _; iexact HS2
    iexists _; iexact HS3

end Cert.Kernel.Frame

end
-- ==== Proof.Kernel.Pieces.lean ====
/-
  What each of the body's three runs leaves in the four accumulators, and the last step's in the two result buffers:
  the run's stores read back, with the fact that they cover the buffer.
-/
import proofs.«164211_j64476049047569_2_alg».proof.Proof.Kernel.RunC

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of this case into accumulator 0 cover it. -/
theorem scover_A_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (y : S1024x512.Idx) :
    ∃ pc ∈ (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.1, y ∈ pc.1.set :=
  View.cover_of_tiledL (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.1 S1024x512.size (by sl_kernel_rfl) y

/-- What this case leaves in accumulator 0: its stores read back. -/
def sout_A_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) : Vec F S1024x512 .f32 :=
  VS_0.read (Elt F) (VS_0.writes (Elt F) VS_0.junk (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.1)

/-- The stores of this case into accumulator 1 cover it. -/
theorem scover_A_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (y : S1024x512.Idx) :
    ∃ pc ∈ (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.1, y ∈ pc.1.set :=
  View.cover_of_tiledL (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.1 S1024x512.size (by sl_kernel_rfl) y

/-- What this case leaves in accumulator 1: its stores read back. -/
def sout_A_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) : Vec F S1024x512 .f32 :=
  VS_1.read (Elt F) (VS_1.writes (Elt F) VS_1.junk (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.1)

/-- The stores of this case into accumulator 2 cover it. -/
theorem scover_A_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (y : S1024x512.Idx) :
    ∃ pc ∈ (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.2.1, y ∈ pc.1.set :=
  View.cover_of_tiledL (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.2.1 S1024x512.size (by sl_kernel_rfl) y

/-- What this case leaves in accumulator 2: its stores read back. -/
def sout_A_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) : Vec F S1024x512 .f32 :=
  VS_2.read (Elt F) (VS_2.writes (Elt F) VS_2.junk (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.2.1)

/-- The stores of this case into accumulator 3 cover it. -/
theorem scover_A_3 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (y : S1024x512.Idx) :
    ∃ pc ∈ (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.2.2.1, y ∈ pc.1.set :=
  View.cover_of_tiledL (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.2.2.1 S1024x512.size (by sl_kernel_rfl) y

/-- What this case leaves in accumulator 3: its stores read back. -/
def sout_A_3 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) : Vec F S1024x512 .f32 :=
  VS_3.read (Elt F) (VS_3.writes (Elt F) VS_3.junk (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.2.2.1)

/-- The stores of this case into accumulator 0 cover it. -/
theorem scover_B_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.1, y ∈ pc.1.set :=
  View.cover_of_tiledL (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.1 S1024x512.size (by sl_kernel_rfl) y

/-- What this case leaves in accumulator 0: its stores read back. -/
def sout_B_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_0.read (Elt F) (VS_0.writes (Elt F) VS_0.junk (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.1)

/-- The stores of this case into accumulator 1 cover it. -/
theorem scover_B_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.1, y ∈ pc.1.set :=
  View.cover_of_tiledL (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.1 S1024x512.size (by sl_kernel_rfl) y

/-- What this case leaves in accumulator 1: its stores read back. -/
def sout_B_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_1.read (Elt F) (VS_1.writes (Elt F) VS_1.junk (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.1)

/-- The stores of this case into accumulator 2 cover it. -/
theorem scover_B_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.1, y ∈ pc.1.set :=
  View.cover_of_tiledL (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.1 S1024x512.size (by sl_kernel_rfl) y

/-- What this case leaves in accumulator 2: its stores read back. -/
def sout_B_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_2.read (Elt F) (VS_2.writes (Elt F) VS_2.junk (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.1)

/-- The stores of this case into accumulator 3 cover it. -/
theorem scover_B_3 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.2.1, y ∈ pc.1.set :=
  View.cover_of_tiledL (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.2.1 S1024x512.size (by sl_kernel_rfl) y

/-- What this case leaves in accumulator 3: its stores read back. -/
def sout_B_3 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_3.read (Elt F) (VS_3.writes (Elt F) VS_3.junk (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.2.1)

/-- The stores of this case into accumulator 0 cover it. -/
theorem scover_C_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.1 S1024x512.size (by sl_kernel_rfl) y

/-- What this case leaves in accumulator 0: its stores read back. -/
def sout_C_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_0.read (Elt F) (VS_0.writes (Elt F) VS_0.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.1)

/-- The stores of this case into accumulator 1 cover it. -/
theorem scover_C_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.1 S1024x512.size (by sl_kernel_rfl) y

/-- What this case leaves in accumulator 1: its stores read back. -/
def sout_C_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_1.read (Elt F) (VS_1.writes (Elt F) VS_1.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.1)

/-- The stores of this case into accumulator 2 cover it. -/
theorem scover_C_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.1 S1024x512.size (by sl_kernel_rfl) y

/-- What this case leaves in accumulator 2: its stores read back. -/
def sout_C_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_2.read (Elt F) (VS_2.writes (Elt F) VS_2.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.1)

/-- The stores of this case into accumulator 3 cover it. -/
theorem scover_C_3 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.2.1 S1024x512.size (by sl_kernel_rfl) y

/-- What this case leaves in accumulator 3: its stores read back. -/
def sout_C_3 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_3.read (Elt F) (VS_3.writes (Elt F) VS_3.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.2.1)

/-- The last step's stores into result window 15 cover it. -/
theorem cover_C_15 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).1 S1024x512.size (by sl_kernel_rfl) y

/-- What the last step leaves in result window 15's buffer: its stores read back. -/
def out_C_15 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VO_15.read (Elt F) (VO_15.writes (Elt F) VO_15.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).1)

/-- The last step's stores into result window 16 cover it. -/
theorem cover_C_16 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.1 S1024x512.size (by sl_kernel_rfl) y

/-- What the last step leaves in result window 16's buffer: its stores read back. -/
def out_C_16 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VO_16.read (Elt F) (VO_16.writes (Elt F) VO_16.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.1)

end Cert.Kernel.Frame

end
-- ==== Proof.Kernel.Split.lean ====
/-
  The buffers behind the windows' arrays, each whole at the full share, make the proof data's arrays at the region's
  entry, for windows that share arrays: `main_arg3` is read by windows 2–5, `main_arg5` by windows 6–9, `main_v1` by
  windows 10–13, every other window's array by that window alone. Each shared buffer's full share is split into its four
  quarters, one per window reading it (`qShare`); a window alone on its array holds the full share.
-/
import proofs.«164211_j64476049047569_2_alg».proof.Proof.Gen.Kernel.Launch

set_option maxRecDepth 2688

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

variable {F : FTy → Type} [FloatOps F]

/-- Each input window's share of its array: the full share for a window alone on its array (and for the two outputs,
    whose share is the full one whatever is named here), a quarter of it for each of the four windows reading one array. -/
def qShare : Fin 17 → PosShare TreeShare
  | 0 => fullShare
  | 1 => fullShare
  | 2 => fullShare.left.left
  | 3 => fullShare.left.right
  | 4 => fullShare.right.left
  | 5 => fullShare.right.right
  | 6 => fullShare.left.left
  | 7 => fullShare.left.right
  | 8 => fullShare.right.left
  | 9 => fullShare.right.right
  | 10 => fullShare.left.left
  | 11 => fullShare.left.right
  | 12 => fullShare.right.left
  | 13 => fullShare.right.right
  | 14 => fullShare
  | 15 => fullShare
  | 16 => fullShare
  | ⟨_ + 17, h⟩ => absurd h (Nat.not_lt.2 (Nat.le_add_left _ _))

section

variable {Ix : Type} [DecidableEq Ix] {Name : Type} [DecidableEq Name] {U : Type} [URA U] {Lvl : Type}

local notation "𝕄" => MT nD τ sig Ix (Elt F) Name U Lvl

/-- A whole buffer held at the full share is held at its four quarters. -/
theorem pointsTo_quarters (ℓ : Loc nD τ sig) (f : Buf (Elt F) ℓ) :
    (ℓ ↦{fullShare} f : sProp 𝕄)
      ⊢ iprop((ℓ ↦{fullShare.left.left} f) ∗ (ℓ ↦{fullShare.left.right} f) ∗ (ℓ ↦{fullShare.right.left} f) ∗ (ℓ ↦{fullShare.right.right} f)) := by
  iintro H
  ihave H := (pointsTo_share (PosShare.mem_left_op_right fullShare)).1 $$ H
  icases H with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  isplitl [Hll]; · iexact Hll
  isplitl [Hlr]; · iexact Hlr
  isplitl [Hrl]; · iexact Hrl
  iexact Hrr

/-- The distinct buffers behind the 17 windows' arrays, one by one. -/
theorem arrBufs0_eq (c : Dev nD) (V : (b : Ref sig .tc) → Buf (Elt F) ((c.tc : Thread nD τ).loc b)) :
    (Pipeline.arrBufs (Ix := Ix) (Name := Name) (U := U) (Lvl := Lvl) spec0 c V : sProp 𝕄)
      = iprop((((c : Thread nD τ).loc main_arg0) ↦{fullShare} V main_arg0) ∗ (((c : Thread nD τ).loc main_arg1) ↦{fullShare} V main_arg1)
          ∗ (((c : Thread nD τ).loc main_arg3) ↦{fullShare} V main_arg3) ∗ (((c : Thread nD τ).loc main_arg5) ↦{fullShare} V main_arg5)
          ∗ (((c : Thread nD τ).loc main_v1) ↦{fullShare} V main_v1) ∗ (((c : Thread nD τ).loc main_arg2) ↦{fullShare} V main_arg2)
          ∗ (((c : Thread nD τ).loc main_v2_0) ↦{fullShare} V main_v2_0) ∗ (((c : Thread nD τ).loc main_v2_1) ↦{fullShare} V main_v2_1)) := by
  unfold Pipeline.arrBufs
  exact bigSep_eq_bigSepL_of_eq [main_arg0, main_arg1, main_arg3, main_arg5, main_v1, main_arg2, main_v2_0, main_v2_1] (by decide) (by decide) _

end

/-- The proof data's share of each window's array is `qShare`'s, when that is what the data name for the inputs. -/
theorem share_eq_qShare (c : Dev nD) (dat : Pipeline.Dat τ (Elt F) Unit ℕ (UR sig nD τ) ℕ cfg0 c) (hq : dat.q = qShare) (w : Fin 17) :
    dat.share w = qShare w := by
  unfold Pipeline.Dat.share
  rw [hq]
  split
  · next h => fin_cases w <;> first | rfl | exact absurd h (by decide)
  · rfl

/-- THE SPLIT: the buffers behind the arrays, each whole at the full share at contents `V`, are the proof data's arrays
    at the region's entry, the data naming `qShare` and the entry contents `V`. -/
theorem arrays_of_arrBufs (c : Dev nD) (dat : Pipeline.Dat τ (Elt F) Unit ℕ (UR sig nD τ) ℕ cfg0 c) (hq : dat.q = qShare)
    (V : (b : Ref sig .tc) → Buf (Elt F) ((c.tc : Thread nD τ).loc b)) (hA : ∀ w, dat.A w = V (Pipeline.arrRef spec0 w)) :
    Pipeline.arrBufs spec0 c V ⊢ dat.arrays (dat.arrAt · 0) := by
  have hwin : ∀ w : Fin 17,
      ((cfg0.win w).arr.view.loc (c.tc : Thread nD τ) ↦[(cfg0.win w).arr.view.set]{dat.share w} dat.arrAt w 0
          : sProp (MT nD τ sig Unit (Elt F) ℕ (UR sig nD τ) ℕ))
        = (((c.tc : Thread nD τ).loc (Pipeline.arrRef spec0 w)) ↦{qShare w} V (Pipeline.arrRef spec0 w)) := fun w => by
    rw [show (cfg0.win w).arr.view.set = Finset.univ from (arr_whole0 w).set_eq_univ, share_eq_qShare c dat hq w,
      show dat.arrAt w 0 = dat.A w from rfl, hA w]
  rw [arrBufs0_eq]
  unfold Pipeline.Dat.arrays
  rw [bigSep_congr (fun w _ => hwin w), bigSep_W0]
  iintro ⟨H0, H1, H3, H5, Hv1, H2, Hv20, Hv21⟩
  ihave H3 := pointsTo_quarters _ _ $$ H3
  icases H3 with ⟨H3a, H3b, H3c, H3d⟩
  ihave H5 := pointsTo_quarters _ _ $$ H5
  icases H5 with ⟨H5a, H5b, H5c, H5d⟩
  ihave Hv1 := pointsTo_quarters _ _ $$ Hv1
  icases Hv1 with ⟨Hv1a, Hv1b, Hv1c, Hv1d⟩
  isplitl [H0]; · iexact H0
  isplitl [H1]; · iexact H1
  isplitl [H3a]; · iexact H3a
  isplitl [H3b]; · iexact H3b
  isplitl [H3c]; · iexact H3c
  isplitl [H3d]; · iexact H3d
  isplitl [H5a]; · iexact H5a
  isplitl [H5b]; · iexact H5b
  isplitl [H5c]; · iexact H5c
  isplitl [H5d]; · iexact H5d
  isplitl [Hv1a]; · iexact Hv1a
  isplitl [Hv1b]; · iexact Hv1b
  isplitl [Hv1c]; · iexact Hv1c
  isplitl [Hv1d]; · iexact Hv1d
  isplitl [H2]; · iexact H2
  isplitl [Hv20]; · iexact Hv20
  iexact Hv21

end Cert.Kernel.Gen

end
-- ==== Proof.Kernel.Data.lean ====
/-
  The kernel's run point by point. The grid point `t` is batch tile `t / 32`, hidden tile `(t / 8) mod 4`, reduction
  step `t mod 8`. The four accumulators live in scratch across the eight reduction steps of one (batch tile, hidden
  tile): reset at step 0, added to at every step, read at step 7, where the two results are stored. So what they hold
  after point `t` is defined by recursion on `t` (`accAt`); the invariant between points holds them at exactly that;
  the result buffers hold at a last step what that step computes from the accumulators of the point before.
-/
import proofs.«164211_j64476049047569_2_alg».proof.Proof.Kernel.Pieces
import proofs.«164211_j64476049047569_2_alg».proof.Proof.Kernel.Split

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulators after each point -/

/-- THE ACCUMULATION: what the four accumulators hold after the body at position `n`: the case the closed forms select
    there, run on the point's input blocks, over what the point before left (at a first step, over nothing). -/
def accAt (c : Dev nD) : (n : ℕ) → n < cfg0.N → Vec F S1024x512 .f32 × Vec F S1024x512 .f32 × Vec F S1024x512 .f32 × Vec F S1024x512 .f32
  | 0, hn => (sout_A_0 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) (ms_16 ⟨0, hn⟩) (hs_16 ⟨0, hn⟩) scM_0 (Memref.isWhole_whole _) scM_1 (Memref.isWhole_whole _) scM_2 (Memref.isWhole_whole _) scM_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        sout_A_1 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) (ms_16 ⟨0, hn⟩) (hs_16 ⟨0, hn⟩) scM_0 (Memref.isWhole_whole _) scM_1 (Memref.isWhole_whole _) scM_2 (Memref.isWhole_whole _) scM_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        sout_A_2 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) (ms_16 ⟨0, hn⟩) (hs_16 ⟨0, hn⟩) scM_0 (Memref.isWhole_whole _) scM_1 (Memref.isWhole_whole _) scM_2 (Memref.isWhole_whole _) scM_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        sout_A_3 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) (ms_16 ⟨0, hn⟩) (hs_16 ⟨0, hn⟩) scM_0 (Memref.isWhole_whole _) scM_1 (Memref.isWhole_whole _) scM_2 (Memref.isWhole_whole _) scM_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) % 8 = 0 then
      (sout_A_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        sout_A_1 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        sout_A_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        sout_A_3 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
    else
      if h1 : (n + 1) % 8 = 7 then
        (sout_C_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        sout_C_1 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        sout_C_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        sout_C_3 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2)
      else
        (sout_B_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        sout_B_1 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        sout_B_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        sout_B_3 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2)

/-- `accAt` at a first step. -/
theorem accAt_A (c : Dev nD) (t : Fin cfg0.N) (h0 : t.val % 8 = 0) :
    accAt m c t.val t.isLt = (sout_A_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) ((hcond0_0 t).mpr h0) (fun h => (fun h => by (try dsimp only at h); omega) ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        sout_A_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) ((hcond0_0 t).mpr h0) (fun h => (fun h => by (try dsimp only at h); omega) ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        sout_A_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) ((hcond0_0 t).mpr h0) (fun h => (fun h => by (try dsimp only at h); omega) ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        sout_A_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) ((hcond0_0 t).mpr h0) (fun h => (fun h => by (try dsimp only at h); omega) ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact (dif_pos h0).trans rfl

/-- `accAt` at a middle step: over what the point before left. -/
theorem accAt_B (c : Dev nD) (t : Fin cfg0.N) (h0 : ¬t.val % 8 = 0) (h1 : ¬t.val % 8 = 7) :
    accAt m c t.val t.isLt = (sout_B_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2,
        sout_B_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2,
        sout_B_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2,
        sout_B_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `accAt` at a last step: over what the point before left. -/
theorem accAt_C (c : Dev nD) (t : Fin cfg0.N) (h0 : ¬t.val % 8 = 0) (h1 : t.val % 8 = 7) :
    accAt m c t.val t.isLt = (sout_C_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2,
        sout_C_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2,
        sout_C_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2,
        sout_C_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- A result buffer's contents where the window is idle: nothing consults them. -/
def idleOut : Vec F S1024x512 .f32 := VO_15.read (Elt F) VO_15.junk

/-- What result window 15 (the new hidden state) holds after point `t`: at a last step what that step stores. -/
def out15At (c : Dev nD) (t : Fin cfg0.N) : Vec F S1024x512 .f32 :=
  if h1 : t.val % 8 = 7 then
    out_C_15 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => (fun h => by (try dsimp only at h); omega) ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2
  else idleOut
/-- The same for window 16 (the new cell state). -/
def out16At (c : Dev nD) (t : Fin cfg0.N) : Vec F S1024x512 .f32 :=
  if h1 : t.val % 8 = 7 then
    out_C_16 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => (fun h => by (try dsimp only at h); omega) ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2
  else idleOut

/-- The region invariant before position `n`: before the first point every accumulator holds anything; afterwards
    each holds what the point before left in it. The generator register is at some state throughout. -/
def PhiS (c : Dev nD) : (n : ℕ) → n ≤ cfg0.N → sProp 𝕄
  | 0, _ => Pipeline.ΦA spec0 c
  | n + 1, hn => iprop(iprop(owns (c : Thread nD τ) scM_0 fullShare ((accAt m c n hn).1) ∗ owns (c : Thread nD τ) scM_1 fullShare ((accAt m c n hn).2.1) ∗ owns (c : Thread nD τ) scM_2 fullShare ((accAt m c n hn).2.2.1) ∗ owns (c : Thread nD τ) scM_3 fullShare ((accAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM_0 fullShare ((accAt m c n hn).1) ∗ owns (c : Thread nD τ) scM_1 fullShare ((accAt m c n hn).2.1) ∗ owns (c : Thread nD τ) scM_2 fullShare ((accAt m c n hn).2.2.1) ∗ owns (c : Thread nD τ) scM_3 fullShare ((accAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM_0 fullShare ((accAt m c (n - 1) (by omega)).1) ∗ owns (c : Thread nD τ) scM_1 fullShare ((accAt m c (n - 1) (by omega)).2.1) ∗ owns (c : Thread nD τ) scM_2 fullShare ((accAt m c (n - 1) (by omega)).2.2.1) ∗ owns (c : Thread nD τ) scM_3 fullShare ((accAt m c (n - 1) (by omega)).2.2.2)) ∗ (∃ r, prngReg c r)) := by
  cases n with
  | zero => exact absurd rfl hz
  | succ n => rfl

/-! ## The pipeline's proof data -/

/-- The proof data on core `c`: the arrays as the region finds them; after the body at point `t` each input's buffer
    at its block and the two results' at `out15At` / `out16At`; the invariant `PhiS`; nothing owed; an array read
    through four windows held a quarter per window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out15At m c t
    | ⟨16, _⟩ => out16At m c t
    | ⟨_ + 17, h⟩ => absurd h (Nat.not_lt.2 (Nat.le_add_left _ _))
  Φ t := PhiS m c t.val (Nat.le_of_lt_succ t.isLt)
  q := qShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = out15At m c t := by dsimp only [dats]
theorem after_16 (c : Dev nD) (t : Fin cfg0.N) : (dats m 0 c).after 16 t = out16At m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d

end Cert.Kernel.Frame

end
-- ==== Proof.Kernel.BodySound.lean ====
/-
  The body's obligation at every grid point: from the invariant and every window's buffer at what it then holds, the body
  runs to the invariant at the next point and every buffer at what the proof data says it leaves — by cases on the
  reduction step (first, middle, last), each case one run of the body.
-/
import proofs.«164211_j64476049047569_2_alg».proof.Proof.Kernel.Data

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d))
    ∗ (∃ d, owns (c : Thread nD τ) (ms_15 t) fullShare ((dats m 0 c).before 15 t d))
    ∗ (∃ d, owns (c : Thread nD τ) (ms_16 t) fullShare ((dats m 0 c).before 16 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 8000000 in
/-- The body at any point: each input's buffer holds its block; the closed forms say which case the point is in; the
    invariant hands the body the accumulators at what the point before left (at anything before the first point) and
    takes them back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms_0 t) fullShare ((dats m 0 c).after 0 t) from by
    unfold Dat.leavesExact; rfl, after_0]
  rw [show (dats m 0 c).leavesExact 1 t = owns (c : Thread nD τ) (ms_1 t) fullShare ((dats m 0 c).after 1 t) from by
    unfold Dat.leavesExact; rfl, after_1]
  rw [show (dats m 0 c).leavesExact 2 t = owns (c : Thread nD τ) (ms_2 t) fullShare ((dats m 0 c).after 2 t) from by
    unfold Dat.leavesExact; rfl, after_2]
  rw [show (dats m 0 c).leavesExact 3 t = owns (c : Thread nD τ) (ms_3 t) fullShare ((dats m 0 c).after 3 t) from by
    unfold Dat.leavesExact; rfl, after_3]
  rw [show (dats m 0 c).leavesExact 4 t = owns (c : Thread nD τ) (ms_4 t) fullShare ((dats m 0 c).after 4 t) from by
    unfold Dat.leavesExact; rfl, after_4]
  rw [show (dats m 0 c).leavesExact 5 t = owns (c : Thread nD τ) (ms_5 t) fullShare ((dats m 0 c).after 5 t) from by
    unfold Dat.leavesExact; rfl, after_5]
  rw [show (dats m 0 c).leavesExact 6 t = owns (c : Thread nD τ) (ms_6 t) fullShare ((dats m 0 c).after 6 t) from by
    unfold Dat.leavesExact; rfl, after_6]
  rw [show (dats m 0 c).leavesExact 7 t = owns (c : Thread nD τ) (ms_7 t) fullShare ((dats m 0 c).after 7 t) from by
    unfold Dat.leavesExact; rfl, after_7]
  rw [show (dats m 0 c).leavesExact 8 t = owns (c : Thread nD τ) (ms_8 t) fullShare ((dats m 0 c).after 8 t) from by
    unfold Dat.leavesExact; rfl, after_8]
  rw [show (dats m 0 c).leavesExact 9 t = owns (c : Thread nD τ) (ms_9 t) fullShare ((dats m 0 c).after 9 t) from by
    unfold Dat.leavesExact; rfl, after_9]
  rw [show (dats m 0 c).leavesExact 10 t = owns (c : Thread nD τ) (ms_10 t) fullShare ((dats m 0 c).after 10 t) from by
    unfold Dat.leavesExact; rfl, after_10]
  rw [show (dats m 0 c).leavesExact 11 t = owns (c : Thread nD τ) (ms_11 t) fullShare ((dats m 0 c).after 11 t) from by
    unfold Dat.leavesExact; rfl, after_11]
  rw [show (dats m 0 c).leavesExact 12 t = owns (c : Thread nD τ) (ms_12 t) fullShare ((dats m 0 c).after 12 t) from by
    unfold Dat.leavesExact; rfl, after_12]
  rw [show (dats m 0 c).leavesExact 13 t = owns (c : Thread nD τ) (ms_13 t) fullShare ((dats m 0 c).after 13 t) from by
    unfold Dat.leavesExact; rfl, after_13]
  rw [show (dats m 0 c).leavesExact 14 t = owns (c : Thread nD τ) (ms_14 t) fullShare ((dats m 0 c).after 14 t) from by
    unfold Dat.leavesExact; rfl, after_14]
  by_cases h0 : t.val % 8 = 0
  · rw [Dat.leavesExact_idle (dats m 0 c) 15 t (idleAt_15 t (fun h => (fun h => by (try dsimp only at h); omega) ((hcond0_1 t).mp h))) (noFlush_15 t (fun h => (fun h => by (try dsimp only at h); omega) ((hcond0_1 t).mp h)))]
    rw [Dat.leavesExact_idle (dats m 0 c) 16 t (idleAt_16 t (fun h => (fun h => by (try dsimp only at h); omega) ((hcond0_1 t).mp h))) (noFlush_16 t (fun h => (fun h => by (try dsimp only at h); omega) ((hcond0_1 t).mp h)))]
    rw [accAt_A m c t h0]
    unfold sout_A_0 sout_A_1 sout_A_2 sout_A_3; (try dsimp only)
    by_cases hz : t.val = 0
    · rw [PhiS_castSucc m c t, PhiS_zero m c _ _ hz, PhiA_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) ((hcond0_0 t).mpr h0) (fun h => (fun h => by (try dsimp only at h); omega) ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16

    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) ((hcond0_0 t).mpr h0) (fun h => (fun h => by (try dsimp only at h); omega) ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16

  · have hz : t.val ≠ 0 := fun hz => h0 (by rw [hz])
    by_cases h1 : t.val % 8 = 7
    · rw [show (dats m 0 c).leavesExact 15 t = owns (c : Thread nD τ) (ms_15 t) fullShare ((dats m 0 c).after 15 t) from by
        unfold Dat.leavesExact; rw [liveAt_15 t ((hcond0_1 t).mpr h1)], after_15]
      rw [show (dats m 0 c).leavesExact 16 t = owns (c : Thread nD τ) (ms_16 t) fullShare ((dats m 0 c).after 16 t) from by
        unfold Dat.leavesExact; rw [liveAt_16 t ((hcond0_1 t).mpr h1)], after_16]
      rw [accAt_C m c t h0 h1]
      unfold out15At out16At; rw [dif_pos h1, dif_pos h1]
      unfold out_C_15 out_C_16 sout_C_0 sout_C_1 sout_C_2 sout_C_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun_C c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, ⟨%e15, H15⟩, ⟨%e16, H16⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover_C_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (cover_C_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H16
      ipureintro; exact View.read_writes_of_cover _ _ _ _ _ (cover_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

    · rw [Dat.leavesExact_idle (dats m 0 c) 15 t (idleAt_15 t (fun h => h1 ((hcond0_1 t).mp h))) (noFlush_15 t (fun h => h1 ((hcond0_1 t).mp h)))]
      rw [Dat.leavesExact_idle (dats m 0 c) 16 t (idleAt_16 t (fun h => h1 ((hcond0_1 t).mp h))) (noFlush_16 t (fun h => h1 ((hcond0_1 t).mp h)))]
      rw [accAt_B m c t h0 h1]
      unfold sout_B_0 sout_B_1 sout_B_2 sout_B_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun_B c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ _ _).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16

end Cert.Kernel.Frame

end
-- ==== Proof.Kernel.Body.lean ====
/-
  The body obligation at every point, and the invariant's two ends: what the launch hands the region is the invariant
  before the first point, and after the last point the invariant gives it back.
-/
import proofs.«164211_j64476049047569_2_alg».proof.Proof.Kernel.BodySound

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

set_option maxHeartbeats 2000000 in
/-- After the last point the invariant gives the plain one back: what the accumulators hold is forgotten. -/
theorem hout (c : Dev nD) : (dats m 0 c).Φ (Fin.last cfg0.N) ⊢ Pipeline.ΦA spec0 c := by
  have e : (dats m 0 c).Φ (Fin.last cfg0.N) = PhiS m c (Fin.last cfg0.N).val (Nat.le_of_lt_succ (Fin.last cfg0.N).isLt) := by
    dsimp only [dats]
  have hz : (Fin.last cfg0.N).val ≠ 0 := by rw [Fin.val_last]; have : cfg0.N = 128 := N_0; omega
  rw [e, PhiS_pos m c _ _ hz, PhiA_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

end Cert.Kernel.Frame

end
-- ==== Proof.Kernel.Blocks.lean ====
/-
  Where each window's block lies in its array: the grid point's three coordinates in closed form, each window's
  block index at a point, and a block read at an index as the array read at block index × block size + the index
  inside the block.
-/
import proofs.«164211_j64476049047569_2_alg».proof.Proof.Kernel.Runs
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.Kernel.Frame

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.Kernel Cert.Kernel.Gen

variable {F : FTy → Type} [FloatOps F]

variable (m : (ℓ : Loc nD τ sig) → Buf (Elt F) ℓ)

/-! ## The grid point's coordinates -/

/-- The grid has 4 · 4 · 8 points. -/
theorem t_lt (t : Fin cfg0.N) : t.val < 128 := lt_of_lt_of_eq t.isLt N_0

/-- Point `t`'s batch tile, -/
def ti (t : Fin cfg0.N) : ℕ := t.val / 32
/-- its hidden tile, -/
def tj (t : Fin cfg0.N) : ℕ := t.val / 8 % 4
/-- and its reduction step. -/
def tk (t : Fin cfg0.N) : ℕ := t.val % 8

theorem ti_lt (t : Fin cfg0.N) : ti t < 4 := by have := t_lt t; unfold ti; omega
theorem tj_lt (t : Fin cfg0.N) : tj t < 4 := by unfold tj; omega
theorem tk_lt (t : Fin cfg0.N) : tk t < 8 := by unfold tk; omega
/-- The point from its coordinates. -/
theorem t_eq (t : Fin cfg0.N) : t.val = 32 * ti t + 8 * tj t + tk t := by unfold ti tj tk; omega

/-! ## Each window's block index at a point -/

theorem idx_0 : ∀ t : Fin cfg0.N, win0_0.index t 0 = ti t ∧ win0_0.index t 1 = tk t :=
  (by decide +kernel : ∀ t : Fin grid0.N, win0_0.index t 0 = t.val / 32 ∧ win0_0.index t 1 = t.val % 8)
theorem idx_1 : ∀ t : Fin cfg0.N, win0_1.index t 0 = ti t ∧ win0_1.index t 1 = tk t :=
  (by decide +kernel : ∀ t : Fin grid0.N, win0_1.index t 0 = t.val / 32 ∧ win0_1.index t 1 = t.val % 8)
theorem idx_2 : ∀ t : Fin cfg0.N, win0_2.index t 0 = tj t ∧ win0_2.index t 1 = tk t :=
  (by decide +kernel : ∀ t : Fin grid0.N, win0_2.index t 0 = t.val / 8 % 4 ∧ win0_2.index t 1 = t.val % 8)
theorem idx_3 : ∀ t : Fin cfg0.N, win0_3.index t 0 = tj t + 4 ∧ win0_3.index t 1 = tk t :=
  (by decide +kernel : ∀ t : Fin grid0.N, win0_3.index t 0 = t.val / 8 % 4 + 4 ∧ win0_3.index t 1 = t.val % 8)
theorem idx_4 : ∀ t : Fin cfg0.N, win0_4.index t 0 = tj t + 8 ∧ win0_4.index t 1 = tk t :=
  (by decide +kernel : ∀ t : Fin grid0.N, win0_4.index t 0 = t.val / 8 % 4 + 8 ∧ win0_4.index t 1 = t.val % 8)
theorem idx_5 : ∀ t : Fin cfg0.N, win0_5.index t 0 = tj t + 12 ∧ win0_5.index t 1 = tk t :=
  (by decide +kernel : ∀ t : Fin grid0.N, win0_5.index t 0 = t.val / 8 % 4 + 12 ∧ win0_5.index t 1 = t.val % 8)
theorem idx_6 : ∀ t : Fin cfg0.N, win0_6.index t 0 = tj t ∧ win0_6.index t 1 = tk t :=
  (by decide +kernel : ∀ t : Fin grid0.N, win0_6.index t 0 = t.val / 8 % 4 ∧ win0_6.index t 1 = t.val % 8)
theorem idx_7 : ∀ t : Fin cfg0.N, win0_7.index t 0 = tj t + 4 ∧ win0_7.index t 1 = tk t :=
  (by decide +kernel : ∀ t : Fin grid0.N, win0_7.index t 0 = t.val / 8 % 4 + 4 ∧ win0_7.index t 1 = t.val % 8)
theorem idx_8 : ∀ t : Fin cfg0.N, win0_8.index t 0 = tj t + 8 ∧ win0_8.index t 1 = tk t :=
  (by decide +kernel : ∀ t : Fin grid0.N, win0_8.index t 0 = t.val / 8 % 4 + 8 ∧ win0_8.index t 1 = t.val % 8)
theorem idx_9 : ∀ t : Fin cfg0.N, win0_9.index t 0 = tj t + 12 ∧ win0_9.index t 1 = tk t :=
  (by decide +kernel : ∀ t : Fin grid0.N, win0_9.index t 0 = t.val / 8 % 4 + 12 ∧ win0_9.index t 1 = t.val % 8)
theorem idx_10 : ∀ t : Fin cfg0.N, win0_10.index t 0 = 0 ∧ win0_10.index t 1 = tj t :=
  (by decide +kernel : ∀ t : Fin grid0.N, win0_10.index t 0 = 0 ∧ win0_10.index t 1 = t.val / 8 % 4)
theorem idx_11 : ∀ t : Fin cfg0.N, win0_11.index t 0 = 0 ∧ win0_11.index t 1 = tj t + 4 :=
  (by decide +kernel : ∀ t : Fin grid0.N, win0_11.index t 0 = 0 ∧ win0_11.index t 1 = t.val / 8 % 4 + 4)
theorem idx_12 : ∀ t : Fin cfg0.N, win0_12.index t 0 = 0 ∧ win0_12.index t 1 = tj t + 8 :=
  (by decide +kernel : ∀ t : Fin grid0.N, win0_12.index t 0 = 0 ∧ win0_12.index t 1 = t.val / 8 % 4 + 8)
theorem idx_13 : ∀ t : Fin cfg0.N, win0_13.index t 0 = 0 ∧ win0_13.index t 1 = tj t + 12 :=
  (by decide +kernel : ∀ t : Fin grid0.N, win0_13.index t 0 = 0 ∧ win0_13.index t 1 = t.val / 8 % 4 + 12)
theorem idx_14 : ∀ t : Fin cfg0.N, win0_14.index t 0 = ti t ∧ win0_14.index t 1 = tj t :=
  (by decide +kernel : ∀ t : Fin grid0.N, win0_14.index t 0 = t.val / 32 ∧ win0_14.index t 1 = t.val / 8 % 4)
theorem idx_15 : ∀ t : Fin cfg0.N, win0_15.index t 0 = ti t ∧ win0_15.index t 1 = tj t :=
  (by decide +kernel : ∀ t : Fin grid0.N, win0_15.index t 0 = t.val / 32 ∧ win0_15.index t 1 = t.val / 8 % 4)
theorem idx_16 : ∀ t : Fin cfg0.N, win0_16.index t 0 = ti t ∧ win0_16.index t 1 = tj t :=
  (by decide +kernel : ∀ t : Fin grid0.N, win0_16.index t 0 = t.val / 32 ∧ win0_16.index t 1 = t.val / 8 % 4)

/-! ## A block read at an index -/

theorem iblk_0_apply (c : Dev nD) (t : Fin cfg0.N) (a : Fin 1024) (b : Fin 256) :
    (iblk m c 0 t : Vec F S1024x256 .f32) (ix2 a b)
      = V m c main_arg0 (ix2 (⟨1024 * (ti t) + a.val, by have := ti_lt t; have := a.isLt; omega⟩ : Fin 4096) (⟨256 * (tk t) + b.val, by have := tk_lt t; have := b.isLt; omega⟩ : Fin 2048)) := by
  unfold iblk
  rw [View.read_apply]
  show V m c main_arg0 _ = V m c main_arg0 _
  congr 1
  funext d
  apply Fin.ext
  match d with
  | ⟨0, _⟩ => show win0_0.index t 0 * 1024 + 1 * a.val = 1024 * (ti t) + a.val; rw [(idx_0 t).1]; omega
  | ⟨1, _⟩ => show win0_0.index t 1 * 256 + 1 * b.val = 256 * (tk t) + b.val; rw [(idx_0 t).2]; omega

theorem iblk_1_apply (c : Dev nD) (t : Fin cfg0.N) (a : Fin 1024) (b : Fin 256) :
    (iblk m c 1 t : Vec F S1024x256 .f32) (ix2 a b)
      = V m c main_arg1 (ix2 (⟨1024 * (ti t) + a.val, by have := ti_lt t; have := a.isLt; omega⟩ : Fin 4096) (⟨256 * (tk t) + b.val, by have := tk_lt t; have := b.isLt; omega⟩ : Fin 2048)) := by
  unfold iblk
  rw [View.read_apply]
  show V m c main_arg1 _ = V m c main_arg1 _
  congr 1
  funext d
  apply Fin.ext
  match d with
  | ⟨0, _⟩ => show win0_1.index t 0 * 1024 + 1 * a.val = 1024 * (ti t) + a.val; rw [(idx_1 t).1]; omega
  | ⟨1, _⟩ => show win0_1.index t 1 * 256 + 1 * b.val = 256 * (tk t) + b.val; rw [(idx_1 t).2]; omega

theorem iblk_2_apply (c : Dev nD) (t : Fin cfg0.N) (a : Fin 512) (b : Fin 256) :
    (iblk m c 2 t : Vec F S512x256 .f32) (ix2 a b)
      = V m c main_arg3 (ix2 (⟨512 * (tj t) + a.val, by have := tj_lt t; have := a.isLt; omega⟩ : Fin 8192) (⟨256 * (tk t) + b.val, by have := tk_lt t; have := b.isLt; omega⟩ : Fin 2048)) := by
  unfold iblk
  rw [View.read_apply]
  show V m c main_arg3 _ = V m c main_arg3 _
  congr 1
  funext d
  apply Fin.ext
  match d with
  | ⟨0, _⟩ => show win0_2.index t 0 * 512 + 1 * a.val = 512 * (tj t) + a.val; rw [(idx_2 t).1]; omega
  | ⟨1, _⟩ => show win0_2.index t 1 * 256 + 1 * b.val = 256 * (tk t) + b.val; rw [(idx_2 t).2]; omega

theorem iblk_3_apply (c : Dev nD) (t : Fin cfg0.N) (a : Fin 512) (b : Fin 256) :
    (iblk m c 3 t : Vec F S512x256 .f32) (ix2 a b)
      = V m c main_arg3 (ix2 (⟨512 * (tj t + 4) + a.val, by have := tj_lt t; have := a.isLt; omega⟩ : Fin 8192) (⟨256 * (tk t) + b.val, by have := tk_lt t; have := b.isLt; omega⟩ : Fin 2048)) := by
  unfold iblk
  rw [View.read_apply]
  show V m c main_arg3 _ = V m c main_arg3 _
  congr 1
  funext d
  apply Fin.ext
  match d with
  | ⟨0, _⟩ => show win0_3.index t 0 * 512 + 1 * a.val = 512 * (tj t + 4) + a.val; rw [(idx_3 t).1]; omega
  | ⟨1, _⟩ => show win0_3.index t 1 * 256 + 1 * b.val = 256 * (tk t) + b.val; rw [(idx_3 t).2]; omega

theorem iblk_4_apply (c : Dev nD) (t : Fin cfg0.N) (a : Fin 512) (b : Fin 256) :
    (iblk m c 4 t : Vec F S512x256 .f32) (ix2 a b)
      = V m c main_arg3 (ix2 (⟨512 * (tj t + 8) + a.val, by have := tj_lt t; have := a.isLt; omega⟩ : Fin 8192) (⟨256 * (tk t) + b.val, by have := tk_lt t; have := b.isLt; omega⟩ : Fin 2048)) := by
  unfold iblk
  rw [View.read_apply]
  show V m c main_arg3 _ = V m c main_arg3 _
  congr 1
  funext d
  apply Fin.ext
  match d with
  | ⟨0, _⟩ => show win0_4.index t 0 * 512 + 1 * a.val = 512 * (tj t + 8) + a.val; rw [(idx_4 t).1]; omega
  | ⟨1, _⟩ => show win0_4.index t 1 * 256 + 1 * b.val = 256 * (tk t) + b.val; rw [(idx_4 t).2]; omega

theorem iblk_5_apply (c : Dev nD) (t : Fin cfg0.N) (a : Fin 512) (b : Fin 256) :
    (iblk m c 5 t : Vec F S512x256 .f32) (ix2 a b)
      = V m c main_arg3 (ix2 (⟨512 * (tj t + 12) + a.val, by have := tj_lt t; have := a.isLt; omega⟩ : Fin 8192) (⟨256 * (tk t) + b.val, by have := tk_lt t; have := b.isLt; omega⟩ : Fin 2048)) := by
  unfold iblk
  rw [View.read_apply]
  show V m c main_arg3 _ = V m c main_arg3 _
  congr 1
  funext d
  apply Fin.ext
  match d with
  | ⟨0, _⟩ => show win0_5.index t 0 * 512 + 1 * a.val = 512 * (tj t + 12) + a.val; rw [(idx_5 t).1]; omega
  | ⟨1, _⟩ => show win0_5.index t 1 * 256 + 1 * b.val = 256 * (tk t) + b.val; rw [(idx_5 t).2]; omega

theorem iblk_6_apply (c : Dev nD) (t : Fin cfg0.N) (a : Fin 512) (b : Fin 256) :
    (iblk m c 6 t : Vec F S512x256 .f32) (ix2 a b)
      = V m c main_arg5 (ix2 (⟨512 * (tj t) + a.val, by have := tj_lt t; have := a.isLt; omega⟩ : Fin 8192) (⟨256 * (tk t) + b.val, by have := tk_lt t; have := b.isLt; omega⟩ : Fin 2048)) := by
  unfold iblk
  rw [View.read_apply]
  show V m c main_arg5 _ = V m c main_arg5 _
  congr 1
  funext d
  apply Fin.ext
  match d with
  | ⟨0, _⟩ => show win0_6.index t 0 * 512 + 1 * a.val = 512 * (tj t) + a.val; rw [(idx_6 t).1]; omega
  | ⟨1, _⟩ => show win0_6.index t 1 * 256 + 1 * b.val = 256 * (tk t) + b.val; rw [(idx_6 t).2]; omega

theorem iblk_7_apply (c : Dev nD) (t : Fin cfg0.N) (a : Fin 512) (b : Fin 256) :
    (iblk m c 7 t : Vec F S512x256 .f32) (ix2 a b)
      = V m c main_arg5 (ix2 (⟨512 * (tj t + 4) + a.val, by have := tj_lt t; have := a.isLt; omega⟩ : Fin 8192) (⟨256 * (tk t) + b.val, by have := tk_lt t; have := b.isLt; omega⟩ : Fin 2048)) := by
  unfold iblk
  rw [View.read_apply]
  show V m c main_arg5 _ = V m c main_arg5 _
  congr 1
  funext d
  apply Fin.ext
  match d with
  | ⟨0, _⟩ => show win0_7.index t 0 * 512 + 1 * a.val = 512 * (tj t + 4) + a.val; rw [(idx_7 t).1]; omega
  | ⟨1, _⟩ => show win0_7.index t 1 * 256 + 1 * b.val = 256 * (tk t) + b.val; rw [(idx_7 t).2]; omega

theorem iblk_8_apply (c : Dev nD) (t : Fin cfg0.N) (a : Fin 512) (b : Fin 256) :
    (iblk m c 8 t : Vec F S512x256 .f32) (ix2 a b)
      = V m c main_arg5 (ix2 (⟨512 * (tj t + 8) + a.val, by have := tj_lt t; have := a.isLt; omega⟩ : Fin 8192) (⟨256 * (tk t) + b.val, by have := tk_lt t; have := b.isLt; omega⟩ : Fin 2048)) := by
  unfold iblk
  rw [View.read_apply]
  show V m c main_arg5 _ = V m c main_arg5 _
  congr 1
  funext d
  apply Fin.ext
  match d with
  | ⟨0, _⟩ => show win0_8.index t 0 * 512 + 1 * a.val = 512 * (tj t + 8) + a.val; rw [(idx_8 t).1]; omega
  | ⟨1, _⟩ => show win0_8.index t 1 * 256 + 1 * b.val = 256 * (tk t) + b.val; rw [(idx_8 t).2]; omega

theorem iblk_9_apply (c : Dev nD) (t : Fin cfg0.N) (a : Fin 512) (b : Fin 256) :
    (iblk m c 9 t : Vec F S512x256 .f32) (ix2 a b)
      = V m c main_arg5 (ix2 (⟨512 * (tj t + 12) + a.val, by have := tj_lt t; have := a.isLt; omega⟩ : Fin 8192) (⟨256 * (tk t) + b.val, by have := tk_lt t; have := b.isLt; omega⟩ : Fin 2048)) := by
  unfold iblk
  rw [View.read_apply]
  show V m c main_arg5 _ = V m c main_arg5 _
  congr 1
  funext d
  apply Fin.ext
  match d with
  | ⟨0, _⟩ => show win0_9.index t 0 * 512 + 1 * a.val = 512 * (tj t + 12) + a.val; rw [(idx_9 t).1]; omega
  | ⟨1, _⟩ => show win0_9.index t 1 * 256 + 1 * b.val = 256 * (tk t) + b.val; rw [(idx_9 t).2]; omega

theorem iblk_10_apply (c : Dev nD) (t : Fin cfg0.N) (b : Fin 512) :
    (iblk m c 10 t : Vec F S1x512 .f32) (ix2 (0 : Fin 1) b)
      = V m c main_v1 (ix2 (0 : Fin 1) (⟨512 * (tj t) + b.val, by have := tj_lt t; have := b.isLt; omega⟩ : Fin 8192)) := by
  unfold iblk
  rw [View.read_apply]
  show V m c main_v1 _ = V m c main_v1 _
  congr 1
  funext d
  apply Fin.ext
  match d with
  | ⟨0, _⟩ => show win0_10.index t 0 * 1 + 1 * (0 : Fin 1).val = (0 : Fin 1).val; rw [(idx_10 t).1]; rfl
  | ⟨1, _⟩ => show win0_10.index t 1 * 512 + 1 * b.val = 512 * (tj t) + b.val; rw [(idx_10 t).2]; omega

theorem iblk_11_apply (c : Dev nD) (t : Fin cfg0.N) (b : Fin 512) :
    (iblk m c 11 t : Vec F S1x512 .f32) (ix2 (0 : Fin 1) b)
      = V m c main_v1 (ix2 (0 : Fin 1) (⟨512 * (tj t + 4) + b.val, by have := tj_lt t; have := b.isLt; omega⟩ : Fin 8192)) := by
  unfold iblk
  rw [View.read_apply]
  show V m c main_v1 _ = V m c main_v1 _
  congr 1
  funext d
  apply Fin.ext
  match d with
  | ⟨0, _⟩ => show win0_11.index t 0 * 1 + 1 * (0 : Fin 1).val = (0 : Fin 1).val; rw [(idx_11 t).1]; rfl
  | ⟨1, _⟩ => show win0_11.index t 1 * 512 + 1 * b.val = 512 * (tj t + 4) + b.val; rw [(idx_11 t).2]; omega

theorem iblk_12_apply (c : Dev nD) (t : Fin cfg0.N) (b : Fin 512) :
    (iblk m c 12 t : Vec F S1x512 .f32) (ix2 (0 : Fin 1) b)
      = V m c main_v1 (ix2 (0 : Fin 1) (⟨512 * (tj t + 8) + b.val, by have := tj_lt t; have := b.isLt; omega⟩ : Fin 8192)) := by
  unfold iblk
  rw [View.read_apply]
  show V m c main_v1 _ = V m c main_v1 _
  congr 1
  funext d
  apply Fin.ext
  match d with
  | ⟨0, _⟩ => show win0_12.index t 0 * 1 + 1 * (0 : Fin 1).val = (0 : Fin 1).val; rw [(idx_12 t).1]; rfl
  | ⟨1, _⟩ => show win0_12.index t 1 * 512 + 1 * b.val = 512 * (tj t + 8) + b.val; rw [(idx_12 t).2]; omega

theorem iblk_13_apply (c : Dev nD) (t : Fin cfg0.N) (b : Fin 512) :
    (iblk m c 13 t : Vec F S1x512 .f32) (ix2 (0 : Fin 1) b)
      = V m c main_v1 (ix2 (0 : Fin 1) (⟨512 * (tj t + 12) + b.val, by have := tj_lt t; have := b.isLt; omega⟩ : Fin 8192)) := by
  unfold iblk
  rw [View.read_apply]
  show V m c main_v1 _ = V m c main_v1 _
  congr 1
  funext d
  apply Fin.ext
  match d with
  | ⟨0, _⟩ => show win0_13.index t 0 * 1 + 1 * (0 : Fin 1).val = (0 : Fin 1).val; rw [(idx_13 t).1]; rfl
  | ⟨1, _⟩ => show win0_13.index t 1 * 512 + 1 * b.val = 512 * (tj t + 12) + b.val; rw [(idx_13 t).2]; omega

theorem iblk_14_apply (c : Dev nD) (t : Fin cfg0.N) (a : Fin 1024) (b : Fin 512) :
    (iblk m c 14 t : Vec F S1024x512 .f32) (ix2 a b)
      = V m c main_arg2 (ix2 (⟨1024 * (ti t) + a.val, by have := ti_lt t; have := a.isLt; omega⟩ : Fin 4096) (⟨512 * (tj t) + b.val, by have := tj_lt t; have := b.isLt; omega⟩ : Fin 2048)) := by
  unfold iblk
  rw [View.read_apply]
  show V m c main_arg2 _ = V m c main_arg2 _
  congr 1
  funext d
  apply Fin.ext
  match d with
  | ⟨0, _⟩ => show win0_14.index t 0 * 1024 + 1 * a.val = 1024 * (ti t) + a.val; rw [(idx_14 t).1]; omega
  | ⟨1, _⟩ => show win0_14.index t 1 * 512 + 1 * b.val = 512 * (tj t) + b.val; rw [(idx_14 t).2]; omega

end Cert.Kernel.Frame

end
-- ==== Proof.Kernel.BlocksOut.lean ====
/-
  What the region finds in the arrays its windows read — the seven arguments untouched, the two bias vectors added
  and laid out as one row — and, for the two result windows, that the blocks written back at the reduction's last
  steps tile the result arrays, with a block of a whole-array function read at an index.
-/
import proofs.«164211_j64476049047569_2_alg».proof.Proof.Kernel.Blocks
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal

set_option maxRecDepth 16384

noncomputable section

namespace Cert.Kernel.Frame

open Idealize.ShloMosaic Idealize.ShloMosaic.TcCoe Idealize.ShloMosaic.Tactic
open Idealize.SL Idealize.SL.Sem
open Idealize.ShloMosaic.Pipeline (Dat Cfg Window)
open Idealize.ShloMosaic.ValueIdx Idealize.ShloMosaic.StableHlo
open Cert.Kernel Cert.Kernel.Gen

variable {F : FTy → Type} [FloatOps F]

variable (m : (ℓ : Loc nD τ sig) → Buf (Elt F) ℓ)

/-! ## The arguments as the region finds them -/

theorem V_arg0 (c : Dev nD) : V m c main_arg0 = m ((c : Thread nD τ).loc main_arg0) := by
  show StableHlo.after hostOps0 (fun b => m (c, b)) (Proc.devRef .tc main_arg0) = _
  after_results
  all_goals rfl
theorem V_arg1 (c : Dev nD) : V m c main_arg1 = m ((c : Thread nD τ).loc main_arg1) := by
  show StableHlo.after hostOps0 (fun b => m (c, b)) (Proc.devRef .tc main_arg1) = _
  after_results
  all_goals rfl
theorem V_arg2 (c : Dev nD) : V m c main_arg2 = m ((c : Thread nD τ).loc main_arg2) := by
  show StableHlo.after hostOps0 (fun b => m (c, b)) (Proc.devRef .tc main_arg2) = _
  after_results
  all_goals rfl
theorem V_arg3 (c : Dev nD) : V m c main_arg3 = m ((c : Thread nD τ).loc main_arg3) := by
  show StableHlo.after hostOps0 (fun b => m (c, b)) (Proc.devRef .tc main_arg3) = _
  after_results
  all_goals rfl
theorem V_arg4 (c : Dev nD) : V m c main_arg4 = m ((c : Thread nD τ).loc main_arg4) := by
  show StableHlo.after hostOps0 (fun b => m (c, b)) (Proc.devRef .tc main_arg4) = _
  after_results
  all_goals rfl
theorem V_arg5 (c : Dev nD) : V m c main_arg5 = m ((c : Thread nD τ).loc main_arg5) := by
  show StableHlo.after hostOps0 (fun b => m (c, b)) (Proc.devRef .tc main_arg5) = _
  after_results
  all_goals rfl
theorem V_arg6 (c : Dev nD) : V m c main_arg6 = m ((c : Thread nD τ).loc main_arg6) := by
  show StableHlo.after hostOps0 (fun b => m (c, b)) (Proc.devRef .tc main_arg6) = _
  after_results
  all_goals rfl

/-- The bias row the region finds: at column `n`, the sum of the two bias vectors at `n`. -/
theorem V_v1_apply (mI : (ℓ : Loc nD τ sig) → Buf (Elt Ideal) ℓ) (c : Dev nD) (n : Fin 8192) :
    (V (F := Ideal) mI c main_v1 : S1x8192.Idx → EReal) (ix2 (0 : Fin 1) n)
      = @HAdd.hAdd EReal EReal EReal instHAdd ((mI ((c : Thread nD τ).loc main_arg4) : S8192.Idx → EReal) (ix1 n)) ((mI ((c : Thread nD τ).loc main_arg6) : S8192.Idx → EReal) (ix1 n)) := by
  have e : (V (F := Ideal) mI c main_v1 : S1x8192.Idx → EReal)
      = shapeCast S1x8192 (addf (F := Ideal) (φ := .f32) (mI ((c : Thread nD τ).loc main_arg4) : S8192.Idx → EReal) (mI ((c : Thread nD τ).loc main_arg6) : S8192.Idx → EReal)) shapeCasts_S8192_S1x8192 := by
    show StableHlo.after hostOps0 (fun b => mI (c, b)) (Proc.devRef .tc main_v1) = _
    after_results
    all_goals rfl
  rw [e, shapeCast_a_1a_apply]
  rfl

/-! ## The two result windows -/

theorem oblk_15_apply (c : Dev nD) (G : Buf (Elt F) ((c : Thread nD τ).loc main_v2_0)) (t : Fin cfg0.N) (a : Fin 1024) (b : Fin 512) :
    (((cfg0.win 15).blk t).view.read (Elt F) G : Vec F S1024x512 .f32) (ix2 a b)
      = G (ix2 (⟨1024 * (ti t) + a.val, by have := ti_lt t; have := a.isLt; omega⟩ : Fin 4096) (⟨512 * (tj t) + b.val, by have := tj_lt t; have := b.isLt; omega⟩ : Fin 2048)) := by
  rw [View.read_apply]
  show G _ = G _
  congr 1
  funext d
  apply Fin.ext
  match d with
  | ⟨0, _⟩ => show win0_15.index t 0 * 1024 + 1 * a.val = 1024 * (ti t) + a.val; rw [(idx_15 t).1]; omega
  | ⟨1, _⟩ => show win0_15.index t 1 * 512 + 1 * b.val = 512 * (tj t) + b.val; rw [(idx_15 t).2]; omega

theorem cover_15 (c : Dev nD) : ∀ i : ((cfg0.win 15).arr.view.loc (c.tc : Thread nD τ)).2.ty.Idx,
    ∃ t : Fin cfg0.N, (cfg0.win 15).flush t = true ∧ i ∈ ((cfg0.win 15).blk t).view.set := by
  intro i
  have h0 : (i 0 : Nat) < 4096 := (i 0).isLt
  have h1 : (i 1 : Nat) < 2048 := (i 1).isLt
  have hN : 32 * ((i 0 : Nat) / 1024) + 8 * ((i 1 : Nat) / 512) + 7 < cfg0.N := by rw [show cfg0.N = 128 from N_0]; omega
  have hti : ti ⟨_, hN⟩ = (i 0 : Nat) / 1024 := by unfold ti; show (32 * ((i 0 : Nat) / 1024) + 8 * ((i 1 : Nat) / 512) + 7) / 32 = _; omega
  have htj : tj ⟨_, hN⟩ = (i 1 : Nat) / 512 := by unfold tj; show (32 * ((i 0 : Nat) / 1024) + 8 * ((i 1 : Nat) / 512) + 7) / 8 % 4 = _; omega
  refine ⟨⟨_, hN⟩, (flush0_15 _).mpr (by show (32 * ((i 0 : Nat) / 1024) + 8 * ((i 1 : Nat) / 512) + 7) % 8 = 7; omega), ?_⟩
  show i ∈ ((View.whole main_v2_0).slice (win0_15.rect ⟨_, hN⟩)).set
  rw [View.set_slice_whole, Rect.mem_set_unit]
  intro a
  match a with
  | ⟨0, _⟩ => show win0_15.index ⟨_, hN⟩ 0 * 1024 ≤ (i 0 : Nat) ∧ (i 0 : Nat) < win0_15.index ⟨_, hN⟩ 0 * 1024 + 1024
              rw [(idx_15 ⟨_, hN⟩).1, hti]; omega
  | ⟨1, _⟩ => show win0_15.index ⟨_, hN⟩ 1 * 512 ≤ (i 1 : Nat) ∧ (i 1 : Nat) < win0_15.index ⟨_, hN⟩ 1 * 512 + 512
              rw [(idx_15 ⟨_, hN⟩).2, htj]; omega

theorem oblk_16_apply (c : Dev nD) (G : Buf (Elt F) ((c : Thread nD τ).loc main_v2_1)) (t : Fin cfg0.N) (a : Fin 1024) (b : Fin 512) :
    (((cfg0.win 16).blk t).view.read (Elt F) G : Vec F S1024x512 .f32) (ix2 a b)
      = G (ix2 (⟨1024 * (ti t) + a.val, by have := ti_lt t; have := a.isLt; omega⟩ : Fin 4096) (⟨512 * (tj t) + b.val, by have := tj_lt t; have := b.isLt; omega⟩ : Fin 2048)) := by
  rw [View.read_apply]
  show G _ = G _
  congr 1
  funext d
  apply Fin.ext
  match d with
  | ⟨0, _⟩ => show win0_16.index t 0 * 1024 + 1 * a.val = 1024 * (ti t) + a.val; rw [(idx_16 t).1]; omega
  | ⟨1, _⟩ => show win0_16.index t 1 * 512 + 1 * b.val = 512 * (tj t) + b.val; rw [(idx_16 t).2]; omega

theorem cover_16 (c : Dev nD) : ∀ i : ((cfg0.win 16).arr.view.loc (c.tc : Thread nD τ)).2.ty.Idx,
    ∃ t : Fin cfg0.N, (cfg0.win 16).flush t = true ∧ i ∈ ((cfg0.win 16).blk t).view.set := by
  intro i
  have h0 : (i 0 : Nat) < 4096 := (i 0).isLt
  have h1 : (i 1 : Nat) < 2048 := (i 1).isLt
  have hN : 32 * ((i 0 : Nat) / 1024) + 8 * ((i 1 : Nat) / 512) + 7 < cfg0.N := by rw [show cfg0.N = 128 from N_0]; omega
  have hti : ti ⟨_, hN⟩ = (i 0 : Nat) / 1024 := by unfold ti; show (32 * ((i 0 : Nat) / 1024) + 8 * ((i 1 : Nat) / 512) + 7) / 32 = _; omega
  have htj : tj ⟨_, hN⟩ = (i 1 : Nat) / 512 := by unfold tj; show (32 * ((i 0 : Nat) / 1024) + 8 * ((i 1 : Nat) / 512) + 7) / 8 % 4 = _; omega
  refine ⟨⟨_, hN⟩, (flush0_16 _).mpr (by show (32 * ((i 0 : Nat) / 1024) + 8 * ((i 1 : Nat) / 512) + 7) % 8 = 7; omega), ?_⟩
  show i ∈ ((View.whole main_v2_1).slice (win0_16.rect ⟨_, hN⟩)).set
  rw [View.set_slice_whole, Rect.mem_set_unit]
  intro a
  match a with
  | ⟨0, _⟩ => show win0_16.index ⟨_, hN⟩ 0 * 1024 ≤ (i 0 : Nat) ∧ (i 0 : Nat) < win0_16.index ⟨_, hN⟩ 0 * 1024 + 1024
              rw [(idx_16 ⟨_, hN⟩).1, hti]; omega
  | ⟨1, _⟩ => show win0_16.index ⟨_, hN⟩ 1 * 512 ≤ (i 1 : Nat) ∧ (i 1 : Nat) < win0_16.index ⟨_, hN⟩ 1 * 512 + 512
              rw [(idx_16 ⟨_, hN⟩).2, htj]; omega

end Cert.Kernel.Frame

end
-- ==== Proof.LibSharedLaunch.lean ====
/-
  The launch of a pipeline kernel whose windows may SHARE ARRAYS, for the plainest class of kernels: one region on a
  static grid, no semaphore, transfer or cross-core traffic of the kernel's own, the scratch buffers and the generator
  register used freely by the body.

  `θ_run_frame_track_shared` is the frame run with a tracking invariant (the library's `Pipeline.θ_run_frame_track`)
  with the hypothesis that the windows' arrays are pairwise distinct removed. In place of the layout bundle it takes
  the layout facts that survive sharing (the staging cells distinct, the windows laid out as `WinFacts₀` says, no block
  empty, arrays and staging memrefs whole buffers); in place of "every window lends the full share of its array, at the
  entry contents" it takes the entailment `hsplit`: the buffers behind the arrays, each whole at the full share at the
  entry contents `V c` (`Pipeline.arrBufs`), yield the proof data's arrays at point 0 (`Dat.arrays` at `Dat.arrAt · 0`)
  — an array read by several input windows split among them, each window at its own share. The conclusion is the same
  `Pipeline.FramePost`: every window's array holds `Dat.arrAt w N`, every bypassing unscoped buffer its entry contents.
-/
import Idealize.ShloMosaic.Lib.Pipeline.Frame

noncomputable section

namespace Cert.LibSharedLaunch

open Idealize.ShloMosaic
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.TcCoe
open Idealize.ShloMosaic.Pipeline
open Idealize.ShloMosaic.Rounds

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- THE FRAME RUN with a tracking invariant, for windows that may share arrays: as `Pipeline.θ_run_frame_track`, the
    arrays' distinctness dropped; the certificate says how the buffers behind the arrays make the proof data's arrays at
    entry (`hsplit`). Every weakly fair execution of @main on the TensorCores terminates, and every final state
    satisfies `FramePost`: each window's array at `arrAt w N`, every bypassing buffer at its entry contents. -/
theorem θ_run_frame_track_shared
    (hinj : Function.Injective (Pipeline.cellOf (nD := nD) (τ := τ) cfgs))
    (hw : Pipeline.WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (Pipeline.arrBufs (cfg).spec c (V c) : sProp 𝕄) ⊢ (dats p c).arrays ((dats p c).arrAt · 0))
    (hin : ∀ c, ΦA (cfg).spec c ⊢ (dats p c).Φ 0) (hout : ∀ c, (dats p c).Φ (Fin.last (cfg).N) ⊢ ΦA (cfg).spec c) :
    θ_run 𝔻 (onTc main) (s₀ m g) (FramePost cfgs dats p V) := by
  classical
  exact Pipeline.θ_run_region_pf (fun q => (cfgs q).toPCfg (Val := Val)) (fun q => (cfgs q).toPCfg_adm) dats () hinj p hw
    (OwnSemFacts.none (cfg).spec) (PreFacts.none _) emb₁ defs₀ 𝒱₀ m g main
    hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := hsplit)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) ((cfg).toPCfg (Val := Val)).pre (cfg).spec c (V c))
    (hX := fun c => by
      iintro ⟨HU, -, -, -, Hp, -⟩; imodintro
      isplitl [Hp]; · iexists _; iexact Hp
      iexact HU)
    (hin := fun c => by
      exact (show _ ⊢ ΦA (cfg).spec c by
        unfold ΦA; iintro ⟨Hp, -, Hr⟩
        isplitl [Hr] <;> iassumption).trans (hin c))
    (hout := fun c => by
      exact (hout c).trans (by
        rw [ownSems0_none]; unfold ΦA
        iintro ⟨Hr, Hp⟩
        isplitl [Hp]; · iexact Hp
        isplitr; · iempintro
        iexact Hr))
    (QY := fun c s => ∀ b ∈ restRefsP sig ((cfg).toPCfg (Val := Val)).pre (cfg).spec, s.mem ((c.tc : Thread nD τ).loc b) = V c b)
    (hY := fun c s' => by
      iintro ⟨-, HU, HSI⟩
      unfold unscopedRestP
      imodintro
      iapply (pointsTo_read_all (restRefsP sig ((cfg).toPCfg (Val := Val)).pre (cfg).spec) (fun b => (c.tc : Thread nD τ).loc b) (V c) s')
      isplitl [HU] <;> iassumption)
    (hQ := fun s h c => ⟨(h c).1, rest_of_restP ((cfg).toPCfg (Val := Val)).pre (cfg).spec (fun k => k.elim0) c (V c) s (fun k => k.elim0) (h c).2.1 (h c).2.2⟩)

end Cert.LibSharedLaunch

end
-- ==== Proof.Kernel.FrameRun.lean ====
/-
  The launch: the body obligation at every point gives the frame run of the whole program — the two host operations, then
  the region over its 128 grid points — for a pipeline whose weight and bias arrays are each read through four windows
  (each window holding a quarter of its array). At the end every array of the pipeline holds what the proof data says
  and every other buffer what it held when the region was entered; read at the seven argument arrays this is the frame:
  the five that the pipeline reads are inputs, never written, and the two bias vectors bypass the region.
-/
import proofs.«164211_j64476049047569_2_alg».proof.Proof.Kernel.Body
import proofs.«164211_j64476049047569_2_alg».proof.Proof.Kernel.BlocksOut
import proofs.«164211_j64476049047569_2_alg».proof.Proof.LibSharedLaunch

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Cert.LibSharedLaunch.θ_run_frame_track_shared cfgs (dats m) (0 : Fin 1) defs₀ Variants.none cellOf_inj winFacts₀0 block_pos0 arr_whole0 stage_whole0 m ρ main
    (fun c => (body_obligation m c).loose) (fun _ _ => rfl) (V m) (hmain m Variants.none)
    (fun c => arrays_of_arrBufs c (dats m 0 c) rfl (V m c) (A_eq m c)) (hin m) (hout m)

/-- The frame run's post read at the seven argument arrays: each ends at its launch contents. -/
theorem args_of_post (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_arg0 m c))),
    ((h c).1 1).trans (((dats m 0 c).arrAt_in 1 rfl _).trans ((A_eq m c 1).trans (V_arg1 m c))),
    ((h c).1 14).trans (((dats m 0 c).arrAt_in 14 rfl _).trans ((A_eq m c 14).trans (V_arg2 m c))),
    ((h c).1 2).trans (((dats m 0 c).arrAt_in 2 rfl _).trans ((A_eq m c 2).trans (V_arg3 m c))),
    ((h c).2 main_arg4 (Pipeline.mem_restRefs_of main_arg4 rfl (by decide))).trans (V_arg4 m c),
    ((h c).1 6).trans (((dats m 0 c).arrAt_in 6 rfl _).trans ((A_eq m c 6).trans (V_arg5 m c))),
    ((h c).2 main_arg6 (Pipeline.mem_restRefs_of main_arg6 rfl (by decide))).trans (V_arg6 m c)⟩

/-- THE FRAME: the program runs to its end without a fault and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_of_post m r h c) (run_main m ρ)

end Cert.Kernel.Frame

end
-- ==== Proof.KernelIdeal.Runs.lean ====
/-
  What the three runs of the kernel body share: the contents of the TensorCore's buffers when the region is entered
  (the two biases already added and laid out as one row), each window's block at a grid point, the two conditions the
  body branches on — the reduction's first step (the four accumulators are reset) and its last (the gates are
  activated and the two results stored) — decided over the grid in closed form, where the two result windows are idle,
  and the staging and scratch memrefs as the pipeline passes them to the body.

  The grid is (4, 4, 8): batch tile, hidden tile, reduction step; point `t` has reduction step `t mod 8`.
-/
import proofs.«164211_j64476049047569_2_alg».proof.Proof.Gen.KernelIdeal.Launch
import proofs.«164211_j64476049047569_2_alg».proof.Proof.Gen.KernelIdeal.Skeleton
import proofs.«164211_j64476049047569_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s TensorCore buffer contents when the region is entered: the launch contents after the two host
    operations before it (the sum of the two bias vectors, and that sum as a one-row matrix). -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the two host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched its block index has not moved, and the body leaves the block in place. One statement per input window. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions -/

/-- "This is the reduction's first step": the body then resets the four accumulators. -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the reduction's last step": the body then activates the gates and stores the two results. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the result windows are idle -/

/-- Off the reduction's last step the two result windows are idle: nothing is stored into them, -/
theorem idleAt_15 : ∀ t : Fin cfg0.N, ¬cond0_1 (grid0.coords t) → cfg0.idle 15 (grid0.coords t) = true := by decide +kernel
theorem idleAt_16 : ∀ t : Fin cfg0.N, ¬cond0_1 (grid0.coords t) → cfg0.idle 16 (grid0.coords t) = true := by decide +kernel
/-- and their blocks are not written back there. -/
theorem noFlush_15 : ∀ t : Fin cfg0.N, ¬cond0_1 (grid0.coords t) → (cfg0.win 15).flush t = false := by decide +kernel
theorem noFlush_16 : ∀ t : Fin cfg0.N, ¬cond0_1 (grid0.coords t) → (cfg0.win 16).flush t = false := by decide +kernel
/-- At the reduction's last step they are live. -/
theorem liveAt_15 : ∀ t : Fin cfg0.N, cond0_1 (grid0.coords t) → cfg0.idle 15 (grid0.coords t) = false := by decide +kernel
theorem liveAt_16 : ∀ t : Fin cfg0.N, cond0_1 (grid0.coords t) → cfg0.idle 16 (grid0.coords t) = false := by decide +kernel

/-! ## The memrefs the body is called with -/

/-- One staging buffer of each result window, through which its contents are stated. -/
abbrev VO_15 : View sig .tc .vmem S1024x512 .f32 := (Memref.whole cc0_stg15_0 : Memref sig .tc .vmem S1024x512 .f32).view
abbrev VO_16 : View sig .tc .vmem S1024x512 .f32 := (Memref.whole cc0_stg16_0 : Memref sig .tc .vmem S1024x512 .f32).view
abbrev ms_0 (t : Fin cfg0.N) : Memref sig .tc .vmem S1024x256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x256 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S512x256 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S512x256 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S512x256 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S512x256 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S512x256 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S512x256 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S512x256 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1x512 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S1x512 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S1x512 .f32 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S1x512 .f32 := win0_13.stage (cfg0.slots t 13)
abbrev hs_13 (t : Fin cfg0.N) : (ms_13 t).IsWhole := hstage0_13 ((cfg0.slots t 13).cast nbuf0_13)
abbrev ms_14 (t : Fin cfg0.N) : Memref sig .tc .vmem S1024x512 .f32 := win0_14.stage (cfg0.slots t 14)
abbrev hs_14 (t : Fin cfg0.N) : (ms_14 t).IsWhole := hstage0_14 ((cfg0.slots t 14).cast nbuf0_14)
abbrev ms_15 (t : Fin cfg0.N) : Memref sig .tc .vmem S1024x512 .f32 := win0_15.stage (cfg0.slots t 15)
abbrev hs_15 (t : Fin cfg0.N) : (ms_15 t).IsWhole := hstage0_15 ((cfg0.slots t 15).cast nbuf0_15)
abbrev ms_16 (t : Fin cfg0.N) : Memref sig .tc .vmem S1024x512 .f32 := win0_16.stage (cfg0.slots t 16)
abbrev hs_16 (t : Fin cfg0.N) : (ms_16 t).IsWhole := hstage0_16 ((cfg0.slots t 16).cast nbuf0_16)
/-- Accumulator 0: a whole scratch buffer of the kernel's own. -/
abbrev scM_0 : Memref sig .tc .vmem S1024x512 .f32 := Memref.whole cc0_scratch0
abbrev VS_0 : View sig .tc .vmem S1024x512 .f32 := scM_0.view
/-- Accumulator 1: a whole scratch buffer of the kernel's own. -/
abbrev scM_1 : Memref sig .tc .vmem S1024x512 .f32 := Memref.whole cc0_scratch1
abbrev VS_1 : View sig .tc .vmem S1024x512 .f32 := scM_1.view
/-- Accumulator 2: a whole scratch buffer of the kernel's own. -/
abbrev scM_2 : Memref sig .tc .vmem S1024x512 .f32 := Memref.whole cc0_scratch2
abbrev VS_2 : View sig .tc .vmem S1024x512 .f32 := scM_2.view
/-- Accumulator 3: a whole scratch buffer of the kernel's own. -/
abbrev scM_3 : Memref sig .tc .vmem S1024x512 .f32 := Memref.whole cc0_scratch3
abbrev VS_3 : View sig .tc .vmem S1024x512 .f32 := scM_3.view

/-- The region's plain invariant, with the four accumulators as memrefs owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ (∃ d, owns (c : Thread nD τ) scM_2 fullShare d) ∗ (∃ d, owns (c : Thread nD τ) scM_3 fullShare d)) ∗ (∃ r, prngReg c r)) := by
  unfold Pipeline.ΦA; rw [scopedRest0_eq]; simp only [scM_0, scM_1, scM_2, scM_3, owns_whole]; try rfl

end Cert.KernelIdeal.Frame

end
-- ==== Proof.KernelIdeal.RunA.lean ====
/-
  The kernel body run at the reduction's FIRST step: the four accumulators, holding anything, are reset to zero and the step's products added; the two result buffers are left as found.
  On whole staging memrefs holding the inputs' blocks the body runs to its end, the inputs as they were, each buffer it
  stored into holding its stores as a list of pieces (last first) that the symbolic run finds.
-/
import proofs.«164211_j64476049047569_2_alg».proof.Proof.KernelIdeal.Runs

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two result buffers and the four accumulators, with the body's triple over them. -/
noncomputable def kernelRun_A (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) :
    Σ' (L15 L16 LS0 LS1 LS2 : List (View.Piece (Elt F) S1024x512 .f32)), { LS3 : List (View.Piece (Elt F) S1024x512 .f32) //
      ∀ (xi15 xi16 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], ?_, ?_, ?_, ?_, fun xi15 xi16 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [HS0]; · iexists _; iexact HS0
    isplitl [HS1]; · iexists _; iexact HS1
    isplitl [HS2]; · iexists _; iexact HS2
    iexists _; iexact HS3

end Cert.KernelIdeal.Frame

end
-- ==== Proof.KernelIdeal.RunB.lean ====
/-
  The kernel body run at a MIDDLE step of the reduction: the step's products are added to the four accumulators; the two result buffers are left as found.
  On whole staging memrefs holding the inputs' blocks the body runs to its end, the inputs as they were, each buffer it
  stored into holding its stores as a list of pieces (last first) that the symbolic run finds.
-/
import proofs.«164211_j64476049047569_2_alg».proof.Proof.KernelIdeal.RunA

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two result buffers and the four accumulators, with the body's triple over them. -/
noncomputable def kernelRun_B (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) :
    Σ' (L15 L16 LS0 LS1 LS2 : List (View.Piece (Elt F) S1024x512 .f32)), { LS3 : List (View.Piece (Elt F) S1024x512 .f32) //
      ∀ (xi15 xi16 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], ?_, ?_, ?_, ?_, fun xi15 xi16 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hfs0; obtain rfl := harg21.eq_unread hfs1; obtain rfl := harg22.eq_unread hfs2; obtain rfl := harg23.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [HS0]; · iexists _; iexact HS0
    isplitl [HS1]; · iexists _; iexact HS1
    isplitl [HS2]; · iexists _; iexact HS2
    iexists _; iexact HS3

end Cert.KernelIdeal.Frame

end
-- ==== Proof.KernelIdeal.RunC.lean ====
/-
  The kernel body run at the reduction's LAST step: the step's products are added to the four accumulators, then the gates are activated from them, the biases and the previous cell state, and the new hidden and cell states stored whole into the two result buffers.
  On whole staging memrefs holding the inputs' blocks the body runs to its end, the inputs as they were, each buffer it
  stored into holding its stores as a list of pieces (last first) that the symbolic run finds.
-/
import proofs.«164211_j64476049047569_2_alg».proof.Proof.KernelIdeal.RunB

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's stores leave in the two result buffers and the four accumulators, with the body's triple over them. -/
noncomputable def kernelRun_C (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) :
    Σ' (L15 L16 LS0 LS1 LS2 : List (View.Piece (Elt F) S1024x512 .f32)), { LS3 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f L16) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0__fused_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg20.eq_unread hfs0; obtain rfl := harg21.eq_unread hfs1; obtain rfl := harg22.eq_unread hfs2; obtain rfl := harg23.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]; · iexists _; iexact H15
    isplitl [H16]; · iexists _; iexact H16
    isplitl [HS0]; · iexists _; iexact HS0
    isplitl [HS1]; · iexists _; iexact HS1
    isplitl [HS2]; · iexists _; iexact HS2
    iexists _; iexact HS3

end Cert.KernelIdeal.Frame

end
-- ==== Proof.KernelIdeal.Pieces.lean ====
/-
  What each of the body's three runs leaves in the four accumulators, and the last step's in the two result buffers:
  the run's stores read back, with the fact that they cover the buffer.
-/
import proofs.«164211_j64476049047569_2_alg».proof.Proof.KernelIdeal.RunC

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores of this case into accumulator 0 cover it. -/
theorem scover_A_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (y : S1024x512.Idx) :
    ∃ pc ∈ (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.1, y ∈ pc.1.set :=
  View.cover_of_tiledL (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.1 S1024x512.size (by sl_kernel_rfl) y

/-- What this case leaves in accumulator 0: its stores read back. -/
def sout_A_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) : Vec F S1024x512 .f32 :=
  VS_0.read (Elt F) (VS_0.writes (Elt F) VS_0.junk (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.1)

/-- The stores of this case into accumulator 1 cover it. -/
theorem scover_A_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (y : S1024x512.Idx) :
    ∃ pc ∈ (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.1, y ∈ pc.1.set :=
  View.cover_of_tiledL (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.1 S1024x512.size (by sl_kernel_rfl) y

/-- What this case leaves in accumulator 1: its stores read back. -/
def sout_A_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) : Vec F S1024x512 .f32 :=
  VS_1.read (Elt F) (VS_1.writes (Elt F) VS_1.junk (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.1)

/-- The stores of this case into accumulator 2 cover it. -/
theorem scover_A_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (y : S1024x512.Idx) :
    ∃ pc ∈ (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.2.1, y ∈ pc.1.set :=
  View.cover_of_tiledL (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.2.1 S1024x512.size (by sl_kernel_rfl) y

/-- What this case leaves in accumulator 2: its stores read back. -/
def sout_A_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) : Vec F S1024x512 .f32 :=
  VS_2.read (Elt F) (VS_2.writes (Elt F) VS_2.junk (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.2.1)

/-- The stores of this case into accumulator 3 cover it. -/
theorem scover_A_3 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (y : S1024x512.Idx) :
    ∃ pc ∈ (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.2.2.1, y ∈ pc.1.set :=
  View.cover_of_tiledL (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.2.2.1 S1024x512.size (by sl_kernel_rfl) y

/-- What this case leaves in accumulator 3: its stores read back. -/
def sout_A_3 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) : Vec F S1024x512 .f32 :=
  VS_3.read (Elt F) (VS_3.writes (Elt F) VS_3.junk (kernelRun_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14).2.2.2.2.2.1)

/-- The stores of this case into accumulator 0 cover it. -/
theorem scover_B_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.1, y ∈ pc.1.set :=
  View.cover_of_tiledL (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.1 S1024x512.size (by sl_kernel_rfl) y

/-- What this case leaves in accumulator 0: its stores read back. -/
def sout_B_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_0.read (Elt F) (VS_0.writes (Elt F) VS_0.junk (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.1)

/-- The stores of this case into accumulator 1 cover it. -/
theorem scover_B_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.1, y ∈ pc.1.set :=
  View.cover_of_tiledL (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.1 S1024x512.size (by sl_kernel_rfl) y

/-- What this case leaves in accumulator 1: its stores read back. -/
def sout_B_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_1.read (Elt F) (VS_1.writes (Elt F) VS_1.junk (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.1)

/-- The stores of this case into accumulator 2 cover it. -/
theorem scover_B_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.1, y ∈ pc.1.set :=
  View.cover_of_tiledL (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.1 S1024x512.size (by sl_kernel_rfl) y

/-- What this case leaves in accumulator 2: its stores read back. -/
def sout_B_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_2.read (Elt F) (VS_2.writes (Elt F) VS_2.junk (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.1)

/-- The stores of this case into accumulator 3 cover it. -/
theorem scover_B_3 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.2.1, y ∈ pc.1.set :=
  View.cover_of_tiledL (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.2.1 S1024x512.size (by sl_kernel_rfl) y

/-- What this case leaves in accumulator 3: its stores read back. -/
def sout_B_3 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_3.read (Elt F) (VS_3.writes (Elt F) VS_3.junk (kernelRun_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.2.1)

/-- The stores of this case into accumulator 0 cover it. -/
theorem scover_C_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.1 S1024x512.size (by sl_kernel_rfl) y

/-- What this case leaves in accumulator 0: its stores read back. -/
def sout_C_0 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_0.read (Elt F) (VS_0.writes (Elt F) VS_0.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.1)

/-- The stores of this case into accumulator 1 cover it. -/
theorem scover_C_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.1 S1024x512.size (by sl_kernel_rfl) y

/-- What this case leaves in accumulator 1: its stores read back. -/
def sout_C_1 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_1.read (Elt F) (VS_1.writes (Elt F) VS_1.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.1)

/-- The stores of this case into accumulator 2 cover it. -/
theorem scover_C_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.1 S1024x512.size (by sl_kernel_rfl) y

/-- What this case leaves in accumulator 2: its stores read back. -/
def sout_C_2 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_2.read (Elt F) (VS_2.writes (Elt F) VS_2.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.1)

/-- The stores of this case into accumulator 3 cover it. -/
theorem scover_C_3 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.2.1 S1024x512.size (by sl_kernel_rfl) y

/-- What this case leaves in accumulator 3: its stores read back. -/
def sout_C_3 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VS_3.read (Elt F) (VS_3.writes (Elt F) VS_3.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.2.2.2.2.1)

/-- The last step's stores into result window 15 cover it. -/
theorem cover_C_15 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).1 S1024x512.size (by sl_kernel_rfl) y

/-- What the last step leaves in result window 15's buffer: its stores read back. -/
def out_C_15 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VO_15.read (Elt F) (VO_15.writes (Elt F) VO_15.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).1)

/-- The last step's stores into result window 16 cover it. -/
theorem cover_C_16 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) (y : S1024x512.Idx) :
    ∃ pc ∈ (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.1, y ∈ pc.1.set :=
  View.cover_of_tiledL (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.1 S1024x512.size (by sl_kernel_rfl) y

/-- What the last step leaves in result window 16's buffer: its stores read back. -/
def out_C_16 (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) : Vec F S1024x512 .f32 :=
  VO_16.read (Elt F) (VO_16.writes (Elt F) VO_16.junk (kernelRun_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3).2.1)

end Cert.KernelIdeal.Frame

end
-- ==== Proof.KernelIdeal.PieceVals.lean ====
/-
  What the body's runs leave, as values: each accumulator after a step is its one covering store's payload — the
  accumulator as the step found it (zero at a first step: the reset's store read back) plus the step's two products —
  and the two result buffers after a last step are the gates' payloads over the updated accumulators, the bias rows and
  the previous cell state. A load through the whole-shape rectangle reads the buffer's contents.
-/
import proofs.«164211_j64476049047569_2_alg».proof.Proof.KernelIdeal.Pieces
import Idealize.ShloMosaic.Lib.Pipeline.Value

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

set_option maxHeartbeats 1000000 in
theorem sout_A_0_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) :
    sout_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 = k0_pay12 x0 x1 x2 x6 (k0_pay6 (F := F)) := by
  unfold sout_A_0
  rw [View.read_writes_eq_canon _ _ _ (scover_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14)]
  unfold kernelRun_A
  dsimp only
  try sl_unfold_words
  first | rw [View.canon_unit_zero hz] | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S512x256) hz, View.ld_unit_zero (S := S1x512) hz, View.ld_unit_zero (S := S1024x512) hz]

set_option maxHeartbeats 1000000 in
theorem sout_A_1_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) :
    sout_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 = k0_pay1 (k0_pay13 x0 x1 x3 x7 (k0_pay7 (F := F))) := by
  unfold sout_A_1
  rw [View.read_writes_eq_canon _ _ _ (scover_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14)]
  unfold kernelRun_A
  dsimp only
  try sl_unfold_words
  first | rw [View.canon_unit_zero hz] | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S512x256) hz, View.ld_unit_zero (S := S1x512) hz, View.ld_unit_zero (S := S1024x512) hz]

set_option maxHeartbeats 1000000 in
theorem sout_A_2_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) :
    sout_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 = k0_pay2 (k0_pay10 x0) (k0_pay11 x1) x4 x8 (k0_pay8 (F := F)) := by
  unfold sout_A_2
  rw [View.read_writes_eq_canon _ _ _ (scover_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14)]
  unfold kernelRun_A
  dsimp only
  try sl_unfold_words
  first | rw [View.canon_unit_zero hz] | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S512x256) hz, View.ld_unit_zero (S := S1x512) hz, View.ld_unit_zero (S := S1024x512) hz]

set_option maxHeartbeats 1000000 in
theorem sout_A_3_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) :
    sout_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 = k0_pay3 (k0_pay10 x0) (k0_pay11 x1) x5 x9 (k0_pay9 (F := F)) := by
  unfold sout_A_3
  rw [View.read_writes_eq_canon _ _ _ (scover_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14)]
  unfold kernelRun_A
  dsimp only
  try sl_unfold_words
  first | rw [View.canon_unit_zero hz] | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S512x256) hz, View.ld_unit_zero (S := S1x512) hz, View.ld_unit_zero (S := S1024x512) hz]

set_option maxHeartbeats 1000000 in
theorem sout_B_0_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) :
    sout_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = k0_pay12 x0 x1 x2 x6 xs0 := by
  unfold sout_B_0
  rw [View.read_writes_eq_canon _ _ _ (scover_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun_B
  dsimp only
  try sl_unfold_words
  first | rw [View.canon_unit_zero hz] | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S512x256) hz, View.ld_unit_zero (S := S1x512) hz, View.ld_unit_zero (S := S1024x512) hz]

set_option maxHeartbeats 1000000 in
theorem sout_B_1_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) :
    sout_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = k0_pay1 (k0_pay13 x0 x1 x3 x7 xs1) := by
  unfold sout_B_1
  rw [View.read_writes_eq_canon _ _ _ (scover_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun_B
  dsimp only
  try sl_unfold_words
  first | rw [View.canon_unit_zero hz] | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S512x256) hz, View.ld_unit_zero (S := S1x512) hz, View.ld_unit_zero (S := S1024x512) hz]

set_option maxHeartbeats 1000000 in
theorem sout_B_2_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) :
    sout_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = k0_pay2 (k0_pay10 x0) (k0_pay11 x1) x4 x8 xs2 := by
  unfold sout_B_2
  rw [View.read_writes_eq_canon _ _ _ (scover_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun_B
  dsimp only
  try sl_unfold_words
  first | rw [View.canon_unit_zero hz] | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S512x256) hz, View.ld_unit_zero (S := S1x512) hz, View.ld_unit_zero (S := S1024x512) hz]

set_option maxHeartbeats 1000000 in
theorem sout_B_3_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : ¬cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) :
    sout_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = k0_pay3 (k0_pay10 x0) (k0_pay11 x1) x5 x9 xs3 := by
  unfold sout_B_3
  rw [View.read_writes_eq_canon _ _ _ (scover_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun_B
  dsimp only
  try sl_unfold_words
  first | rw [View.canon_unit_zero hz] | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S512x256) hz, View.ld_unit_zero (S := S1x512) hz, View.ld_unit_zero (S := S1024x512) hz]

set_option maxHeartbeats 1000000 in
theorem sout_C_0_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) :
    sout_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = k0_pay12 x0 x1 x2 x6 xs0 := by
  unfold sout_C_0
  rw [View.read_writes_eq_canon _ _ _ (scover_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun_C
  dsimp only
  try sl_unfold_words
  first | rw [View.canon_unit_zero hz] | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S512x256) hz, View.ld_unit_zero (S := S1x512) hz, View.ld_unit_zero (S := S1024x512) hz]

set_option maxHeartbeats 1000000 in
theorem sout_C_1_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) :
    sout_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = k0_pay1 (k0_pay13 x0 x1 x3 x7 xs1) := by
  unfold sout_C_1
  rw [View.read_writes_eq_canon _ _ _ (scover_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun_C
  dsimp only
  try sl_unfold_words
  first | rw [View.canon_unit_zero hz] | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S512x256) hz, View.ld_unit_zero (S := S1x512) hz, View.ld_unit_zero (S := S1024x512) hz]

set_option maxHeartbeats 1000000 in
theorem sout_C_2_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) :
    sout_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = k0_pay2 (k0_pay10 x0) (k0_pay11 x1) x4 x8 xs2 := by
  unfold sout_C_2
  rw [View.read_writes_eq_canon _ _ _ (scover_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun_C
  dsimp only
  try sl_unfold_words
  first | rw [View.canon_unit_zero hz] | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S512x256) hz, View.ld_unit_zero (S := S1x512) hz, View.ld_unit_zero (S := S1024x512) hz]

set_option maxHeartbeats 1000000 in
theorem sout_C_3_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) :
    sout_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = k0_pay3 (k0_pay10 x0) (k0_pay11 x1) x5 x9 xs3 := by
  unfold sout_C_3
  rw [View.read_writes_eq_canon _ _ _ (scover_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun_C
  dsimp only
  try sl_unfold_words
  first | rw [View.canon_unit_zero hz] | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S512x256) hz, View.ld_unit_zero (S := S1x512) hz, View.ld_unit_zero (S := S1024x512) hz]

set_option maxHeartbeats 1000000 in
theorem out_C_16_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) :
    out_C_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = k0_pay4 (k0_pay12 x0 x1 x2 x6 xs0) x10 (k0_pay1 (k0_pay13 x0 x1 x3 x7 xs1)) x11 (k0_pay2 (k0_pay10 x0) (k0_pay11 x1) x4 x8 xs2) x12 x14 := by
  unfold out_C_16
  rw [View.read_writes_eq_canon _ _ _ (cover_C_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun_C
  dsimp only
  try sl_unfold_words
  first | rw [View.canon_unit_zero hz] | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S512x256) hz, View.ld_unit_zero (S := S1x512) hz, View.ld_unit_zero (S := S1024x512) hz]

set_option maxHeartbeats 1000000 in
theorem out_C_15_eq (c : Dev nD) (i : grid0.Coords) (arg3 : Memref sig .tc .vmem S1024x256 .f32) (harg3 : arg3.IsWhole) (arg4 : Memref sig .tc .vmem S1024x256 .f32) (harg4 : arg4.IsWhole) (arg5 : Memref sig .tc .vmem S512x256 .f32) (harg5 : arg5.IsWhole) (arg6 : Memref sig .tc .vmem S512x256 .f32) (harg6 : arg6.IsWhole) (arg7 : Memref sig .tc .vmem S512x256 .f32) (harg7 : arg7.IsWhole) (arg8 : Memref sig .tc .vmem S512x256 .f32) (harg8 : arg8.IsWhole) (arg9 : Memref sig .tc .vmem S512x256 .f32) (harg9 : arg9.IsWhole) (arg10 : Memref sig .tc .vmem S512x256 .f32) (harg10 : arg10.IsWhole) (arg11 : Memref sig .tc .vmem S512x256 .f32) (harg11 : arg11.IsWhole) (arg12 : Memref sig .tc .vmem S512x256 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S1x512 .f32) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole) (hc0 : ¬cond0_0 i) (hc1 : cond0_1 i)
    (x0 : Vec F S1024x256 .f32) (x1 : Vec F S1024x256 .f32) (x2 : Vec F S512x256 .f32) (x3 : Vec F S512x256 .f32) (x4 : Vec F S512x256 .f32) (x5 : Vec F S512x256 .f32) (x6 : Vec F S512x256 .f32) (x7 : Vec F S512x256 .f32) (x8 : Vec F S512x256 .f32) (x9 : Vec F S512x256 .f32) (x10 : Vec F S1x512 .f32) (x11 : Vec F S1x512 .f32) (x12 : Vec F S1x512 .f32) (x13 : Vec F S1x512 .f32) (x14 : Vec F S1024x512 .f32) (xs0 xs1 xs2 xs3 : Vec F S1024x512 .f32) :
    out_C_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = k0_pay5 (k0_pay12 x0 x1 x2 x6 xs0) x10 (k0_pay1 (k0_pay13 x0 x1 x3 x7 xs1)) x11 (k0_pay2 (k0_pay10 x0) (k0_pay11 x1) x4 x8 xs2) x12 (k0_pay3 (k0_pay10 x0) (k0_pay11 x1) x5 x9 xs3) x13 x14 := by
  unfold out_C_15
  rw [View.read_writes_eq_canon _ _ _ (cover_C_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun_C
  dsimp only
  try sl_unfold_words
  first | rw [View.canon_unit_zero hz] | rw [View.canon_cons_unit_zero (S := S1024x512) hz]
  simp only [View.readCov_unit_zero (S := S1024x512) _ hz, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S1024x256) hz, View.ld_unit_zero (S := S512x256) hz, View.ld_unit_zero (S := S1x512) hz, View.ld_unit_zero (S := S1024x512) hz]

end Cert.KernelIdeal.Frame

end
-- ==== Proof.KernelIdeal.Split.lean ====
/-
  The buffers behind the windows' arrays, each whole at the full share, make the proof data's arrays at the region's
  entry, for windows that share arrays: `main_arg3` is read by windows 2–5, `main_arg5` by windows 6–9, `main_v1` by
  windows 10–13, every other window's array by that window alone. Each shared buffer's full share is split into its four
  quarters, one per window reading it (`qShare`); a window alone on its array holds the full share.
-/
import proofs.«164211_j64476049047569_2_alg».proof.Proof.Gen.KernelIdeal.Launch

set_option maxRecDepth 2688

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

variable {F : FTy → Type} [FloatOps F]

/-- Each input window's share of its array: the full share for a window alone on its array (and for the two outputs,
    whose share is the full one whatever is named here), a quarter of it for each of the four windows reading one array. -/
def qShare : Fin 17 → PosShare TreeShare
  | 0 => fullShare
  | 1 => fullShare
  | 2 => fullShare.left.left
  | 3 => fullShare.left.right
  | 4 => fullShare.right.left
  | 5 => fullShare.right.right
  | 6 => fullShare.left.left
  | 7 => fullShare.left.right
  | 8 => fullShare.right.left
  | 9 => fullShare.right.right
  | 10 => fullShare.left.left
  | 11 => fullShare.left.right
  | 12 => fullShare.right.left
  | 13 => fullShare.right.right
  | 14 => fullShare
  | 15 => fullShare
  | 16 => fullShare
  | ⟨_ + 17, h⟩ => absurd h (Nat.not_lt.2 (Nat.le_add_left _ _))

section

variable {Ix : Type} [DecidableEq Ix] {Name : Type} [DecidableEq Name] {U : Type} [URA U] {Lvl : Type}

local notation "𝕄" => MT nD τ sig Ix (Elt F) Name U Lvl

/-- A whole buffer held at the full share is held at its four quarters. -/
theorem pointsTo_quarters (ℓ : Loc nD τ sig) (f : Buf (Elt F) ℓ) :
    (ℓ ↦{fullShare} f : sProp 𝕄)
      ⊢ iprop((ℓ ↦{fullShare.left.left} f) ∗ (ℓ ↦{fullShare.left.right} f) ∗ (ℓ ↦{fullShare.right.left} f) ∗ (ℓ ↦{fullShare.right.right} f)) := by
  iintro H
  ihave H := (pointsTo_share (PosShare.mem_left_op_right fullShare)).1 $$ H
  icases H with ⟨Hl, Hr⟩
  ihave Hl := (pointsTo_share (PosShare.mem_left_op_right fullShare.left)).1 $$ Hl
  icases Hl with ⟨Hll, Hlr⟩
  ihave Hr := (pointsTo_share (PosShare.mem_left_op_right fullShare.right)).1 $$ Hr
  icases Hr with ⟨Hrl, Hrr⟩
  isplitl [Hll]; · iexact Hll
  isplitl [Hlr]; · iexact Hlr
  isplitl [Hrl]; · iexact Hrl
  iexact Hrr

/-- The distinct buffers behind the 17 windows' arrays, one by one. -/
theorem arrBufs0_eq (c : Dev nD) (V : (b : Ref sig .tc) → Buf (Elt F) ((c.tc : Thread nD τ).loc b)) :
    (Pipeline.arrBufs (Ix := Ix) (Name := Name) (U := U) (Lvl := Lvl) spec0 c V : sProp 𝕄)
      = iprop((((c : Thread nD τ).loc main_arg0) ↦{fullShare} V main_arg0) ∗ (((c : Thread nD τ).loc main_arg1) ↦{fullShare} V main_arg1)
          ∗ (((c : Thread nD τ).loc main_arg3) ↦{fullShare} V main_arg3) ∗ (((c : Thread nD τ).loc main_arg5) ↦{fullShare} V main_arg5)
          ∗ (((c : Thread nD τ).loc main_v1) ↦{fullShare} V main_v1) ∗ (((c : Thread nD τ).loc main_arg2) ↦{fullShare} V main_arg2)
          ∗ (((c : Thread nD τ).loc main_v2_0) ↦{fullShare} V main_v2_0) ∗ (((c : Thread nD τ).loc main_v2_1) ↦{fullShare} V main_v2_1)) := by
  unfold Pipeline.arrBufs
  exact bigSep_eq_bigSepL_of_eq [main_arg0, main_arg1, main_arg3, main_arg5, main_v1, main_arg2, main_v2_0, main_v2_1] (by decide) (by decide) _

end

/-- The proof data's share of each window's array is `qShare`'s, when that is what the data name for the inputs. -/
theorem share_eq_qShare (c : Dev nD) (dat : Pipeline.Dat τ (Elt F) Unit ℕ (UR sig nD τ) ℕ cfg0 c) (hq : dat.q = qShare) (w : Fin 17) :
    dat.share w = qShare w := by
  unfold Pipeline.Dat.share
  rw [hq]
  split
  · next h => fin_cases w <;> first | rfl | exact absurd h (by decide)
  · rfl

/-- THE SPLIT: the buffers behind the arrays, each whole at the full share at contents `V`, are the proof data's arrays
    at the region's entry, the data naming `qShare` and the entry contents `V`. -/
theorem arrays_of_arrBufs (c : Dev nD) (dat : Pipeline.Dat τ (Elt F) Unit ℕ (UR sig nD τ) ℕ cfg0 c) (hq : dat.q = qShare)
    (V : (b : Ref sig .tc) → Buf (Elt F) ((c.tc : Thread nD τ).loc b)) (hA : ∀ w, dat.A w = V (Pipeline.arrRef spec0 w)) :
    Pipeline.arrBufs spec0 c V ⊢ dat.arrays (dat.arrAt · 0) := by
  have hwin : ∀ w : Fin 17,
      ((cfg0.win w).arr.view.loc (c.tc : Thread nD τ) ↦[(cfg0.win w).arr.view.set]{dat.share w} dat.arrAt w 0
          : sProp (MT nD τ sig Unit (Elt F) ℕ (UR sig nD τ) ℕ))
        = (((c.tc : Thread nD τ).loc (Pipeline.arrRef spec0 w)) ↦{qShare w} V (Pipeline.arrRef spec0 w)) := fun w => by
    rw [show (cfg0.win w).arr.view.set = Finset.univ from (arr_whole0 w).set_eq_univ, share_eq_qShare c dat hq w,
      show dat.arrAt w 0 = dat.A w from rfl, hA w]
  rw [arrBufs0_eq]
  unfold Pipeline.Dat.arrays
  rw [bigSep_congr (fun w _ => hwin w), bigSep_W0]
  iintro ⟨H0, H1, H3, H5, Hv1, H2, Hv20, Hv21⟩
  ihave H3 := pointsTo_quarters _ _ $$ H3
  icases H3 with ⟨H3a, H3b, H3c, H3d⟩
  ihave H5 := pointsTo_quarters _ _ $$ H5
  icases H5 with ⟨H5a, H5b, H5c, H5d⟩
  ihave Hv1 := pointsTo_quarters _ _ $$ Hv1
  icases Hv1 with ⟨Hv1a, Hv1b, Hv1c, Hv1d⟩
  isplitl [H0]; · iexact H0
  isplitl [H1]; · iexact H1
  isplitl [H3a]; · iexact H3a
  isplitl [H3b]; · iexact H3b
  isplitl [H3c]; · iexact H3c
  isplitl [H3d]; · iexact H3d
  isplitl [H5a]; · iexact H5a
  isplitl [H5b]; · iexact H5b
  isplitl [H5c]; · iexact H5c
  isplitl [H5d]; · iexact H5d
  isplitl [Hv1a]; · iexact Hv1a
  isplitl [Hv1b]; · iexact Hv1b
  isplitl [Hv1c]; · iexact Hv1c
  isplitl [Hv1d]; · iexact Hv1d
  isplitl [H2]; · iexact H2
  isplitl [Hv20]; · iexact Hv20
  iexact Hv21

end Cert.KernelIdeal.Gen

end
-- ==== Proof.KernelIdeal.Data.lean ====
/-
  The kernel's run point by point. The grid point `t` is batch tile `t / 32`, hidden tile `(t / 8) mod 4`, reduction
  step `t mod 8`. The four accumulators live in scratch across the eight reduction steps of one (batch tile, hidden
  tile): reset at step 0, added to at every step, read at step 7, where the two results are stored. So what they hold
  after point `t` is defined by recursion on `t` (`accAt`); the invariant between points holds them at exactly that;
  the result buffers hold at a last step what that step computes from the accumulators of the point before.
-/
import proofs.«164211_j64476049047569_2_alg».proof.Proof.KernelIdeal.Pieces
import proofs.«164211_j64476049047569_2_alg».proof.Proof.KernelIdeal.Split

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulators after each point -/

/-- THE ACCUMULATION: what the four accumulators hold after the body at position `n`: the case the closed forms select
    there, run on the point's input blocks, over what the point before left (at a first step, over nothing). -/
def accAt (c : Dev nD) : (n : ℕ) → n < cfg0.N → Vec F S1024x512 .f32 × Vec F S1024x512 .f32 × Vec F S1024x512 .f32 × Vec F S1024x512 .f32
  | 0, hn => (sout_A_0 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) (ms_16 ⟨0, hn⟩) (hs_16 ⟨0, hn⟩) scM_0 (Memref.isWhole_whole _) scM_1 (Memref.isWhole_whole _) scM_2 (Memref.isWhole_whole _) scM_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        sout_A_1 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) (ms_16 ⟨0, hn⟩) (hs_16 ⟨0, hn⟩) scM_0 (Memref.isWhole_whole _) scM_1 (Memref.isWhole_whole _) scM_2 (Memref.isWhole_whole _) scM_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        sout_A_2 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) (ms_16 ⟨0, hn⟩) (hs_16 ⟨0, hn⟩) scM_0 (Memref.isWhole_whole _) scM_1 (Memref.isWhole_whole _) scM_2 (Memref.isWhole_whole _) scM_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩),
        sout_A_3 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) (ms_16 ⟨0, hn⟩) (hs_16 ⟨0, hn⟩) scM_0 (Memref.isWhole_whole _) scM_1 (Memref.isWhole_whole _) scM_2 (Memref.isWhole_whole _) scM_3 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) % 8 = 0 then
      (sout_A_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        sout_A_1 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        sout_A_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩),
        sout_A_3 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) ((hcond0_0 ⟨n + 1, hn⟩).mpr h0) (fun h => (fun h => by (try dsimp only at h); omega) ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
    else
      if h1 : (n + 1) % 8 = 7 then
        (sout_C_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        sout_C_1 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        sout_C_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        sout_C_3 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2)
      else
        (sout_B_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        sout_B_1 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        sout_B_2 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2,
        sout_B_3 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) (ms_16 ⟨n + 1, hn⟩) (hs_16 ⟨n + 1, hn⟩) scM_0 (Memref.isWhole_whole _) scM_1 (Memref.isWhole_whole _) scM_2 (Memref.isWhole_whole _) scM_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (accAt c n (Nat.lt_of_succ_lt hn)).1 (accAt c n (Nat.lt_of_succ_lt hn)).2.1 (accAt c n (Nat.lt_of_succ_lt hn)).2.2.1 (accAt c n (Nat.lt_of_succ_lt hn)).2.2.2)

/-- `accAt` at a first step. -/
theorem accAt_A (c : Dev nD) (t : Fin cfg0.N) (h0 : t.val % 8 = 0) :
    accAt m c t.val t.isLt = (sout_A_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) ((hcond0_0 t).mpr h0) (fun h => (fun h => by (try dsimp only at h); omega) ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        sout_A_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) ((hcond0_0 t).mpr h0) (fun h => (fun h => by (try dsimp only at h); omega) ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        sout_A_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) ((hcond0_0 t).mpr h0) (fun h => (fun h => by (try dsimp only at h); omega) ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t),
        sout_A_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) ((hcond0_0 t).mpr h0) (fun h => (fun h => by (try dsimp only at h); omega) ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact (dif_pos h0).trans rfl

/-- `accAt` at a middle step: over what the point before left. -/
theorem accAt_B (c : Dev nD) (t : Fin cfg0.N) (h0 : ¬t.val % 8 = 0) (h1 : ¬t.val % 8 = 7) :
    accAt m c t.val t.isLt = (sout_B_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2,
        sout_B_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2,
        sout_B_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2,
        sout_B_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `accAt` at a last step: over what the point before left. -/
theorem accAt_C (c : Dev nD) (t : Fin cfg0.N) (h0 : ¬t.val % 8 = 0) (h1 : t.val % 8 = 7) :
    accAt m c t.val t.isLt = (sout_C_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2,
        sout_C_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2,
        sout_C_2 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2,
        sout_C_3 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- A result buffer's contents where the window is idle: nothing consults them. -/
def idleOut : Vec F S1024x512 .f32 := VO_15.read (Elt F) VO_15.junk

/-- What result window 15 (the new hidden state) holds after point `t`: at a last step what that step stores. -/
def out15At (c : Dev nD) (t : Fin cfg0.N) : Vec F S1024x512 .f32 :=
  if h1 : t.val % 8 = 7 then
    out_C_15 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => (fun h => by (try dsimp only at h); omega) ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2
  else idleOut
/-- The same for window 16 (the new cell state). -/
def out16At (c : Dev nD) (t : Fin cfg0.N) : Vec F S1024x512 .f32 :=
  if h1 : t.val % 8 = 7 then
    out_C_16 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => (fun h => by (try dsimp only at h); omega) ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2
  else idleOut

/-- The region invariant before position `n`: before the first point every accumulator holds anything; afterwards
    each holds what the point before left in it. The generator register is at some state throughout. -/
def PhiS (c : Dev nD) : (n : ℕ) → n ≤ cfg0.N → sProp 𝕄
  | 0, _ => Pipeline.ΦA spec0 c
  | n + 1, hn => iprop(iprop(owns (c : Thread nD τ) scM_0 fullShare ((accAt m c n hn).1) ∗ owns (c : Thread nD τ) scM_1 fullShare ((accAt m c n hn).2.1) ∗ owns (c : Thread nD τ) scM_2 fullShare ((accAt m c n hn).2.2.1) ∗ owns (c : Thread nD τ) scM_3 fullShare ((accAt m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM_0 fullShare ((accAt m c n hn).1) ∗ owns (c : Thread nD τ) scM_1 fullShare ((accAt m c n hn).2.1) ∗ owns (c : Thread nD τ) scM_2 fullShare ((accAt m c n hn).2.2.1) ∗ owns (c : Thread nD τ) scM_3 fullShare ((accAt m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM_0 fullShare ((accAt m c (n - 1) (by omega)).1) ∗ owns (c : Thread nD τ) scM_1 fullShare ((accAt m c (n - 1) (by omega)).2.1) ∗ owns (c : Thread nD τ) scM_2 fullShare ((accAt m c (n - 1) (by omega)).2.2.1) ∗ owns (c : Thread nD τ) scM_3 fullShare ((accAt m c (n - 1) (by omega)).2.2.2)) ∗ (∃ r, prngReg c r)) := by
  cases n with
  | zero => exact absurd rfl hz
  | succ n => rfl

/-! ## The pipeline's proof data -/

/-- The proof data on core `c`: the arrays as the region finds them; after the body at point `t` each input's buffer
    at its block and the two results' at `out15At` / `out16At`; the invariant `PhiS`; nothing owed; an array read
    through four windows held a quarter per window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out15At m c t
    | ⟨16, _⟩ => out16At m c t
    | ⟨_ + 17, h⟩ => absurd h (Nat.not_lt.2 (Nat.le_add_left _ _))
  Φ t := PhiS m c t.val (Nat.le_of_lt_succ t.isLt)
  q := qShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = out15At m c t := by dsimp only [dats]
theorem after_16 (c : Dev nD) (t : Fin cfg0.N) : (dats m 0 c).after 16 t = out16At m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d

end Cert.KernelIdeal.Frame

end
-- ==== Proof.LibMatmulNT.lean ====
/-
  A matrix product whose two operands are both contracted along their second axis, accumulated into zero, read at
  one entry.

  Over the extended reals the product of an A by K matrix l with a B by K matrix r, each row of r contracted against
  each row of l, has at entry (p, q) the sum over k of l (p, k) r (q, k): the accumulator is zero, and the contraction
  index of a product with one contracted axis is that axis' coordinate. In particular entry (p, q) reads r only in its
  row q. The lemma is stated for any dimension record whose operand indices are (row, contraction) on the left and
  (column, contraction) on the right, which the four coordinate hypotheses say.
-/
import Idealize.ShloMosaic.PureOps.Ideal.Laws
import Idealize.ShloMosaic.Lib.ValueIdx

noncomputable section

namespace Cert.LibMatmulNT

open Idealize.ShloMosaic Idealize.ShloMosaic.ValueIdx

/-- Entry (p, q) of a product of an A by K with a B by K matrix, contracted along K into the zero accumulator, is the
    sum over K of the products of row p of the left with row q of the right. -/
theorem matmul_zero_nt_ix2 {A K B : ℕ} {φ₁ φ₂ : FTy}
    (d : DotDims (⟨2, ![A, K]⟩ : Shape) (⟨2, ![B, K]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (i (1 : Fin 2)).val)
    (hr1 : ∀ i q, (d.rhsIdx i q (1 : Fin 2)).val = (q ⟨0, by omega⟩).val)
    (prec : Option ContractPrecision)
    (l : FVec Ideal (⟨2, ![A, K]⟩ : Shape) φ₁) (r : FVec Ideal (⟨2, ![B, K]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.LibMatmulNT

end
-- ==== Proof.KernelIdeal.PayAt.lean ====
/-
  The kernel body's pure values read at one entry, over the extended reals.

  Each reduction step adds to an accumulator the products of a block of rows of the input with a block of rows of a
  weight, both contracted along their second axis (the narrowing to a shorter float format is the identity on extended
  reals); the last step reads the gates off the accumulators and a bias row that is the same for every row.
-/
import proofs.«164211_j64476049047569_2_alg».proof.Proof.Gen.KernelIdeal.Skeleton
import proofs.«164211_j64476049047569_2_alg».proof.Proof.LibMatmulNT
import Idealize.ShloMosaic.Lib.ValueIdx
import Idealize.ShloMosaic.Lib.ValueLayout
import Idealize.ShloMosaic.Lib.Pipeline.Value

noncomputable section

namespace Cert.KernelIdeal.PayAt

open Cert.KernelIdeal Cert.KernelIdeal.Gen Idealize.ShloMosaic Idealize.ShloMosaic.ValueIdx
open scoped BigOperators

/-- Row p of a against row q of w: the sum over the 256 columns of the products. -/
def dotT (a : S1024x256.Idx → EReal) (w : S512x256.Idx → EReal) (p : Fin 1024) (q : Fin 512) : EReal :=
  ∑ k : Fin 256, a (ix2 p k) * w (ix2 q k)

/-- The one row of a [1, 512] array at column q. -/
def row (b : S1x512.Idx → EReal) (q : Fin 512) : EReal := b (ix2 (0 : Fin 1) q)

/-- The zero word broadcast is zero everywhere. -/
theorem pay6_apply (p : Fin 1024) (q : Fin 512) : k0_pay6 (F := Ideal) (ix2 p q) = 0 := by
  unfold k0_pay6
  exact (congrFun (shapeCast_self _ _) _).trans Ideal.ofBits_zero_f32

theorem pay7_apply (p : Fin 1024) (q : Fin 512) : k0_pay7 (F := Ideal) (ix2 p q) = 0 := by
  unfold k0_pay7
  exact (congrFun (shapeCast_self _ _) _).trans Ideal.ofBits_zero_f32

theorem pay8_apply (p : Fin 1024) (q : Fin 512) : k0_pay8 (F := Ideal) (ix2 p q) = 0 := by
  unfold k0_pay8
  exact (congrFun (shapeCast_self _ _) _).trans Ideal.ofBits_zero_f32

theorem pay9_apply (p : Fin 1024) (q : Fin 512) : k0_pay9 (F := Ideal) (ix2 p q) = 0 := by
  unfold k0_pay9
  exact (congrFun (shapeCast_self _ _) _).trans Ideal.ofBits_zero_f32

/-- Narrowing the float format is the identity on extended reals. -/
theorem pay10_eq (v3 : Vec Ideal S1024x256 .f32) : k0_pay10 (F := Ideal) v3 = v3 := rfl

theorem pay11_eq (v5 : Vec Ideal S1024x256 .f32) : k0_pay11 (F := Ideal) v5 = v5 := rfl

/-! ## The product of a block of rows with a block of weight rows -/

theorem lhs0 (i : S1024x512.Idx) (c : dot_S1024x256_S512x256_S1024x512_1_1_0_0_n_n.contr.Idx) :
    (dot_S1024x256_S512x256_S1024x512_1_1_0_0_n_n.lhsIdx i c (0 : Fin 2)).val = (i (0 : Fin 2)).val := by
  unfold DotDims.lhsIdx
  rw [dif_neg (show ¬(0 : Fin S1024x256.rank) ∈ dot_S1024x256_S512x256_S1024x512_1_1_0_0_n_n.lhsBatch by decide), dif_pos (show (0 : Fin S1024x256.rank) ∈ dot_S1024x256_S512x256_S1024x512_1_1_0_0_n_n.lhsNonContracting by decide)]
  rfl

theorem lhs1 (i : S1024x512.Idx) (c : dot_S1024x256_S512x256_S1024x512_1_1_0_0_n_n.contr.Idx) :
    (dot_S1024x256_S512x256_S1024x512_1_1_0_0_n_n.lhsIdx i c (1 : Fin 2)).val = (c ⟨0, by decide⟩).val :=
  dot_S1024x256_S512x256_S1024x512_1_1_0_0_n_n.lhsIdx_val_of_single rfl i c

theorem rhs0 (i : S1024x512.Idx) (c : dot_S1024x256_S512x256_S1024x512_1_1_0_0_n_n.contr.Idx) :
    (dot_S1024x256_S512x256_S1024x512_1_1_0_0_n_n.rhsIdx i c (0 : Fin 2)).val = (i (1 : Fin 2)).val := by
  unfold DotDims.rhsIdx
  rw [dif_neg (show ¬(0 : Fin S512x256.rank) ∈ dot_S1024x256_S512x256_S1024x512_1_1_0_0_n_n.rhsBatch by decide), dif_pos (show (0 : Fin S512x256.rank) ∈ dot_S1024x256_S512x256_S1024x512_1_1_0_0_n_n.rhsNonContracting by decide)]
  rfl

theorem rhs1 (i : S1024x512.Idx) (c : dot_S1024x256_S512x256_S1024x512_1_1_0_0_n_n.contr.Idx) :
    (dot_S1024x256_S512x256_S1024x512_1_1_0_0_n_n.rhsIdx i c (1 : Fin 2)).val = (c ⟨0, by decide⟩).val :=
  dot_S1024x256_S512x256_S1024x512_1_1_0_0_n_n.rhsIdx_val_of_single rfl i c

/-- The product into the zero accumulator at entry (p, q): row p of the left against row q of the right. -/
theorem mm_apply {φ₁ φ₂ : FTy} (l : FVec Ideal S1024x256 φ₁) (r : FVec Ideal S512x256 φ₂) (p : Fin 1024) (q : Fin 512) :
    matmul dot_S1024x256_S512x256_S1024x512_1_1_0_0_n_n none l r (constant (F := Ideal) S1024x512 .f32 0x00000000#32) (ix2 p q) = dotT l r p q :=
  Cert.LibMatmulNT.matmul_zero_nt_ix2 dot_S1024x256_S512x256_S1024x512_1_1_0_0_n_n rfl rfl lhs0 lhs1 rhs0 rhs1 none l r p q

/-! ## One reduction step, per accumulator -/

theorem pay12_apply (v3 v5 : Vec Ideal S1024x256 .f32) (v7 v9 : Vec Ideal S512x256 .f32) (v11 : Vec Ideal S1024x512 .f32)
    (p : Fin 1024) (q : Fin 512) :
    k0_pay12 (F := Ideal) v3 v5 v7 v9 v11 (ix2 p q) = v11 (ix2 p q) + (dotT v3 v7 p q + dotT v5 v9 p q) := by
  unfold k0_pay12
  refine (congrFun (shapeCast_self _ _) _).trans ?_
  exact congrArg₂ (· + ·) rfl (congrArg₂ (· + ·) (mm_apply (φ₁ := .bf16) (φ₂ := .bf16) v3 v7 p q) (mm_apply (φ₁ := .bf16) (φ₂ := .bf16) v5 v9 p q))

theorem pay13_apply (v3 v5 : Vec Ideal S1024x256 .f32) (v19 v21 : Vec Ideal S512x256 .f32) (v23 : Vec Ideal S1024x512 .f32)
    (p : Fin 1024) (q : Fin 512) :
    k0_pay13 (F := Ideal) v3 v5 v19 v21 v23 (ix2 p q) = v23 (ix2 p q) + (dotT v3 v19 p q + dotT v5 v21 p q) := by
  unfold k0_pay13
  exact congrArg₂ (· + ·) rfl (congrArg₂ (· + ·) (mm_apply (φ₁ := .bf16) (φ₂ := .bf16) v3 v19 p q) (mm_apply (φ₁ := .bf16) (φ₂ := .bf16) v5 v21 p q))

theorem pay1_apply (v3 v5 : Vec Ideal S1024x256 .f32) (v19 v21 : Vec Ideal S512x256 .f32) (v23 : Vec Ideal S1024x512 .f32)
    (p : Fin 1024) (q : Fin 512) :
    k0_pay1 (F := Ideal) (k0_pay13 v3 v5 v19 v21 v23) (ix2 p q) = v23 (ix2 p q) + (dotT v3 v19 p q + dotT v5 v21 p q) := by
  unfold k0_pay1
  exact (congrFun (shapeCast_self _ _) _).trans (pay13_apply v3 v5 v19 v21 v23 p q)

theorem pay2_apply (v3 v5 : Vec Ideal S1024x256 .f32) (v31 v33 : Vec Ideal S512x256 .f32) (v35 : Vec Ideal S1024x512 .f32)
    (p : Fin 1024) (q : Fin 512) :
    k0_pay2 (F := Ideal) (k0_pay10 v3) (k0_pay11 v5) v31 v33 v35 (ix2 p q) = v35 (ix2 p q) + (dotT v3 v31 p q + dotT v5 v33 p q) := by
  unfold k0_pay2
  refine (congrFun (shapeCast_self _ _) _).trans ?_
  exact congrArg₂ (· + ·) rfl (congrArg₂ (· + ·) (mm_apply (φ₁ := .bf16) (φ₂ := .bf16) v3 v31 p q) (mm_apply (φ₁ := .bf16) (φ₂ := .bf16) v5 v33 p q))

theorem pay3_apply (v3 v5 : Vec Ideal S1024x256 .f32) (v43 v45 : Vec Ideal S512x256 .f32) (v47 : Vec Ideal S1024x512 .f32)
    (p : Fin 1024) (q : Fin 512) :
    k0_pay3 (F := Ideal) (k0_pay10 v3) (k0_pay11 v5) v43 v45 v47 (ix2 p q) = v47 (ix2 p q) + (dotT v3 v43 p q + dotT v5 v45 p q) := by
  unfold k0_pay3
  refine (congrFun (shapeCast_self _ _) _).trans ?_
  exact congrArg₂ (· + ·) rfl (congrArg₂ (· + ·) (mm_apply (φ₁ := .bf16) (φ₂ := .bf16) v3 v43 p q) (mm_apply (φ₁ := .bf16) (φ₂ := .bf16) v5 v45 p q))

/-! ## The gates of the last step -/

/-- A bias row broadcast over the 1024 rows, read at (p, q), is the row at q. -/
theorem bias_apply (b : Vec Ideal S1x512 .f32) (h1 : S1x512.ShapeCasts S1x512) (h2 : S1x512.Broadcasts S1024x512)
    (p : Fin 1024) (q : Fin 512) :
    broadcastTo S1024x512 (shapeCast S1x512 b h1) h2 (ix2 p q) = row b q :=
  (broadcastTo_1b_ab_apply _ h2 p q).trans (congrFun (shapeCast_self b h1) _)

theorem pay4_apply (v58 : Vec Ideal S1024x512 .f32) (v59 : Vec Ideal S1x512 .f32) (v64 : Vec Ideal S1024x512 .f32)
    (v65 : Vec Ideal S1x512 .f32) (v70 : Vec Ideal S1024x512 .f32) (v71 : Vec Ideal S1x512 .f32)
    (v82 : Vec Ideal S1024x512 .f32) (p : Fin 1024) (q : Fin 512) :
    k0_pay4 (F := Ideal) v58 v59 v64 v65 v70 v71 v82 (ix2 p q)
      = Ideal.logistic (v58 (ix2 p q) + row v59 q) * v82 (ix2 p q)
        + Ideal.logistic (v64 (ix2 p q) + row v65 q) * Ideal.tanh (v70 (ix2 p q) + row v71 q) := by
  unfold k0_pay4
  exact congrArg₂ (· + ·)
    (congrArg₂ (· * ·) (congrArg Ideal.logistic (congrArg₂ (· + ·) rfl (bias_apply v59 _ _ p q))) rfl)
    (congrArg₂ (· * ·) (congrArg Ideal.logistic (congrArg₂ (· + ·) rfl (bias_apply v65 _ _ p q)))
      (congrArg Ideal.tanh (congrArg₂ (· + ·) rfl (bias_apply v71 _ _ p q))))

theorem pay5_apply (v58 : Vec Ideal S1024x512 .f32) (v59 : Vec Ideal S1x512 .f32) (v64 : Vec Ideal S1024x512 .f32)
    (v65 : Vec Ideal S1x512 .f32) (v70 : Vec Ideal S1024x512 .f32) (v71 : Vec Ideal S1x512 .f32)
    (v76 : Vec Ideal S1024x512 .f32) (v77 : Vec Ideal S1x512 .f32)
    (v82 : Vec Ideal S1024x512 .f32) (p : Fin 1024) (q : Fin 512) :
    k0_pay5 (F := Ideal) v58 v59 v64 v65 v70 v71 v76 v77 v82 (ix2 p q)
      = Ideal.logistic (v76 (ix2 p q) + row v77 q)
        * Ideal.tanh (k0_pay4 (F := Ideal) v58 v59 v64 v65 v70 v71 v82 (ix2 p q)) := by
  unfold k0_pay5
  exact congrArg₂ (· * ·) (congrArg Ideal.logistic (congrArg₂ (· + ·) rfl (bias_apply v77 _ _ p q))) rfl

end Cert.KernelIdeal.PayAt

end
-- ==== Proof.KernelIdeal.AccValue.lean ====
/-
  The accumulators are running sums. Over the extended reals, after the point `n` of a tile's reduction accumulator `g`
  holds, at row `p` and hidden unit `q` of the tile, zero plus the products of the reduction steps so far: at each step
  the input block's row `p` against row `q` of gate `g`'s input-weight block, plus the hidden block's row `p` against
  row `q` of its recurrent-weight block. By induction on the point, each case of the body adding its step. At a
  reduction's last step the two result buffers hold the gates' formulas over these sums.
-/
import proofs.«164211_j64476049047569_2_alg».proof.Proof.KernelIdeal.PieceVals
import proofs.«164211_j64476049047569_2_alg».proof.Proof.KernelIdeal.Data
import proofs.«164211_j64476049047569_2_alg».proof.Proof.KernelIdeal.PayAt

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.PayAt Idealize.ShloMosaic.ValueIdx

variable (mI : (ℓ : Loc nD τ sig) → Buf (Elt Ideal) ℓ)

/-! ## One step of each accumulator, over any blocks -/

theorem stepReset_0 (x0 x1 : Vec Ideal S1024x256 .f32) (w u : Vec Ideal S512x256 .f32) (p : Fin 1024) (q : Fin 512) :
    k0_pay12 (F := Ideal) x0 x1 w u (k0_pay6 (F := Ideal)) (ix2 p q) = 0 + (dotT x0 w p q + dotT x1 u p q) := by
  rw [pay12_apply, pay6_apply]

theorem stepAdd_0 (x0 x1 : Vec Ideal S1024x256 .f32) (w u : Vec Ideal S512x256 .f32) (a : Vec Ideal S1024x512 .f32) (p : Fin 1024) (q : Fin 512) :
    k0_pay12 (F := Ideal) x0 x1 w u a (ix2 p q) = a (ix2 p q) + (dotT x0 w p q + dotT x1 u p q) :=
  pay12_apply x0 x1 w u a p q

theorem stepReset_1 (x0 x1 : Vec Ideal S1024x256 .f32) (w u : Vec Ideal S512x256 .f32) (p : Fin 1024) (q : Fin 512) :
    k0_pay1 (F := Ideal) (k0_pay13 x0 x1 w u (k0_pay7 (F := Ideal))) (ix2 p q) = 0 + (dotT x0 w p q + dotT x1 u p q) := by
  rw [pay1_apply, pay7_apply]

theorem stepAdd_1 (x0 x1 : Vec Ideal S1024x256 .f32) (w u : Vec Ideal S512x256 .f32) (a : Vec Ideal S1024x512 .f32) (p : Fin 1024) (q : Fin 512) :
    k0_pay1 (F := Ideal) (k0_pay13 x0 x1 w u a) (ix2 p q) = a (ix2 p q) + (dotT x0 w p q + dotT x1 u p q) :=
  pay1_apply x0 x1 w u a p q

theorem stepReset_2 (x0 x1 : Vec Ideal S1024x256 .f32) (w u : Vec Ideal S512x256 .f32) (p : Fin 1024) (q : Fin 512) :
    k0_pay2 (F := Ideal) (k0_pay10 x0) (k0_pay11 x1) w u (k0_pay8 (F := Ideal)) (ix2 p q) = 0 + (dotT x0 w p q + dotT x1 u p q) := by
  rw [pay2_apply, pay8_apply]

theorem stepAdd_2 (x0 x1 : Vec Ideal S1024x256 .f32) (w u : Vec Ideal S512x256 .f32) (a : Vec Ideal S1024x512 .f32) (p : Fin 1024) (q : Fin 512) :
    k0_pay2 (F := Ideal) (k0_pay10 x0) (k0_pay11 x1) w u a (ix2 p q) = a (ix2 p q) + (dotT x0 w p q + dotT x1 u p q) :=
  pay2_apply x0 x1 w u a p q

theorem stepReset_3 (x0 x1 : Vec Ideal S1024x256 .f32) (w u : Vec Ideal S512x256 .f32) (p : Fin 1024) (q : Fin 512) :
    k0_pay3 (F := Ideal) (k0_pay10 x0) (k0_pay11 x1) w u (k0_pay9 (F := Ideal)) (ix2 p q) = 0 + (dotT x0 w p q + dotT x1 u p q) := by
  rw [pay3_apply, pay9_apply]

theorem stepAdd_3 (x0 x1 : Vec Ideal S1024x256 .f32) (w u : Vec Ideal S512x256 .f32) (a : Vec Ideal S1024x512 .f32) (p : Fin 1024) (q : Fin 512) :
    k0_pay3 (F := Ideal) (k0_pay10 x0) (k0_pay11 x1) w u a (ix2 p q) = a (ix2 p q) + (dotT x0 w p q + dotT x1 u p q) :=
  pay3_apply x0 x1 w u a p q

/-! ## The running sums -/

/-- Gate 0's first product at a point: the input block against the gate's input-weight block. -/
def prodX_0 (c : Dev nD) (p : Fin 1024) (q : Fin 512) (t : Fin cfg0.N) : EReal := dotT (iblk mI c 0 t) (iblk mI c 2 t) p q
/-- Gate 0's second product at a point: the hidden block against the gate's recurrent-weight block. -/
def prodH_0 (c : Dev nD) (p : Fin 1024) (q : Fin 512) (t : Fin cfg0.N) : EReal := dotT (iblk mI c 1 t) (iblk mI c 6 t) p q

/-- Accumulator 0's running sum after position `n`: reset at a reduction's first step. -/
def run_0 (c : Dev nD) (p : Fin 1024) (q : Fin 512) : (n : ℕ) → n < cfg0.N → EReal
  | 0, h => 0 + (prodX_0 mI c p q ⟨0, h⟩ + prodH_0 mI c p q ⟨0, h⟩)
  | n + 1, h => if (n + 1) % 8 = 0 then 0 + (prodX_0 mI c p q ⟨n + 1, h⟩ + prodH_0 mI c p q ⟨n + 1, h⟩)
      else run_0 c p q n (Nat.lt_of_succ_lt h) + (prodX_0 mI c p q ⟨n + 1, h⟩ + prodH_0 mI c p q ⟨n + 1, h⟩)

theorem run_0_zero (c : Dev nD) (p : Fin 1024) (q : Fin 512) (h : 0 < cfg0.N) :
    run_0 mI c p q 0 h = 0 + (prodX_0 mI c p q ⟨0, h⟩ + prodH_0 mI c p q ⟨0, h⟩) := rfl
theorem run_0_succ (c : Dev nD) (p : Fin 1024) (q : Fin 512) (n : ℕ) (h : n + 1 < cfg0.N) :
    run_0 mI c p q (n + 1) h = if (n + 1) % 8 = 0 then 0 + (prodX_0 mI c p q ⟨n + 1, h⟩ + prodH_0 mI c p q ⟨n + 1, h⟩)
      else run_0 mI c p q n (Nat.lt_of_succ_lt h) + (prodX_0 mI c p q ⟨n + 1, h⟩ + prodH_0 mI c p q ⟨n + 1, h⟩) := rfl

set_option maxHeartbeats 2000000 in
/-- Accumulator 0 after position `n` IS its running sum, entry by entry: by induction on the point. -/
theorem accAt_run_0 (c : Dev nD) (p : Fin 1024) (q : Fin 512) : ∀ (n : ℕ) (h : n < cfg0.N), (accAt mI c n h).1 (ix2 p q) = run_0 mI c p q n h
  | 0, h => by
    rw [accAt_A mI c ⟨0, h⟩ rfl]
    dsimp only
    rw [sout_A_0_eq]
    exact stepReset_0 (iblk mI c 0 ⟨0, h⟩) (iblk mI c 1 ⟨0, h⟩) (iblk mI c 2 ⟨0, h⟩) (iblk mI c 6 ⟨0, h⟩) p q
  | n + 1, h => by
    rw [run_0_succ]
    by_cases h0 : (n + 1) % 8 = 0
    · rw [if_pos h0, accAt_A mI c ⟨n + 1, h⟩ h0]
      dsimp only
      rw [sout_A_0_eq]
      exact stepReset_0 (iblk mI c 0 ⟨n + 1, h⟩) (iblk mI c 1 ⟨n + 1, h⟩) (iblk mI c 2 ⟨n + 1, h⟩) (iblk mI c 6 ⟨n + 1, h⟩) p q
    · rw [if_neg h0]
      by_cases h1 : (n + 1) % 8 = 7
      · rw [accAt_C mI c ⟨n + 1, h⟩ h0 h1]
        dsimp only
        rw [sout_C_0_eq]
        refine (stepAdd_0 (iblk mI c 0 ⟨n + 1, h⟩) (iblk mI c 1 ⟨n + 1, h⟩) (iblk mI c 2 ⟨n + 1, h⟩) (iblk mI c 6 ⟨n + 1, h⟩) _ p q).trans ?_
        exact congrArg (· + (prodX_0 mI c p q ⟨n + 1, h⟩ + prodH_0 mI c p q ⟨n + 1, h⟩)) (accAt_run_0 c p q n (Nat.lt_of_succ_lt h))
      · rw [accAt_B mI c ⟨n + 1, h⟩ h0 h1]
        dsimp only
        rw [sout_B_0_eq]
        refine (stepAdd_0 (iblk mI c 0 ⟨n + 1, h⟩) (iblk mI c 1 ⟨n + 1, h⟩) (iblk mI c 2 ⟨n + 1, h⟩) (iblk mI c 6 ⟨n + 1, h⟩) _ p q).trans ?_
        exact congrArg (· + (prodX_0 mI c p q ⟨n + 1, h⟩ + prodH_0 mI c p q ⟨n + 1, h⟩)) (accAt_run_0 c p q n (Nat.lt_of_succ_lt h))

/-- Gate 1's first product at a point: the input block against the gate's input-weight block. -/
def prodX_1 (c : Dev nD) (p : Fin 1024) (q : Fin 512) (t : Fin cfg0.N) : EReal := dotT (iblk mI c 0 t) (iblk mI c 3 t) p q
/-- Gate 1's second product at a point: the hidden block against the gate's recurrent-weight block. -/
def prodH_1 (c : Dev nD) (p : Fin 1024) (q : Fin 512) (t : Fin cfg0.N) : EReal := dotT (iblk mI c 1 t) (iblk mI c 7 t) p q

/-- Accumulator 1's running sum after position `n`: reset at a reduction's first step. -/
def run_1 (c : Dev nD) (p : Fin 1024) (q : Fin 512) : (n : ℕ) → n < cfg0.N → EReal
  | 0, h => 0 + (prodX_1 mI c p q ⟨0, h⟩ + prodH_1 mI c p q ⟨0, h⟩)
  | n + 1, h => if (n + 1) % 8 = 0 then 0 + (prodX_1 mI c p q ⟨n + 1, h⟩ + prodH_1 mI c p q ⟨n + 1, h⟩)
      else run_1 c p q n (Nat.lt_of_succ_lt h) + (prodX_1 mI c p q ⟨n + 1, h⟩ + prodH_1 mI c p q ⟨n + 1, h⟩)

theorem run_1_zero (c : Dev nD) (p : Fin 1024) (q : Fin 512) (h : 0 < cfg0.N) :
    run_1 mI c p q 0 h = 0 + (prodX_1 mI c p q ⟨0, h⟩ + prodH_1 mI c p q ⟨0, h⟩) := rfl
theorem run_1_succ (c : Dev nD) (p : Fin 1024) (q : Fin 512) (n : ℕ) (h : n + 1 < cfg0.N) :
    run_1 mI c p q (n + 1) h = if (n + 1) % 8 = 0 then 0 + (prodX_1 mI c p q ⟨n + 1, h⟩ + prodH_1 mI c p q ⟨n + 1, h⟩)
      else run_1 mI c p q n (Nat.lt_of_succ_lt h) + (prodX_1 mI c p q ⟨n + 1, h⟩ + prodH_1 mI c p q ⟨n + 1, h⟩) := rfl

set_option maxHeartbeats 2000000 in
/-- Accumulator 1 after position `n` IS its running sum, entry by entry: by induction on the point. -/
theorem accAt_run_1 (c : Dev nD) (p : Fin 1024) (q : Fin 512) : ∀ (n : ℕ) (h : n < cfg0.N), (accAt mI c n h).2.1 (ix2 p q) = run_1 mI c p q n h
  | 0, h => by
    rw [accAt_A mI c ⟨0, h⟩ rfl]
    dsimp only
    rw [sout_A_1_eq]
    exact stepReset_1 (iblk mI c 0 ⟨0, h⟩) (iblk mI c 1 ⟨0, h⟩) (iblk mI c 3 ⟨0, h⟩) (iblk mI c 7 ⟨0, h⟩) p q
  | n + 1, h => by
    rw [run_1_succ]
    by_cases h0 : (n + 1) % 8 = 0
    · rw [if_pos h0, accAt_A mI c ⟨n + 1, h⟩ h0]
      dsimp only
      rw [sout_A_1_eq]
      exact stepReset_1 (iblk mI c 0 ⟨n + 1, h⟩) (iblk mI c 1 ⟨n + 1, h⟩) (iblk mI c 3 ⟨n + 1, h⟩) (iblk mI c 7 ⟨n + 1, h⟩) p q
    · rw [if_neg h0]
      by_cases h1 : (n + 1) % 8 = 7
      · rw [accAt_C mI c ⟨n + 1, h⟩ h0 h1]
        dsimp only
        rw [sout_C_1_eq]
        refine (stepAdd_1 (iblk mI c 0 ⟨n + 1, h⟩) (iblk mI c 1 ⟨n + 1, h⟩) (iblk mI c 3 ⟨n + 1, h⟩) (iblk mI c 7 ⟨n + 1, h⟩) _ p q).trans ?_
        exact congrArg (· + (prodX_1 mI c p q ⟨n + 1, h⟩ + prodH_1 mI c p q ⟨n + 1, h⟩)) (accAt_run_1 c p q n (Nat.lt_of_succ_lt h))
      · rw [accAt_B mI c ⟨n + 1, h⟩ h0 h1]
        dsimp only
        rw [sout_B_1_eq]
        refine (stepAdd_1 (iblk mI c 0 ⟨n + 1, h⟩) (iblk mI c 1 ⟨n + 1, h⟩) (iblk mI c 3 ⟨n + 1, h⟩) (iblk mI c 7 ⟨n + 1, h⟩) _ p q).trans ?_
        exact congrArg (· + (prodX_1 mI c p q ⟨n + 1, h⟩ + prodH_1 mI c p q ⟨n + 1, h⟩)) (accAt_run_1 c p q n (Nat.lt_of_succ_lt h))

/-- Gate 2's first product at a point: the input block against the gate's input-weight block. -/
def prodX_2 (c : Dev nD) (p : Fin 1024) (q : Fin 512) (t : Fin cfg0.N) : EReal := dotT (iblk mI c 0 t) (iblk mI c 4 t) p q
/-- Gate 2's second product at a point: the hidden block against the gate's recurrent-weight block. -/
def prodH_2 (c : Dev nD) (p : Fin 1024) (q : Fin 512) (t : Fin cfg0.N) : EReal := dotT (iblk mI c 1 t) (iblk mI c 8 t) p q

/-- Accumulator 2's running sum after position `n`: reset at a reduction's first step. -/
def run_2 (c : Dev nD) (p : Fin 1024) (q : Fin 512) : (n : ℕ) → n < cfg0.N → EReal
  | 0, h => 0 + (prodX_2 mI c p q ⟨0, h⟩ + prodH_2 mI c p q ⟨0, h⟩)
  | n + 1, h => if (n + 1) % 8 = 0 then 0 + (prodX_2 mI c p q ⟨n + 1, h⟩ + prodH_2 mI c p q ⟨n + 1, h⟩)
      else run_2 c p q n (Nat.lt_of_succ_lt h) + (prodX_2 mI c p q ⟨n + 1, h⟩ + prodH_2 mI c p q ⟨n + 1, h⟩)

theorem run_2_zero (c : Dev nD) (p : Fin 1024) (q : Fin 512) (h : 0 < cfg0.N) :
    run_2 mI c p q 0 h = 0 + (prodX_2 mI c p q ⟨0, h⟩ + prodH_2 mI c p q ⟨0, h⟩) := rfl
theorem run_2_succ (c : Dev nD) (p : Fin 1024) (q : Fin 512) (n : ℕ) (h : n + 1 < cfg0.N) :
    run_2 mI c p q (n + 1) h = if (n + 1) % 8 = 0 then 0 + (prodX_2 mI c p q ⟨n + 1, h⟩ + prodH_2 mI c p q ⟨n + 1, h⟩)
      else run_2 mI c p q n (Nat.lt_of_succ_lt h) + (prodX_2 mI c p q ⟨n + 1, h⟩ + prodH_2 mI c p q ⟨n + 1, h⟩) := rfl

set_option maxHeartbeats 2000000 in
/-- Accumulator 2 after position `n` IS its running sum, entry by entry: by induction on the point. -/
theorem accAt_run_2 (c : Dev nD) (p : Fin 1024) (q : Fin 512) : ∀ (n : ℕ) (h : n < cfg0.N), (accAt mI c n h).2.2.1 (ix2 p q) = run_2 mI c p q n h
  | 0, h => by
    rw [accAt_A mI c ⟨0, h⟩ rfl]
    dsimp only
    rw [sout_A_2_eq]
    exact stepReset_2 (iblk mI c 0 ⟨0, h⟩) (iblk mI c 1 ⟨0, h⟩) (iblk mI c 4 ⟨0, h⟩) (iblk mI c 8 ⟨0, h⟩) p q
  | n + 1, h => by
    rw [run_2_succ]
    by_cases h0 : (n + 1) % 8 = 0
    · rw [if_pos h0, accAt_A mI c ⟨n + 1, h⟩ h0]
      dsimp only
      rw [sout_A_2_eq]
      exact stepReset_2 (iblk mI c 0 ⟨n + 1, h⟩) (iblk mI c 1 ⟨n + 1, h⟩) (iblk mI c 4 ⟨n + 1, h⟩) (iblk mI c 8 ⟨n + 1, h⟩) p q
    · rw [if_neg h0]
      by_cases h1 : (n + 1) % 8 = 7
      · rw [accAt_C mI c ⟨n + 1, h⟩ h0 h1]
        dsimp only
        rw [sout_C_2_eq]
        refine (stepAdd_2 (iblk mI c 0 ⟨n + 1, h⟩) (iblk mI c 1 ⟨n + 1, h⟩) (iblk mI c 4 ⟨n + 1, h⟩) (iblk mI c 8 ⟨n + 1, h⟩) _ p q).trans ?_
        exact congrArg (· + (prodX_2 mI c p q ⟨n + 1, h⟩ + prodH_2 mI c p q ⟨n + 1, h⟩)) (accAt_run_2 c p q n (Nat.lt_of_succ_lt h))
      · rw [accAt_B mI c ⟨n + 1, h⟩ h0 h1]
        dsimp only
        rw [sout_B_2_eq]
        refine (stepAdd_2 (iblk mI c 0 ⟨n + 1, h⟩) (iblk mI c 1 ⟨n + 1, h⟩) (iblk mI c 4 ⟨n + 1, h⟩) (iblk mI c 8 ⟨n + 1, h⟩) _ p q).trans ?_
        exact congrArg (· + (prodX_2 mI c p q ⟨n + 1, h⟩ + prodH_2 mI c p q ⟨n + 1, h⟩)) (accAt_run_2 c p q n (Nat.lt_of_succ_lt h))

/-- Gate 3's first product at a point: the input block against the gate's input-weight block. -/
def prodX_3 (c : Dev nD) (p : Fin 1024) (q : Fin 512) (t : Fin cfg0.N) : EReal := dotT (iblk mI c 0 t) (iblk mI c 5 t) p q
/-- Gate 3's second product at a point: the hidden block against the gate's recurrent-weight block. -/
def prodH_3 (c : Dev nD) (p : Fin 1024) (q : Fin 512) (t : Fin cfg0.N) : EReal := dotT (iblk mI c 1 t) (iblk mI c 9 t) p q

/-- Accumulator 3's running sum after position `n`: reset at a reduction's first step. -/
def run_3 (c : Dev nD) (p : Fin 1024) (q : Fin 512) : (n : ℕ) → n < cfg0.N → EReal
  | 0, h => 0 + (prodX_3 mI c p q ⟨0, h⟩ + prodH_3 mI c p q ⟨0, h⟩)
  | n + 1, h => if (n + 1) % 8 = 0 then 0 + (prodX_3 mI c p q ⟨n + 1, h⟩ + prodH_3 mI c p q ⟨n + 1, h⟩)
      else run_3 c p q n (Nat.lt_of_succ_lt h) + (prodX_3 mI c p q ⟨n + 1, h⟩ + prodH_3 mI c p q ⟨n + 1, h⟩)

theorem run_3_zero (c : Dev nD) (p : Fin 1024) (q : Fin 512) (h : 0 < cfg0.N) :
    run_3 mI c p q 0 h = 0 + (prodX_3 mI c p q ⟨0, h⟩ + prodH_3 mI c p q ⟨0, h⟩) := rfl
theorem run_3_succ (c : Dev nD) (p : Fin 1024) (q : Fin 512) (n : ℕ) (h : n + 1 < cfg0.N) :
    run_3 mI c p q (n + 1) h = if (n + 1) % 8 = 0 then 0 + (prodX_3 mI c p q ⟨n + 1, h⟩ + prodH_3 mI c p q ⟨n + 1, h⟩)
      else run_3 mI c p q n (Nat.lt_of_succ_lt h) + (prodX_3 mI c p q ⟨n + 1, h⟩ + prodH_3 mI c p q ⟨n + 1, h⟩) := rfl

set_option maxHeartbeats 2000000 in
/-- Accumulator 3 after position `n` IS its running sum, entry by entry: by induction on the point. -/
theorem accAt_run_3 (c : Dev nD) (p : Fin 1024) (q : Fin 512) : ∀ (n : ℕ) (h : n < cfg0.N), (accAt mI c n h).2.2.2 (ix2 p q) = run_3 mI c p q n h
  | 0, h => by
    rw [accAt_A mI c ⟨0, h⟩ rfl]
    dsimp only
    rw [sout_A_3_eq]
    exact stepReset_3 (iblk mI c 0 ⟨0, h⟩) (iblk mI c 1 ⟨0, h⟩) (iblk mI c 5 ⟨0, h⟩) (iblk mI c 9 ⟨0, h⟩) p q
  | n + 1, h => by
    rw [run_3_succ]
    by_cases h0 : (n + 1) % 8 = 0
    · rw [if_pos h0, accAt_A mI c ⟨n + 1, h⟩ h0]
      dsimp only
      rw [sout_A_3_eq]
      exact stepReset_3 (iblk mI c 0 ⟨n + 1, h⟩) (iblk mI c 1 ⟨n + 1, h⟩) (iblk mI c 5 ⟨n + 1, h⟩) (iblk mI c 9 ⟨n + 1, h⟩) p q
    · rw [if_neg h0]
      by_cases h1 : (n + 1) % 8 = 7
      · rw [accAt_C mI c ⟨n + 1, h⟩ h0 h1]
        dsimp only
        rw [sout_C_3_eq]
        refine (stepAdd_3 (iblk mI c 0 ⟨n + 1, h⟩) (iblk mI c 1 ⟨n + 1, h⟩) (iblk mI c 5 ⟨n + 1, h⟩) (iblk mI c 9 ⟨n + 1, h⟩) _ p q).trans ?_
        exact congrArg (· + (prodX_3 mI c p q ⟨n + 1, h⟩ + prodH_3 mI c p q ⟨n + 1, h⟩)) (accAt_run_3 c p q n (Nat.lt_of_succ_lt h))
      · rw [accAt_B mI c ⟨n + 1, h⟩ h0 h1]
        dsimp only
        rw [sout_B_3_eq]
        refine (stepAdd_3 (iblk mI c 0 ⟨n + 1, h⟩) (iblk mI c 1 ⟨n + 1, h⟩) (iblk mI c 5 ⟨n + 1, h⟩) (iblk mI c 9 ⟨n + 1, h⟩) _ p q).trans ?_
        exact congrArg (· + (prodX_3 mI c p q ⟨n + 1, h⟩ + prodH_3 mI c p q ⟨n + 1, h⟩)) (accAt_run_3 c p q n (Nat.lt_of_succ_lt h))

/-! ## The two results at a reduction's last step -/

set_option maxHeartbeats 2000000 in
/-- At a last step the new cell state's buffer holds the cell formula over the updated accumulators, the first three
    bias rows and the previous cell state's block. -/
theorem out16At_last (c : Dev nD) (t : Fin cfg0.N) (h0 : ¬t.val % 8 = 0) (h1 : t.val % 8 = 7) :
    out16At mI c t = k0_pay4 (F := Ideal) (accAt mI c t.val t.isLt).1 (iblk mI c 10 t) (accAt mI c t.val t.isLt).2.1 (iblk mI c 11 t) (accAt mI c t.val t.isLt).2.2.1 (iblk mI c 12 t) (iblk mI c 14 t) := by
  unfold out16At
  rw [dif_pos h1, out_C_16_eq, accAt_C mI c t h0 h1]
  dsimp only
  rw [sout_C_0_eq, sout_C_1_eq, sout_C_2_eq]

set_option maxHeartbeats 2000000 in
/-- At a last step the new hidden state's buffer holds the hidden formula over the four updated accumulators, the four
    bias rows and the previous cell state's block. -/
theorem out15At_last (c : Dev nD) (t : Fin cfg0.N) (h0 : ¬t.val % 8 = 0) (h1 : t.val % 8 = 7) :
    out15At mI c t = k0_pay5 (F := Ideal) (accAt mI c t.val t.isLt).1 (iblk mI c 10 t) (accAt mI c t.val t.isLt).2.1 (iblk mI c 11 t) (accAt mI c t.val t.isLt).2.2.1 (iblk mI c 12 t) (accAt mI c t.val t.isLt).2.2.2 (iblk mI c 13 t) (iblk mI c 14 t) := by
  unfold out15At
  rw [dif_pos h1, out_C_15_eq, accAt_C mI c t h0 h1]
  dsimp only
  rw [sout_C_0_eq, sout_C_1_eq, sout_C_2_eq, sout_C_3_eq]

end Cert.KernelIdeal.Frame

end
-- ==== Proof.KernelIdeal.Blocks.lean ====
/-
  Where each window's block lies in its array: the grid point's three coordinates in closed form, each window's
  block index at a point, and a block read at an index as the array read at block index × block size + the index
  inside the block.
-/
import proofs.«164211_j64476049047569_2_alg».proof.Proof.KernelIdeal.Runs
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Frame

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable {F : FTy → Type} [FloatOps F]

variable (m : (ℓ : Loc nD τ sig) → Buf (Elt F) ℓ)

/-! ## The grid point's coordinates -/

/-- The grid has 4 · 4 · 8 points. -/
theorem t_lt (t : Fin cfg0.N) : t.val < 128 := lt_of_lt_of_eq t.isLt N_0

/-- Point `t`'s batch tile, -/
def ti (t : Fin cfg0.N) : ℕ := t.val / 32
/-- its hidden tile, -/
def tj (t : Fin cfg0.N) : ℕ := t.val / 8 % 4
/-- and its reduction step. -/
def tk (t : Fin cfg0.N) : ℕ := t.val % 8

theorem ti_lt (t : Fin cfg0.N) : ti t < 4 := by have := t_lt t; unfold ti; omega
theorem tj_lt (t : Fin cfg0.N) : tj t < 4 := by unfold tj; omega
theorem tk_lt (t : Fin cfg0.N) : tk t < 8 := by unfold tk; omega
/-- The point from its coordinates. -/
theorem t_eq (t : Fin cfg0.N) : t.val = 32 * ti t + 8 * tj t + tk t := by unfold ti tj tk; omega

/-! ## Each window's block index at a point -/

theorem idx_0 : ∀ t : Fin cfg0.N, win0_0.index t 0 = ti t ∧ win0_0.index t 1 = tk t :=
  (by decide +kernel : ∀ t : Fin grid0.N, win0_0.index t 0 = t.val / 32 ∧ win0_0.index t 1 = t.val % 8)
theorem idx_1 : ∀ t : Fin cfg0.N, win0_1.index t 0 = ti t ∧ win0_1.index t 1 = tk t :=
  (by decide +kernel : ∀ t : Fin grid0.N, win0_1.index t 0 = t.val / 32 ∧ win0_1.index t 1 = t.val % 8)
theorem idx_2 : ∀ t : Fin cfg0.N, win0_2.index t 0 = tj t ∧ win0_2.index t 1 = tk t :=
  (by decide +kernel : ∀ t : Fin grid0.N, win0_2.index t 0 = t.val / 8 % 4 ∧ win0_2.index t 1 = t.val % 8)
theorem idx_3 : ∀ t : Fin cfg0.N, win0_3.index t 0 = tj t + 4 ∧ win0_3.index t 1 = tk t :=
  (by decide +kernel : ∀ t : Fin grid0.N, win0_3.index t 0 = t.val / 8 % 4 + 4 ∧ win0_3.index t 1 = t.val % 8)
theorem idx_4 : ∀ t : Fin cfg0.N, win0_4.index t 0 = tj t + 8 ∧ win0_4.index t 1 = tk t :=
  (by decide +kernel : ∀ t : Fin grid0.N, win0_4.index t 0 = t.val / 8 % 4 + 8 ∧ win0_4.index t 1 = t.val % 8)
theorem idx_5 : ∀ t : Fin cfg0.N, win0_5.index t 0 = tj t + 12 ∧ win0_5.index t 1 = tk t :=
  (by decide +kernel : ∀ t : Fin grid0.N, win0_5.index t 0 = t.val / 8 % 4 + 12 ∧ win0_5.index t 1 = t.val % 8)
theorem idx_6 : ∀ t : Fin cfg0.N, win0_6.index t 0 = tj t ∧ win0_6.index t 1 = tk t :=
  (by decide +kernel : ∀ t : Fin grid0.N, win0_6.index t 0 = t.val / 8 % 4 ∧ win0_6.index t 1 = t.val % 8)
theorem idx_7 : ∀ t : Fin cfg0.N, win0_7.index t 0 = tj t + 4 ∧ win0_7.index t 1 = tk t :=
  (by decide +kernel : ∀ t : Fin grid0.N, win0_7.index t 0 = t.val / 8 % 4 + 4 ∧ win0_7.index t 1 = t.val % 8)
theorem idx_8 : ∀ t : Fin cfg0.N, win0_8.index t 0 = tj t + 8 ∧ win0_8.index t 1 = tk t :=
  (by decide +kernel : ∀ t : Fin grid0.N, win0_8.index t 0 = t.val / 8 % 4 + 8 ∧ win0_8.index t 1 = t.val % 8)
theorem idx_9 : ∀ t : Fin cfg0.N, win0_9.index t 0 = tj t + 12 ∧ win0_9.index t 1 = tk t :=
  (by decide +kernel : ∀ t : Fin grid0.N, win0_9.index t 0 = t.val / 8 % 4 + 12 ∧ win0_9.index t 1 = t.val % 8)
theorem idx_10 : ∀ t : Fin cfg0.N, win0_10.index t 0 = 0 ∧ win0_10.index t 1 = tj t :=
  (by decide +kernel : ∀ t : Fin grid0.N, win0_10.index t 0 = 0 ∧ win0_10.index t 1 = t.val / 8 % 4)
theorem idx_11 : ∀ t : Fin cfg0.N, win0_11.index t 0 = 0 ∧ win0_11.index t 1 = tj t + 4 :=
  (by decide +kernel : ∀ t : Fin grid0.N, win0_11.index t 0 = 0 ∧ win0_11.index t 1 = t.val / 8 % 4 + 4)
theorem idx_12 : ∀ t : Fin cfg0.N, win0_12.index t 0 = 0 ∧ win0_12.index t 1 = tj t + 8 :=
  (by decide +kernel : ∀ t : Fin grid0.N, win0_12.index t 0 = 0 ∧ win0_12.index t 1 = t.val / 8 % 4 + 8)
theorem idx_13 : ∀ t : Fin cfg0.N, win0_13.index t 0 = 0 ∧ win0_13.index t 1 = tj t + 12 :=
  (by decide +kernel : ∀ t : Fin grid0.N, win0_13.index t 0 = 0 ∧ win0_13.index t 1 = t.val / 8 % 4 + 12)
theorem idx_14 : ∀ t : Fin cfg0.N, win0_14.index t 0 = ti t ∧ win0_14.index t 1 = tj t :=
  (by decide +kernel : ∀ t : Fin grid0.N, win0_14.index t 0 = t.val / 32 ∧ win0_14.index t 1 = t.val / 8 % 4)
theorem idx_15 : ∀ t : Fin cfg0.N, win0_15.index t 0 = ti t ∧ win0_15.index t 1 = tj t :=
  (by decide +kernel : ∀ t : Fin grid0.N, win0_15.index t 0 = t.val / 32 ∧ win0_15.index t 1 = t.val / 8 % 4)
theorem idx_16 : ∀ t : Fin cfg0.N, win0_16.index t 0 = ti t ∧ win0_16.index t 1 = tj t :=
  (by decide +kernel : ∀ t : Fin grid0.N, win0_16.index t 0 = t.val / 32 ∧ win0_16.index t 1 = t.val / 8 % 4)

/-! ## A block read at an index -/

theorem iblk_0_apply (c : Dev nD) (t : Fin cfg0.N) (a : Fin 1024) (b : Fin 256) :
    (iblk m c 0 t : Vec F S1024x256 .f32) (ix2 a b)
      = V m c main_arg0 (ix2 (⟨1024 * (ti t) + a.val, by have := ti_lt t; have := a.isLt; omega⟩ : Fin 4096) (⟨256 * (tk t) + b.val, by have := tk_lt t; have := b.isLt; omega⟩ : Fin 2048)) := by
  unfold iblk
  rw [View.read_apply]
  show V m c main_arg0 _ = V m c main_arg0 _
  congr 1
  funext d
  apply Fin.ext
  match d with
  | ⟨0, _⟩ => show win0_0.index t 0 * 1024 + 1 * a.val = 1024 * (ti t) + a.val; rw [(idx_0 t).1]; omega
  | ⟨1, _⟩ => show win0_0.index t 1 * 256 + 1 * b.val = 256 * (tk t) + b.val; rw [(idx_0 t).2]; omega

theorem iblk_1_apply (c : Dev nD) (t : Fin cfg0.N) (a : Fin 1024) (b : Fin 256) :
    (iblk m c 1 t : Vec F S1024x256 .f32) (ix2 a b)
      = V m c main_arg1 (ix2 (⟨1024 * (ti t) + a.val, by have := ti_lt t; have := a.isLt; omega⟩ : Fin 4096) (⟨256 * (tk t) + b.val, by have := tk_lt t; have := b.isLt; omega⟩ : Fin 2048)) := by
  unfold iblk
  rw [View.read_apply]
  show V m c main_arg1 _ = V m c main_arg1 _
  congr 1
  funext d
  apply Fin.ext
  match d with
  | ⟨0, _⟩ => show win0_1.index t 0 * 1024 + 1 * a.val = 1024 * (ti t) + a.val; rw [(idx_1 t).1]; omega
  | ⟨1, _⟩ => show win0_1.index t 1 * 256 + 1 * b.val = 256 * (tk t) + b.val; rw [(idx_1 t).2]; omega

theorem iblk_2_apply (c : Dev nD) (t : Fin cfg0.N) (a : Fin 512) (b : Fin 256) :
    (iblk m c 2 t : Vec F S512x256 .f32) (ix2 a b)
      = V m c main_arg3 (ix2 (⟨512 * (tj t) + a.val, by have := tj_lt t; have := a.isLt; omega⟩ : Fin 8192) (⟨256 * (tk t) + b.val, by have := tk_lt t; have := b.isLt; omega⟩ : Fin 2048)) := by
  unfold iblk
  rw [View.read_apply]
  show V m c main_arg3 _ = V m c main_arg3 _
  congr 1
  funext d
  apply Fin.ext
  match d with
  | ⟨0, _⟩ => show win0_2.index t 0 * 512 + 1 * a.val = 512 * (tj t) + a.val; rw [(idx_2 t).1]; omega
  | ⟨1, _⟩ => show win0_2.index t 1 * 256 + 1 * b.val = 256 * (tk t) + b.val; rw [(idx_2 t).2]; omega

theorem iblk_3_apply (c : Dev nD) (t : Fin cfg0.N) (a : Fin 512) (b : Fin 256) :
    (iblk m c 3 t : Vec F S512x256 .f32) (ix2 a b)
      = V m c main_arg3 (ix2 (⟨512 * (tj t + 4) + a.val, by have := tj_lt t; have := a.isLt; omega⟩ : Fin 8192) (⟨256 * (tk t) + b.val, by have := tk_lt t; have := b.isLt; omega⟩ : Fin 2048)) := by
  unfold iblk
  rw [View.read_apply]
  show V m c main_arg3 _ = V m c main_arg3 _
  congr 1
  funext d
  apply Fin.ext
  match d with
  | ⟨0, _⟩ => show win0_3.index t 0 * 512 + 1 * a.val = 512 * (tj t + 4) + a.val; rw [(idx_3 t).1]; omega
  | ⟨1, _⟩ => show win0_3.index t 1 * 256 + 1 * b.val = 256 * (tk t) + b.val; rw [(idx_3 t).2]; omega

theorem iblk_4_apply (c : Dev nD) (t : Fin cfg0.N) (a : Fin 512) (b : Fin 256) :
    (iblk m c 4 t : Vec F S512x256 .f32) (ix2 a b)
      = V m c main_arg3 (ix2 (⟨512 * (tj t + 8) + a.val, by have := tj_lt t; have := a.isLt; omega⟩ : Fin 8192) (⟨256 * (tk t) + b.val, by have := tk_lt t; have := b.isLt; omega⟩ : Fin 2048)) := by
  unfold iblk
  rw [View.read_apply]
  show V m c main_arg3 _ = V m c main_arg3 _
  congr 1
  funext d
  apply Fin.ext
  match d with
  | ⟨0, _⟩ => show win0_4.index t 0 * 512 + 1 * a.val = 512 * (tj t + 8) + a.val; rw [(idx_4 t).1]; omega
  | ⟨1, _⟩ => show win0_4.index t 1 * 256 + 1 * b.val = 256 * (tk t) + b.val; rw [(idx_4 t).2]; omega

theorem iblk_5_apply (c : Dev nD) (t : Fin cfg0.N) (a : Fin 512) (b : Fin 256) :
    (iblk m c 5 t : Vec F S512x256 .f32) (ix2 a b)
      = V m c main_arg3 (ix2 (⟨512 * (tj t + 12) + a.val, by have := tj_lt t; have := a.isLt; omega⟩ : Fin 8192) (⟨256 * (tk t) + b.val, by have := tk_lt t; have := b.isLt; omega⟩ : Fin 2048)) := by
  unfold iblk
  rw [View.read_apply]
  show V m c main_arg3 _ = V m c main_arg3 _
  congr 1
  funext d
  apply Fin.ext
  match d with
  | ⟨0, _⟩ => show win0_5.index t 0 * 512 + 1 * a.val = 512 * (tj t + 12) + a.val; rw [(idx_5 t).1]; omega
  | ⟨1, _⟩ => show win0_5.index t 1 * 256 + 1 * b.val = 256 * (tk t) + b.val; rw [(idx_5 t).2]; omega

theorem iblk_6_apply (c : Dev nD) (t : Fin cfg0.N) (a : Fin 512) (b : Fin 256) :
    (iblk m c 6 t : Vec F S512x256 .f32) (ix2 a b)
      = V m c main_arg5 (ix2 (⟨512 * (tj t) + a.val, by have := tj_lt t; have := a.isLt; omega⟩ : Fin 8192) (⟨256 * (tk t) + b.val, by have := tk_lt t; have := b.isLt; omega⟩ : Fin 2048)) := by
  unfold iblk
  rw [View.read_apply]
  show V m c main_arg5 _ = V m c main_arg5 _
  congr 1
  funext d
  apply Fin.ext
  match d with
  | ⟨0, _⟩ => show win0_6.index t 0 * 512 + 1 * a.val = 512 * (tj t) + a.val; rw [(idx_6 t).1]; omega
  | ⟨1, _⟩ => show win0_6.index t 1 * 256 + 1 * b.val = 256 * (tk t) + b.val; rw [(idx_6 t).2]; omega

theorem iblk_7_apply (c : Dev nD) (t : Fin cfg0.N) (a : Fin 512) (b : Fin 256) :
    (iblk m c 7 t : Vec F S512x256 .f32) (ix2 a b)
      = V m c main_arg5 (ix2 (⟨512 * (tj t + 4) + a.val, by have := tj_lt t; have := a.isLt; omega⟩ : Fin 8192) (⟨256 * (tk t) + b.val, by have := tk_lt t; have := b.isLt; omega⟩ : Fin 2048)) := by
  unfold iblk
  rw [View.read_apply]
  show V m c main_arg5 _ = V m c main_arg5 _
  congr 1
  funext d
  apply Fin.ext
  match d with
  | ⟨0, _⟩ => show win0_7.index t 0 * 512 + 1 * a.val = 512 * (tj t + 4) + a.val; rw [(idx_7 t).1]; omega
  | ⟨1, _⟩ => show win0_7.index t 1 * 256 + 1 * b.val = 256 * (tk t) + b.val; rw [(idx_7 t).2]; omega

theorem iblk_8_apply (c : Dev nD) (t : Fin cfg0.N) (a : Fin 512) (b : Fin 256) :
    (iblk m c 8 t : Vec F S512x256 .f32) (ix2 a b)
      = V m c main_arg5 (ix2 (⟨512 * (tj t + 8) + a.val, by have := tj_lt t; have := a.isLt; omega⟩ : Fin 8192) (⟨256 * (tk t) + b.val, by have := tk_lt t; have := b.isLt; omega⟩ : Fin 2048)) := by
  unfold iblk
  rw [View.read_apply]
  show V m c main_arg5 _ = V m c main_arg5 _
  congr 1
  funext d
  apply Fin.ext
  match d with
  | ⟨0, _⟩ => show win0_8.index t 0 * 512 + 1 * a.val = 512 * (tj t + 8) + a.val; rw [(idx_8 t).1]; omega
  | ⟨1, _⟩ => show win0_8.index t 1 * 256 + 1 * b.val = 256 * (tk t) + b.val; rw [(idx_8 t).2]; omega

theorem iblk_9_apply (c : Dev nD) (t : Fin cfg0.N) (a : Fin 512) (b : Fin 256) :
    (iblk m c 9 t : Vec F S512x256 .f32) (ix2 a b)
      = V m c main_arg5 (ix2 (⟨512 * (tj t + 12) + a.val, by have := tj_lt t; have := a.isLt; omega⟩ : Fin 8192) (⟨256 * (tk t) + b.val, by have := tk_lt t; have := b.isLt; omega⟩ : Fin 2048)) := by
  unfold iblk
  rw [View.read_apply]
  show V m c main_arg5 _ = V m c main_arg5 _
  congr 1
  funext d
  apply Fin.ext
  match d with
  | ⟨0, _⟩ => show win0_9.index t 0 * 512 + 1 * a.val = 512 * (tj t + 12) + a.val; rw [(idx_9 t).1]; omega
  | ⟨1, _⟩ => show win0_9.index t 1 * 256 + 1 * b.val = 256 * (tk t) + b.val; rw [(idx_9 t).2]; omega

theorem iblk_10_apply (c : Dev nD) (t : Fin cfg0.N) (b : Fin 512) :
    (iblk m c 10 t : Vec F S1x512 .f32) (ix2 (0 : Fin 1) b)
      = V m c main_v1 (ix2 (0 : Fin 1) (⟨512 * (tj t) + b.val, by have := tj_lt t; have := b.isLt; omega⟩ : Fin 8192)) := by
  unfold iblk
  rw [View.read_apply]
  show V m c main_v1 _ = V m c main_v1 _
  congr 1
  funext d
  apply Fin.ext
  match d with
  | ⟨0, _⟩ => show win0_10.index t 0 * 1 + 1 * (0 : Fin 1).val = (0 : Fin 1).val; rw [(idx_10 t).1]; rfl
  | ⟨1, _⟩ => show win0_10.index t 1 * 512 + 1 * b.val = 512 * (tj t) + b.val; rw [(idx_10 t).2]; omega

theorem iblk_11_apply (c : Dev nD) (t : Fin cfg0.N) (b : Fin 512) :
    (iblk m c 11 t : Vec F S1x512 .f32) (ix2 (0 : Fin 1) b)
      = V m c main_v1 (ix2 (0 : Fin 1) (⟨512 * (tj t + 4) + b.val, by have := tj_lt t; have := b.isLt; omega⟩ : Fin 8192)) := by
  unfold iblk
  rw [View.read_apply]
  show V m c main_v1 _ = V m c main_v1 _
  congr 1
  funext d
  apply Fin.ext
  match d with
  | ⟨0, _⟩ => show win0_11.index t 0 * 1 + 1 * (0 : Fin 1).val = (0 : Fin 1).val; rw [(idx_11 t).1]; rfl
  | ⟨1, _⟩ => show win0_11.index t 1 * 512 + 1 * b.val = 512 * (tj t + 4) + b.val; rw [(idx_11 t).2]; omega

theorem iblk_12_apply (c : Dev nD) (t : Fin cfg0.N) (b : Fin 512) :
    (iblk m c 12 t : Vec F S1x512 .f32) (ix2 (0 : Fin 1) b)
      = V m c main_v1 (ix2 (0 : Fin 1) (⟨512 * (tj t + 8) + b.val, by have := tj_lt t; have := b.isLt; omega⟩ : Fin 8192)) := by
  unfold iblk
  rw [View.read_apply]
  show V m c main_v1 _ = V m c main_v1 _
  congr 1
  funext d
  apply Fin.ext
  match d with
  | ⟨0, _⟩ => show win0_12.index t 0 * 1 + 1 * (0 : Fin 1).val = (0 : Fin 1).val; rw [(idx_12 t).1]; rfl
  | ⟨1, _⟩ => show win0_12.index t 1 * 512 + 1 * b.val = 512 * (tj t + 8) + b.val; rw [(idx_12 t).2]; omega

theorem iblk_13_apply (c : Dev nD) (t : Fin cfg0.N) (b : Fin 512) :
    (iblk m c 13 t : Vec F S1x512 .f32) (ix2 (0 : Fin 1) b)
      = V m c main_v1 (ix2 (0 : Fin 1) (⟨512 * (tj t + 12) + b.val, by have := tj_lt t; have := b.isLt; omega⟩ : Fin 8192)) := by
  unfold iblk
  rw [View.read_apply]
  show V m c main_v1 _ = V m c main_v1 _
  congr 1
  funext d
  apply Fin.ext
  match d with
  | ⟨0, _⟩ => show win0_13.index t 0 * 1 + 1 * (0 : Fin 1).val = (0 : Fin 1).val; rw [(idx_13 t).1]; rfl
  | ⟨1, _⟩ => show win0_13.index t 1 * 512 + 1 * b.val = 512 * (tj t + 12) + b.val; rw [(idx_13 t).2]; omega

theorem iblk_14_apply (c : Dev nD) (t : Fin cfg0.N) (a : Fin 1024) (b : Fin 512) :
    (iblk m c 14 t : Vec F S1024x512 .f32) (ix2 a b)
      = V m c main_arg2 (ix2 (⟨1024 * (ti t) + a.val, by have := ti_lt t; have := a.isLt; omega⟩ : Fin 4096) (⟨512 * (tj t) + b.val, by have := tj_lt t; have := b.isLt; omega⟩ : Fin 2048)) := by
  unfold iblk
  rw [View.read_apply]
  show V m c main_arg2 _ = V m c main_arg2 _
  congr 1
  funext d
  apply Fin.ext
  match d with
  | ⟨0, _⟩ => show win0_14.index t 0 * 1024 + 1 * a.val = 1024 * (ti t) + a.val; rw [(idx_14 t).1]; omega
  | ⟨1, _⟩ => show win0_14.index t 1 * 512 + 1 * b.val = 512 * (tj t) + b.val; rw [(idx_14 t).2]; omega

end Cert.KernelIdeal.Frame

end
-- ==== Proof.KernelIdeal.BlocksOut.lean ====
/-
  What the region finds in the arrays its windows read — the seven arguments untouched, the two bias vectors added
  and laid out as one row — and, for the two result windows, that the blocks written back at the reduction's last
  steps tile the result arrays, with a block of a whole-array function read at an index.
-/
import proofs.«164211_j64476049047569_2_alg».proof.Proof.KernelIdeal.Blocks
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal

set_option maxRecDepth 16384

noncomputable section

namespace Cert.KernelIdeal.Frame

open Idealize.ShloMosaic Idealize.ShloMosaic.TcCoe Idealize.ShloMosaic.Tactic
open Idealize.SL Idealize.SL.Sem
open Idealize.ShloMosaic.Pipeline (Dat Cfg Window)
open Idealize.ShloMosaic.ValueIdx Idealize.ShloMosaic.StableHlo
open Cert.KernelIdeal Cert.KernelIdeal.Gen

variable {F : FTy → Type} [FloatOps F]

variable (m : (ℓ : Loc nD τ sig) → Buf (Elt F) ℓ)

/-! ## The arguments as the region finds them -/

theorem V_arg0 (c : Dev nD) : V m c main_arg0 = m ((c : Thread nD τ).loc main_arg0) := by
  show StableHlo.after hostOps0 (fun b => m (c, b)) (Proc.devRef .tc main_arg0) = _
  after_results
  all_goals rfl
theorem V_arg1 (c : Dev nD) : V m c main_arg1 = m ((c : Thread nD τ).loc main_arg1) := by
  show StableHlo.after hostOps0 (fun b => m (c, b)) (Proc.devRef .tc main_arg1) = _
  after_results
  all_goals rfl
theorem V_arg2 (c : Dev nD) : V m c main_arg2 = m ((c : Thread nD τ).loc main_arg2) := by
  show StableHlo.after hostOps0 (fun b => m (c, b)) (Proc.devRef .tc main_arg2) = _
  after_results
  all_goals rfl
theorem V_arg3 (c : Dev nD) : V m c main_arg3 = m ((c : Thread nD τ).loc main_arg3) := by
  show StableHlo.after hostOps0 (fun b => m (c, b)) (Proc.devRef .tc main_arg3) = _
  after_results
  all_goals rfl
theorem V_arg4 (c : Dev nD) : V m c main_arg4 = m ((c : Thread nD τ).loc main_arg4) := by
  show StableHlo.after hostOps0 (fun b => m (c, b)) (Proc.devRef .tc main_arg4) = _
  after_results
  all_goals rfl
theorem V_arg5 (c : Dev nD) : V m c main_arg5 = m ((c : Thread nD τ).loc main_arg5) := by
  show StableHlo.after hostOps0 (fun b => m (c, b)) (Proc.devRef .tc main_arg5) = _
  after_results
  all_goals rfl
theorem V_arg6 (c : Dev nD) : V m c main_arg6 = m ((c : Thread nD τ).loc main_arg6) := by
  show StableHlo.after hostOps0 (fun b => m (c, b)) (Proc.devRef .tc main_arg6) = _
  after_results
  all_goals rfl

/-- The bias row the region finds: at column `n`, the sum of the two bias vectors at `n`. -/
theorem V_v1_apply (mI : (ℓ : Loc nD τ sig) → Buf (Elt Ideal) ℓ) (c : Dev nD) (n : Fin 8192) :
    (V (F := Ideal) mI c main_v1 : S1x8192.Idx → EReal) (ix2 (0 : Fin 1) n)
      = @HAdd.hAdd EReal EReal EReal instHAdd ((mI ((c : Thread nD τ).loc main_arg4) : S8192.Idx → EReal) (ix1 n)) ((mI ((c : Thread nD τ).loc main_arg6) : S8192.Idx → EReal) (ix1 n)) := by
  have e : (V (F := Ideal) mI c main_v1 : S1x8192.Idx → EReal)
      = shapeCast S1x8192 (addf (F := Ideal) (φ := .f32) (mI ((c : Thread nD τ).loc main_arg4) : S8192.Idx → EReal) (mI ((c : Thread nD τ).loc main_arg6) : S8192.Idx → EReal)) shapeCasts_S8192_S1x8192 := by
    show StableHlo.after hostOps0 (fun b => mI (c, b)) (Proc.devRef .tc main_v1) = _
    after_results
    all_goals rfl
  rw [e, shapeCast_a_1a_apply]
  rfl

/-! ## The two result windows -/

theorem oblk_15_apply (c : Dev nD) (G : Buf (Elt F) ((c : Thread nD τ).loc main_v2_0)) (t : Fin cfg0.N) (a : Fin 1024) (b : Fin 512) :
    (((cfg0.win 15).blk t).view.read (Elt F) G : Vec F S1024x512 .f32) (ix2 a b)
      = G (ix2 (⟨1024 * (ti t) + a.val, by have := ti_lt t; have := a.isLt; omega⟩ : Fin 4096) (⟨512 * (tj t) + b.val, by have := tj_lt t; have := b.isLt; omega⟩ : Fin 2048)) := by
  rw [View.read_apply]
  show G _ = G _
  congr 1
  funext d
  apply Fin.ext
  match d with
  | ⟨0, _⟩ => show win0_15.index t 0 * 1024 + 1 * a.val = 1024 * (ti t) + a.val; rw [(idx_15 t).1]; omega
  | ⟨1, _⟩ => show win0_15.index t 1 * 512 + 1 * b.val = 512 * (tj t) + b.val; rw [(idx_15 t).2]; omega

theorem cover_15 (c : Dev nD) : ∀ i : ((cfg0.win 15).arr.view.loc (c.tc : Thread nD τ)).2.ty.Idx,
    ∃ t : Fin cfg0.N, (cfg0.win 15).flush t = true ∧ i ∈ ((cfg0.win 15).blk t).view.set := by
  intro i
  have h0 : (i 0 : Nat) < 4096 := (i 0).isLt
  have h1 : (i 1 : Nat) < 2048 := (i 1).isLt
  have hN : 32 * ((i 0 : Nat) / 1024) + 8 * ((i 1 : Nat) / 512) + 7 < cfg0.N := by rw [show cfg0.N = 128 from N_0]; omega
  have hti : ti ⟨_, hN⟩ = (i 0 : Nat) / 1024 := by unfold ti; show (32 * ((i 0 : Nat) / 1024) + 8 * ((i 1 : Nat) / 512) + 7) / 32 = _; omega
  have htj : tj ⟨_, hN⟩ = (i 1 : Nat) / 512 := by unfold tj; show (32 * ((i 0 : Nat) / 1024) + 8 * ((i 1 : Nat) / 512) + 7) / 8 % 4 = _; omega
  refine ⟨⟨_, hN⟩, (flush0_15 _).mpr (by show (32 * ((i 0 : Nat) / 1024) + 8 * ((i 1 : Nat) / 512) + 7) % 8 = 7; omega), ?_⟩
  show i ∈ ((View.whole main_v2_0).slice (win0_15.rect ⟨_, hN⟩)).set
  rw [View.set_slice_whole, Rect.mem_set_unit]
  intro a
  match a with
  | ⟨0, _⟩ => show win0_15.index ⟨_, hN⟩ 0 * 1024 ≤ (i 0 : Nat) ∧ (i 0 : Nat) < win0_15.index ⟨_, hN⟩ 0 * 1024 + 1024
              rw [(idx_15 ⟨_, hN⟩).1, hti]; omega
  | ⟨1, _⟩ => show win0_15.index ⟨_, hN⟩ 1 * 512 ≤ (i 1 : Nat) ∧ (i 1 : Nat) < win0_15.index ⟨_, hN⟩ 1 * 512 + 512
              rw [(idx_15 ⟨_, hN⟩).2, htj]; omega

theorem oblk_16_apply (c : Dev nD) (G : Buf (Elt F) ((c : Thread nD τ).loc main_v2_1)) (t : Fin cfg0.N) (a : Fin 1024) (b : Fin 512) :
    (((cfg0.win 16).blk t).view.read (Elt F) G : Vec F S1024x512 .f32) (ix2 a b)
      = G (ix2 (⟨1024 * (ti t) + a.val, by have := ti_lt t; have := a.isLt; omega⟩ : Fin 4096) (⟨512 * (tj t) + b.val, by have := tj_lt t; have := b.isLt; omega⟩ : Fin 2048)) := by
  rw [View.read_apply]
  show G _ = G _
  congr 1
  funext d
  apply Fin.ext
  match d with
  | ⟨0, _⟩ => show win0_16.index t 0 * 1024 + 1 * a.val = 1024 * (ti t) + a.val; rw [(idx_16 t).1]; omega
  | ⟨1, _⟩ => show win0_16.index t 1 * 512 + 1 * b.val = 512 * (tj t) + b.val; rw [(idx_16 t).2]; omega

theorem cover_16 (c : Dev nD) : ∀ i : ((cfg0.win 16).arr.view.loc (c.tc : Thread nD τ)).2.ty.Idx,
    ∃ t : Fin cfg0.N, (cfg0.win 16).flush t = true ∧ i ∈ ((cfg0.win 16).blk t).view.set := by
  intro i
  have h0 : (i 0 : Nat) < 4096 := (i 0).isLt
  have h1 : (i 1 : Nat) < 2048 := (i 1).isLt
  have hN : 32 * ((i 0 : Nat) / 1024) + 8 * ((i 1 : Nat) / 512) + 7 < cfg0.N := by rw [show cfg0.N = 128 from N_0]; omega
  have hti : ti ⟨_, hN⟩ = (i 0 : Nat) / 1024 := by unfold ti; show (32 * ((i 0 : Nat) / 1024) + 8 * ((i 1 : Nat) / 512) + 7) / 32 = _; omega
  have htj : tj ⟨_, hN⟩ = (i 1 : Nat) / 512 := by unfold tj; show (32 * ((i 0 : Nat) / 1024) + 8 * ((i 1 : Nat) / 512) + 7) / 8 % 4 = _; omega
  refine ⟨⟨_, hN⟩, (flush0_16 _).mpr (by show (32 * ((i 0 : Nat) / 1024) + 8 * ((i 1 : Nat) / 512) + 7) % 8 = 7; omega), ?_⟩
  show i ∈ ((View.whole main_v2_1).slice (win0_16.rect ⟨_, hN⟩)).set
  rw [View.set_slice_whole, Rect.mem_set_unit]
  intro a
  match a with
  | ⟨0, _⟩ => show win0_16.index ⟨_, hN⟩ 0 * 1024 ≤ (i 0 : Nat) ∧ (i 0 : Nat) < win0_16.index ⟨_, hN⟩ 0 * 1024 + 1024
              rw [(idx_16 ⟨_, hN⟩).1, hti]; omega
  | ⟨1, _⟩ => show win0_16.index ⟨_, hN⟩ 1 * 512 ≤ (i 1 : Nat) ∧ (i 1 : Nat) < win0_16.index ⟨_, hN⟩ 1 * 512 + 512
              rw [(idx_16 ⟨_, hN⟩).2, htj]; omega

end Cert.KernelIdeal.Frame

end
-- ==== Proof.Spec.lean ====
/-
  The mathematics of one LSTM cell step, stated once over the extended reals, index by index.

  For a batch row `p`, a hidden unit `q` and a gate `g` (0 forget, 1 input, 2 candidate, 3 output) the gate's
  pre-activation is the row `p` of the input against row `g·2048 + q` of the input weights, plus the row `p` of the
  previous hidden state against the same row of the recurrent weights, plus the two biases at `g·2048 + q`:

      gate g p q = (∑ₖ x[p,k]·Wx[g·2048+q,k] + ∑ₖ h[p,k]·Wh[g·2048+q,k]) + (bx[g·2048+q] + bh[g·2048+q]).

  The new cell state is  cy = σ(gate 0)·cx + σ(gate 1)·tanh(gate 2)  and the new hidden state  hy = σ(gate 3)·tanh(cy),
  with σ the logistic function 1 / (1 + e⁻ˣ) of the extended reals.
-/
import Idealize.ShloMosaic.PureOps.Ideal
import Idealize.ShloMosaic.Lib.ValueIdx

noncomputable section

open scoped BigOperators

namespace Cert.LstmSpec

open Idealize.ShloMosaic Idealize.ShloMosaic.ValueIdx

/-- The activations' shape: 4096 batch rows by 2048 features. -/
abbrev SAct : Shape := ⟨2, ![4096, 2048]⟩
/-- The stacked weights' shape: four gates of 2048 rows each, by 2048 features. -/
abbrev SWts : Shape := ⟨2, ![8192, 2048]⟩
/-- The stacked biases' shape. -/
abbrev SBias : Shape := ⟨1, ![8192]⟩

/-- Row `g·2048 + q` of the stacked weights and biases: hidden unit `q` of gate `g`. -/
def gateRow (g : Fin 4) (q : Fin 2048) : Fin 8192 := ⟨g.val * 2048 + q.val, by omega⟩

theorem gateRow_val (g : Fin 4) (q : Fin 2048) : (gateRow g q).val = g.val * 2048 + q.val := rfl

/-- The pre-activation of gate `g` at batch row `p`, hidden unit `q`. -/
def gate (x h : SAct.Idx → EReal) (Wx : SWts.Idx → EReal) (bx : SBias.Idx → EReal) (Wh : SWts.Idx → EReal) (bh : SBias.Idx → EReal)
    (g : Fin 4) (p : Fin 4096) (q : Fin 2048) : EReal :=
  ((∑ k : Fin 2048, x (ix2 p k) * Wx (ix2 (gateRow g q) k)) + (∑ k : Fin 2048, h (ix2 p k) * Wh (ix2 (gateRow g q) k)))
    + (bx (ix1 (gateRow g q)) + bh (ix1 (gateRow g q)))

/-- The new cell state at `(p, q)`. -/
def cellAt (x h c : SAct.Idx → EReal) (Wx : SWts.Idx → EReal) (bx : SBias.Idx → EReal) (Wh : SWts.Idx → EReal) (bh : SBias.Idx → EReal)
    (p : Fin 4096) (q : Fin 2048) : EReal :=
  Ideal.logistic (gate x h Wx bx Wh bh 0 p q) * c (ix2 p q)
    + Ideal.logistic (gate x h Wx bx Wh bh 1 p q) * Ideal.tanh (gate x h Wx bx Wh bh 2 p q)

/-- The new hidden state at `(p, q)`. -/
def hiddenAt (x h c : SAct.Idx → EReal) (Wx : SWts.Idx → EReal) (bx : SBias.Idx → EReal) (Wh : SWts.Idx → EReal) (bh : SBias.Idx → EReal)
    (p : Fin 4096) (q : Fin 2048) : EReal :=
  Ideal.logistic (gate x h Wx bx Wh bh 3 p q) * Ideal.tanh (cellAt x h c Wx bx Wh bh p q)

/-- The new cell state as an array. -/
def cellArr (x h c : SAct.Idx → EReal) (Wx : SWts.Idx → EReal) (bx : SBias.Idx → EReal) (Wh : SWts.Idx → EReal) (bh : SBias.Idx → EReal) :
    SAct.Idx → EReal := fun j => cellAt x h c Wx bx Wh bh (j 0) (j 1)

/-- The new hidden state as an array. -/
def hiddenArr (x h c : SAct.Idx → EReal) (Wx : SWts.Idx → EReal) (bx : SBias.Idx → EReal) (Wh : SWts.Idx → EReal) (bh : SBias.Idx → EReal) :
    SAct.Idx → EReal := fun j => hiddenAt x h c Wx bx Wh bh (j 0) (j 1)

/-- The logistic function is the quotient `1 / (1 + e⁻ˣ)` on every extended real, the quotient and the exponential
    with their conventions at the infinities: the two spellings of a sigmoid denote one function. -/
theorem logistic_eq_div (x : EReal) : Ideal.logistic x = Ideal.div 1 (1 + Ideal.exp (-x)) := rfl

end Cert.LstmSpec

end
-- ==== Proof.SumBlocks.lean ====
/-
  Two facts about finite sums over the extended reals: a sum over 2048 terms taken in eight consecutive blocks of 256,
  and an accumulator that starts from zero and adds one pair of terms per step, after its eight steps.
-/
import Mathlib.Data.EReal.Basic
import Mathlib.Algebra.BigOperators.Fin
import Mathlib.Logic.Equiv.Fin.Basic

namespace Cert.SumBlocks

open scoped BigOperators

/-- Eight consecutive blocks of 256 terms make up the 2048 terms: position k of block b is term 256 b + k. -/
theorem sum_blocks (f : Fin 2048 → EReal) :
    (∑ b : Fin 8, ∑ k : Fin 256, f ⟨b.val * 256 + k.val, by omega⟩) = ∑ k : Fin 2048, f k := by
  have h : (∑ x : Fin 8 × Fin 256, f (finProdFinEquiv x)) = ∑ k : Fin 2048, f k :=
    Equiv.sum_comp (finProdFinEquiv (m := 8) (n := 256)) f
  rw [Fintype.sum_prod_type] at h
  refine Eq.trans ?_ h
  refine Finset.sum_congr rfl fun b _ => Finset.sum_congr rfl fun k _ => congrArg f (Fin.ext ?_)
  show b.val * 256 + k.val = k.val + 256 * b.val
  omega

/-- An accumulator that starts at zero plus the first pair and adds the next pair at each step holds, after the last
    of eight steps, the sum of the first terms plus the sum of the second terms. -/
theorem fold_steps (A B : Fin 8 → EReal) (acc : ℕ → EReal) (h0 : acc 0 = 0 + (A 0 + B 0))
    (hs : ∀ n (hn : n + 1 < 8), acc (n + 1) = acc n + (A ⟨n+1, hn⟩ + B ⟨n+1, hn⟩)) :
    acc 7 = (∑ b : Fin 8, A b) + (∑ b : Fin 8, B b) := by
  rw [← Finset.sum_add_distrib, Fin.sum_univ_eight]
  rw [hs 6 (by omega), hs 5 (by omega), hs 4 (by omega), hs 3 (by omega), hs 2 (by omega), hs 1 (by omega),
    hs 0 (by omega), h0, zero_add]
  rfl

end Cert.SumBlocks
-- ==== Proof.GateBlocks.lean ====
/-
  The gate pre-activations from sums taken in eight blocks of 256: for batch row 1024·I + p and hidden unit 512·J + q,
  the two contractions summed block by block against row 512·(J + 4g) + q of the stacked weights, plus the two biases
  at that row, are the specification's gate g; the new cell and hidden states follow.
-/
import proofs.«164211_j64476049047569_2_alg».proof.Proof.Spec
import proofs.«164211_j64476049047569_2_alg».proof.Proof.SumBlocks
import Idealize.ShloMosaic.PureOps.Ideal
import Idealize.ShloMosaic.Lib.ValueIdx

noncomputable section

open scoped BigOperators

namespace Cert.GateBlocks

open Cert.LstmSpec Idealize.ShloMosaic Idealize.ShloMosaic.ValueIdx

/-- Row `P` of the activations against row `R` of the stacked weights, summed in eight consecutive blocks of 256. -/
def blockSum (a : SAct.Idx → EReal) (W : SWts.Idx → EReal) (P : Fin 4096) (R : Fin 8192) : EReal :=
  ∑ b : Fin 8, ∑ kk : Fin 256,
    a (ix2 P (⟨256 * b.val + kk.val, by have := b.isLt; have := kk.isLt; omega⟩ : Fin 2048))
      * W (ix2 R (⟨256 * b.val + kk.val, by have := b.isLt; have := kk.isLt; omega⟩ : Fin 2048))

theorem blockSum_def (a : SAct.Idx → EReal) (W : SWts.Idx → EReal) (P : Fin 4096) (R : Fin 8192) :
    blockSum a W P R = ∑ b : Fin 8, ∑ kk : Fin 256,
      a (ix2 P (⟨256 * b.val + kk.val, by have := b.isLt; have := kk.isLt; omega⟩ : Fin 2048))
        * W (ix2 R (⟨256 * b.val + kk.val, by have := b.isLt; have := kk.isLt; omega⟩ : Fin 2048)) := rfl

/-- The eight blocks make up the whole contraction. -/
theorem blockSum_eq (a : SAct.Idx → EReal) (W : SWts.Idx → EReal) (P : Fin 4096) (R : Fin 8192) :
    blockSum a W P R = ∑ k : Fin 2048, a (ix2 P k) * W (ix2 R k) := by
  rw [← Cert.SumBlocks.sum_blocks (fun k => a (ix2 P k) * W (ix2 R k))]
  unfold blockSum
  refine Finset.sum_congr rfl fun b _ => Finset.sum_congr rfl fun kk _ => ?_
  have e : (⟨256 * b.val + kk.val, by have := b.isLt; have := kk.isLt; omega⟩ : Fin 2048)
      = ⟨b.val * 256 + kk.val, by have := b.isLt; have := kk.isLt; omega⟩ := Fin.ext (by show 256 * b.val + kk.val = b.val * 256 + kk.val; omega)
  rw [e]

/-- Gate `g` from the block sums against row 512·(J + o) + q, where o = 4g. -/
theorem gate_of_blocks (x h : SAct.Idx → EReal) (Wx : SWts.Idx → EReal) (bx : SBias.Idx → EReal) (Wh : SWts.Idx → EReal) (bh : SBias.Idx → EReal)
    (I J : ℕ) (hI : I < 4) (hJ : J < 4) (g : Fin 4) (o : ℕ) (ho : o = 4 * g.val) (p : Fin 1024) (q : Fin 512) :
    ((blockSum x Wx (⟨1024 * I + p.val, by have := p.isLt; omega⟩ : Fin 4096) (⟨512 * (J + o) + q.val, by have := g.isLt; have := q.isLt; omega⟩ : Fin 8192) + blockSum h Wh (⟨1024 * I + p.val, by have := p.isLt; omega⟩ : Fin 4096) (⟨512 * (J + o) + q.val, by have := g.isLt; have := q.isLt; omega⟩ : Fin 8192)) + (bx (ix1 (⟨512 * (J + o) + q.val, by have := g.isLt; have := q.isLt; omega⟩ : Fin 8192)) + bh (ix1 (⟨512 * (J + o) + q.val, by have := g.isLt; have := q.isLt; omega⟩ : Fin 8192))))
      = gate x h Wx bx Wh bh g (⟨1024 * I + p.val, by have := p.isLt; omega⟩ : Fin 4096) (⟨512 * J + q.val, by have := q.isLt; omega⟩ : Fin 2048) := by
  have hR : (⟨512 * (J + o) + q.val, by have := g.isLt; have := q.isLt; omega⟩ : Fin 8192) = gateRow g (⟨512 * J + q.val, by have := q.isLt; omega⟩ : Fin 2048) :=
    Fin.ext (by show 512 * (J + o) + q.val = g.val * 2048 + (512 * J + q.val); omega)
  rw [hR, blockSum_eq, blockSum_eq]
  rfl

/-- Gate 0, its row written without an offset. -/
theorem gate0_of_blocks (x h : SAct.Idx → EReal) (Wx : SWts.Idx → EReal) (bx : SBias.Idx → EReal) (Wh : SWts.Idx → EReal) (bh : SBias.Idx → EReal)
    (I J : ℕ) (hI : I < 4) (hJ : J < 4) (p : Fin 1024) (q : Fin 512) :
    ((blockSum x Wx (⟨1024 * I + p.val, by have := p.isLt; omega⟩ : Fin 4096) (⟨512 * J + q.val, by have := q.isLt; omega⟩ : Fin 8192) + blockSum h Wh (⟨1024 * I + p.val, by have := p.isLt; omega⟩ : Fin 4096) (⟨512 * J + q.val, by have := q.isLt; omega⟩ : Fin 8192)) + (bx (ix1 (⟨512 * J + q.val, by have := q.isLt; omega⟩ : Fin 8192)) + bh (ix1 (⟨512 * J + q.val, by have := q.isLt; omega⟩ : Fin 8192))))
      = gate x h Wx bx Wh bh 0 (⟨1024 * I + p.val, by have := p.isLt; omega⟩ : Fin 4096) (⟨512 * J + q.val, by have := q.isLt; omega⟩ : Fin 2048) := by
  have hR : (⟨512 * J + q.val, by have := q.isLt; omega⟩ : Fin 8192) = gateRow 0 (⟨512 * J + q.val, by have := q.isLt; omega⟩ : Fin 2048) :=
    Fin.ext (by show 512 * J + q.val = (0 : Fin 4).val * 2048 + (512 * J + q.val); simp)
  rw [hR, blockSum_eq, blockSum_eq]
  rfl

/-- The new cell state from the block sums of gates 0, 1, 2. -/
theorem cell_of_blocks (x h c : SAct.Idx → EReal) (Wx : SWts.Idx → EReal) (bx : SBias.Idx → EReal) (Wh : SWts.Idx → EReal) (bh : SBias.Idx → EReal)
    (I J : ℕ) (hI : I < 4) (hJ : J < 4) (p : Fin 1024) (q : Fin 512) :
    Ideal.logistic ((blockSum x Wx (⟨1024 * I + p.val, by have := p.isLt; omega⟩ : Fin 4096) (⟨512 * J + q.val, by have := q.isLt; omega⟩ : Fin 8192) + blockSum h Wh (⟨1024 * I + p.val, by have := p.isLt; omega⟩ : Fin 4096) (⟨512 * J + q.val, by have := q.isLt; omega⟩ : Fin 8192)) + (bx (ix1 (⟨512 * J + q.val, by have := q.isLt; omega⟩ : Fin 8192)) + bh (ix1 (⟨512 * J + q.val, by have := q.isLt; omega⟩ : Fin 8192)))) * c (ix2 (⟨1024 * I + p.val, by have := p.isLt; omega⟩ : Fin 4096) (⟨512 * J + q.val, by have := q.isLt; omega⟩ : Fin 2048))
      + Ideal.logistic ((blockSum x Wx (⟨1024 * I + p.val, by have := p.isLt; omega⟩ : Fin 4096) (⟨512 * (J + 4) + q.val, by have := q.isLt; omega⟩ : Fin 8192) + blockSum h Wh (⟨1024 * I + p.val, by have := p.isLt; omega⟩ : Fin 4096) (⟨512 * (J + 4) + q.val, by have := q.isLt; omega⟩ : Fin 8192)) + (bx (ix1 (⟨512 * (J + 4) + q.val, by have := q.isLt; omega⟩ : Fin 8192)) + bh (ix1 (⟨512 * (J + 4) + q.val, by have := q.isLt; omega⟩ : Fin 8192)))) * Ideal.tanh ((blockSum x Wx (⟨1024 * I + p.val, by have := p.isLt; omega⟩ : Fin 4096) (⟨512 * (J + 8) + q.val, by have := q.isLt; omega⟩ : Fin 8192) + blockSum h Wh (⟨1024 * I + p.val, by have := p.isLt; omega⟩ : Fin 4096) (⟨512 * (J + 8) + q.val, by have := q.isLt; omega⟩ : Fin 8192)) + (bx (ix1 (⟨512 * (J + 8) + q.val, by have := q.isLt; omega⟩ : Fin 8192)) + bh (ix1 (⟨512 * (J + 8) + q.val, by have := q.isLt; omega⟩ : Fin 8192))))
      = cellAt x h c Wx bx Wh bh (⟨1024 * I + p.val, by have := p.isLt; omega⟩ : Fin 4096) (⟨512 * J + q.val, by have := q.isLt; omega⟩ : Fin 2048) := by
  rw [gate0_of_blocks x h Wx bx Wh bh I J hI hJ p q, gate_of_blocks x h Wx bx Wh bh I J hI hJ 1 4 (by decide) p q,
    gate_of_blocks x h Wx bx Wh bh I J hI hJ 2 8 (by decide) p q]
  rfl

/-- The new hidden state from the block sums of gate 3 and the new cell state. -/
theorem hidden_of_blocks (x h c : SAct.Idx → EReal) (Wx : SWts.Idx → EReal) (bx : SBias.Idx → EReal) (Wh : SWts.Idx → EReal) (bh : SBias.Idx → EReal)
    (I J : ℕ) (hI : I < 4) (hJ : J < 4) (p : Fin 1024) (q : Fin 512) :
    Ideal.logistic ((blockSum x Wx (⟨1024 * I + p.val, by have := p.isLt; omega⟩ : Fin 4096) (⟨512 * (J + 12) + q.val, by have := q.isLt; omega⟩ : Fin 8192) + blockSum h Wh (⟨1024 * I + p.val, by have := p.isLt; omega⟩ : Fin 4096) (⟨512 * (J + 12) + q.val, by have := q.isLt; omega⟩ : Fin 8192)) + (bx (ix1 (⟨512 * (J + 12) + q.val, by have := q.isLt; omega⟩ : Fin 8192)) + bh (ix1 (⟨512 * (J + 12) + q.val, by have := q.isLt; omega⟩ : Fin 8192)))) * Ideal.tanh (cellAt x h c Wx bx Wh bh (⟨1024 * I + p.val, by have := p.isLt; omega⟩ : Fin 4096) (⟨512 * J + q.val, by have := q.isLt; omega⟩ : Fin 2048))
      = hiddenAt x h c Wx bx Wh bh (⟨1024 * I + p.val, by have := p.isLt; omega⟩ : Fin 4096) (⟨512 * J + q.val, by have := q.isLt; omega⟩ : Fin 2048) := by
  rw [gate_of_blocks x h Wx bx Wh bh I J hI hJ 3 12 (by decide) p q]
  rfl

end Cert.GateBlocks

end
-- ==== Proof.KernelIdeal.TileSums.lean ====
/-
  The accumulators at a tile's last reduction step, in the arrays' own coordinates: an accumulator reset at each
  tile's first step and increased at every step holds the sum over the tile's eight steps; each step's products are
  one block of 256 columns of the whole contraction; the bias rows and the previous cell state's block are the arrays
  at the tile's rows and columns; so the last step's gates are the specification's, and its two results the new cell
  and hidden states.
-/
import proofs.«164211_j64476049047569_2_alg».proof.Proof.KernelIdeal.BlocksOut
import proofs.«164211_j64476049047569_2_alg».proof.Proof.KernelIdeal.PayAt
import proofs.«164211_j64476049047569_2_alg».proof.Proof.GateBlocks
import proofs.«164211_j64476049047569_2_alg».proof.Proof.SumBlocks
import Idealize.ShloMosaic.PureOps.Ideal
import Idealize.ShloMosaic.Lib.ValueIdx

set_option maxRecDepth 16384

noncomputable section

open scoped BigOperators

namespace Cert.KernelIdeal.Frame

open Idealize.ShloMosaic Idealize.ShloMosaic.TcCoe
open Idealize.SL Idealize.SL.Sem
open Idealize.ShloMosaic.ValueIdx
open Cert.KernelIdeal Cert.KernelIdeal.Gen Cert.KernelIdeal.PayAt

/-! ## A tile's eight steps -/

/-- Step `b` of the tile whose last step is `t`. -/
def tileStep (t : Fin cfg0.N) (b : Fin 8) : Fin cfg0.N :=
  ⟨t.val - 7 + b.val, by have hN : cfg0.N = 128 := N_0; have := t_lt t; have := b.isLt; omega⟩

theorem tileStep_val (t : Fin cfg0.N) (b : Fin 8) : (tileStep t b).val = t.val - 7 + b.val := rfl

/-- The tile's steps share its batch tile and hidden tile; step `b` is reduction step `b`. -/
theorem ti_tileStep (t : Fin cfg0.N) (h7 : t.val % 8 = 7) (b : Fin 8) : ti (tileStep t b) = ti t := by
  have := b.isLt
  unfold ti
  show (t.val - 7 + b.val) / 32 = t.val / 32
  omega
theorem tj_tileStep (t : Fin cfg0.N) (h7 : t.val % 8 = 7) (b : Fin 8) : tj (tileStep t b) = tj t := by
  have := b.isLt
  unfold tj
  show (t.val - 7 + b.val) / 8 % 4 = t.val / 8 % 4
  omega
theorem tk_tileStep (t : Fin cfg0.N) (h7 : t.val % 8 = 7) (b : Fin 8) : tk (tileStep t b) = b.val := by
  have := b.isLt
  unfold tk
  show (t.val - 7 + b.val) % 8 = b.val
  omega

/-- An accumulator that is reset to zero plus the step's pair at each step ≡ 0 (mod 8) and otherwise adds the step's
    pair holds, at a step ≡ 7 (mod 8), the two sums over the tile's eight steps. -/
theorem closed_of_chain (R : (n : ℕ) → n < cfg0.N → EReal) (A B : Fin cfg0.N → EReal)
    (hR0 : ∀ h, R 0 h = 0 + (A ⟨0, h⟩ + B ⟨0, h⟩))
    (hRs : ∀ n (h : n + 1 < cfg0.N), R (n + 1) h = if (n + 1) % 8 = 0 then 0 + (A ⟨n + 1, h⟩ + B ⟨n + 1, h⟩)
      else R n (Nat.lt_of_succ_lt h) + (A ⟨n + 1, h⟩ + B ⟨n + 1, h⟩))
    (t : Fin cfg0.N) (h7 : t.val % 8 = 7) :
    R t.val t.isLt = (∑ b : Fin 8, A (tileStep t b)) + (∑ b : Fin 8, B (tileStep t b)) := by
  have hN : cfg0.N = 128 := N_0
  have ht := t.isLt
  have reset : ∀ n (h : n < cfg0.N), n % 8 = 0 → R n h = 0 + (A ⟨n, h⟩ + B ⟨n, h⟩) := by
    intro n h h8
    cases n with
    | zero => exact hR0 h
    | succ k => rw [hRs k h, if_pos h8]
  have step : ∀ n (h : n + 1 < cfg0.N), (n + 1) % 8 ≠ 0 →
      R (n + 1) h = R n (Nat.lt_of_succ_lt h) + (A ⟨n + 1, h⟩ + B ⟨n + 1, h⟩) := by
    intro n h h8
    rw [hRs n h, if_neg h8]
  have hb : ∀ n, n ≤ 7 → t.val - 7 + n < cfg0.N := by intro n hn; omega
  have h0 : (if hn : 0 ≤ 7 then R (t.val - 7 + 0) (hb 0 hn) else 0) = 0 + (A (tileStep t 0) + B (tileStep t 0)) := by
    rw [dif_pos (by omega)]
    exact reset (t.val - 7 + 0) (hb 0 (by omega)) (by omega)
  have hs : ∀ n (hn : n + 1 < 8), (if hk : n + 1 ≤ 7 then R (t.val - 7 + (n + 1)) (hb (n + 1) hk) else 0)
      = (if hk : n ≤ 7 then R (t.val - 7 + n) (hb n hk) else 0) + (A (tileStep t ⟨n + 1, hn⟩) + B (tileStep t ⟨n + 1, hn⟩)) := by
    intro n hn
    rw [dif_pos (by omega), dif_pos (by omega)]
    exact step (t.val - 7 + n) (hb (n + 1) (by omega)) (show (t.val - 7 + n + 1) % 8 ≠ 0 by omega)
  have key := Cert.SumBlocks.fold_steps (fun b => A (tileStep t b)) (fun b => B (tileStep t b))
    (fun n => if hn : n ≤ 7 then R (t.val - 7 + n) (hb n hn) else 0) h0 hs
  have e : ∀ (k : ℕ) (hk : k < cfg0.N), k = t.val → R k hk = R t.val t.isLt := by
    intro k hk ek; subst ek; rfl
  refine (e (t.val - 7 + 7) (hb 7 (by omega)) (by omega)).symm.trans ?_
  refine Eq.trans ?_ key
  show _ = (if hn : 7 ≤ 7 then R (t.val - 7 + 7) (hb 7 hn) else 0)
  rw [dif_pos (by omega)]

/-! ## Each step's products are one block of the contraction -/

theorem ix2_congr {n0 n1 : ℕ} {a a' : Fin n0} {b b' : Fin n1} (ha : a.val = a'.val) (hb : b.val = b'.val) :
    ix2 a b = ix2 a' b' := by
  rw [Fin.ext ha, Fin.ext hb]

variable (mI : (ℓ : Loc nD τ sig) → Buf (Elt Ideal) ℓ)

theorem sum_x_2 (c : Dev nD) (t : Fin cfg0.N) (h7 : t.val % 8 = 7) (p : Fin 1024) (q : Fin 512) :
    (∑ b : Fin 8, dotT (iblk mI c 0 (tileStep t b)) (iblk mI c 2 (tileStep t b)) p q)
      = Cert.GateBlocks.blockSum (mI ((c : Thread nD τ).loc main_arg0)) (mI ((c : Thread nD τ).loc main_arg3)) (⟨1024 * (ti t) + p.val, by have := ti_lt t; have := p.isLt; omega⟩ : Fin 4096) (⟨512 * (tj t) + q.val, by have := tj_lt t; have := q.isLt; omega⟩ : Fin 8192) := by
  unfold Cert.GateBlocks.blockSum dotT
  refine Finset.sum_congr rfl fun b _ => Finset.sum_congr rfl fun kk _ => ?_
  rw [iblk_0_apply, iblk_2_apply, V_arg0, V_arg3]
  exact congrArg₂ (· * ·)
    (congrArg _ (ix2_congr
      (by show 1024 * (ti (tileStep t b)) + p.val = 1024 * (ti t) + p.val; rw [ti_tileStep t h7 b])
      (by show 256 * (tk (tileStep t b)) + kk.val = 256 * b.val + kk.val; rw [tk_tileStep t h7 b])))
    (congrArg _ (ix2_congr
      (by show 512 * (tj (tileStep t b)) + q.val = 512 * (tj t) + q.val; rw [tj_tileStep t h7 b])
      (by show 256 * (tk (tileStep t b)) + kk.val = 256 * b.val + kk.val; rw [tk_tileStep t h7 b])))

theorem sum_x_3 (c : Dev nD) (t : Fin cfg0.N) (h7 : t.val % 8 = 7) (p : Fin 1024) (q : Fin 512) :
    (∑ b : Fin 8, dotT (iblk mI c 0 (tileStep t b)) (iblk mI c 3 (tileStep t b)) p q)
      = Cert.GateBlocks.blockSum (mI ((c : Thread nD τ).loc main_arg0)) (mI ((c : Thread nD τ).loc main_arg3)) (⟨1024 * (ti t) + p.val, by have := ti_lt t; have := p.isLt; omega⟩ : Fin 4096) (⟨512 * (tj t + 4) + q.val, by have := tj_lt t; have := q.isLt; omega⟩ : Fin 8192) := by
  unfold Cert.GateBlocks.blockSum dotT
  refine Finset.sum_congr rfl fun b _ => Finset.sum_congr rfl fun kk _ => ?_
  rw [iblk_0_apply, iblk_3_apply, V_arg0, V_arg3]
  exact congrArg₂ (· * ·)
    (congrArg _ (ix2_congr
      (by show 1024 * (ti (tileStep t b)) + p.val = 1024 * (ti t) + p.val; rw [ti_tileStep t h7 b])
      (by show 256 * (tk (tileStep t b)) + kk.val = 256 * b.val + kk.val; rw [tk_tileStep t h7 b])))
    (congrArg _ (ix2_congr
      (by show 512 * (tj (tileStep t b) + 4) + q.val = 512 * (tj t + 4) + q.val; rw [tj_tileStep t h7 b])
      (by show 256 * (tk (tileStep t b)) + kk.val = 256 * b.val + kk.val; rw [tk_tileStep t h7 b])))

theorem sum_x_4 (c : Dev nD) (t : Fin cfg0.N) (h7 : t.val % 8 = 7) (p : Fin 1024) (q : Fin 512) :
    (∑ b : Fin 8, dotT (iblk mI c 0 (tileStep t b)) (iblk mI c 4 (tileStep t b)) p q)
      = Cert.GateBlocks.blockSum (mI ((c : Thread nD τ).loc main_arg0)) (mI ((c : Thread nD τ).loc main_arg3)) (⟨1024 * (ti t) + p.val, by have := ti_lt t; have := p.isLt; omega⟩ : Fin 4096) (⟨512 * (tj t + 8) + q.val, by have := tj_lt t; have := q.isLt; omega⟩ : Fin 8192) := by
  unfold Cert.GateBlocks.blockSum dotT
  refine Finset.sum_congr rfl fun b _ => Finset.sum_congr rfl fun kk _ => ?_
  rw [iblk_0_apply, iblk_4_apply, V_arg0, V_arg3]
  exact congrArg₂ (· * ·)
    (congrArg _ (ix2_congr
      (by show 1024 * (ti (tileStep t b)) + p.val = 1024 * (ti t) + p.val; rw [ti_tileStep t h7 b])
      (by show 256 * (tk (tileStep t b)) + kk.val = 256 * b.val + kk.val; rw [tk_tileStep t h7 b])))
    (congrArg _ (ix2_congr
      (by show 512 * (tj (tileStep t b) + 8) + q.val = 512 * (tj t + 8) + q.val; rw [tj_tileStep t h7 b])
      (by show 256 * (tk (tileStep t b)) + kk.val = 256 * b.val + kk.val; rw [tk_tileStep t h7 b])))

theorem sum_x_5 (c : Dev nD) (t : Fin cfg0.N) (h7 : t.val % 8 = 7) (p : Fin 1024) (q : Fin 512) :
    (∑ b : Fin 8, dotT (iblk mI c 0 (tileStep t b)) (iblk mI c 5 (tileStep t b)) p q)
      = Cert.GateBlocks.blockSum (mI ((c : Thread nD τ).loc main_arg0)) (mI ((c : Thread nD τ).loc main_arg3)) (⟨1024 * (ti t) + p.val, by have := ti_lt t; have := p.isLt; omega⟩ : Fin 4096) (⟨512 * (tj t + 12) + q.val, by have := tj_lt t; have := q.isLt; omega⟩ : Fin 8192) := by
  unfold Cert.GateBlocks.blockSum dotT
  refine Finset.sum_congr rfl fun b _ => Finset.sum_congr rfl fun kk _ => ?_
  rw [iblk_0_apply, iblk_5_apply, V_arg0, V_arg3]
  exact congrArg₂ (· * ·)
    (congrArg _ (ix2_congr
      (by show 1024 * (ti (tileStep t b)) + p.val = 1024 * (ti t) + p.val; rw [ti_tileStep t h7 b])
      (by show 256 * (tk (tileStep t b)) + kk.val = 256 * b.val + kk.val; rw [tk_tileStep t h7 b])))
    (congrArg _ (ix2_congr
      (by show 512 * (tj (tileStep t b) + 12) + q.val = 512 * (tj t + 12) + q.val; rw [tj_tileStep t h7 b])
      (by show 256 * (tk (tileStep t b)) + kk.val = 256 * b.val + kk.val; rw [tk_tileStep t h7 b])))

theorem sum_h_6 (c : Dev nD) (t : Fin cfg0.N) (h7 : t.val % 8 = 7) (p : Fin 1024) (q : Fin 512) :
    (∑ b : Fin 8, dotT (iblk mI c 1 (tileStep t b)) (iblk mI c 6 (tileStep t b)) p q)
      = Cert.GateBlocks.blockSum (mI ((c : Thread nD τ).loc main_arg1)) (mI ((c : Thread nD τ).loc main_arg5)) (⟨1024 * (ti t) + p.val, by have := ti_lt t; have := p.isLt; omega⟩ : Fin 4096) (⟨512 * (tj t) + q.val, by have := tj_lt t; have := q.isLt; omega⟩ : Fin 8192) := by
  unfold Cert.GateBlocks.blockSum dotT
  refine Finset.sum_congr rfl fun b _ => Finset.sum_congr rfl fun kk _ => ?_
  rw [iblk_1_apply, iblk_6_apply, V_arg1, V_arg5]
  exact congrArg₂ (· * ·)
    (congrArg _ (ix2_congr
      (by show 1024 * (ti (tileStep t b)) + p.val = 1024 * (ti t) + p.val; rw [ti_tileStep t h7 b])
      (by show 256 * (tk (tileStep t b)) + kk.val = 256 * b.val + kk.val; rw [tk_tileStep t h7 b])))
    (congrArg _ (ix2_congr
      (by show 512 * (tj (tileStep t b)) + q.val = 512 * (tj t) + q.val; rw [tj_tileStep t h7 b])
      (by show 256 * (tk (tileStep t b)) + kk.val = 256 * b.val + kk.val; rw [tk_tileStep t h7 b])))

theorem sum_h_7 (c : Dev nD) (t : Fin cfg0.N) (h7 : t.val % 8 = 7) (p : Fin 1024) (q : Fin 512) :
    (∑ b : Fin 8, dotT (iblk mI c 1 (tileStep t b)) (iblk mI c 7 (tileStep t b)) p q)
      = Cert.GateBlocks.blockSum (mI ((c : Thread nD τ).loc main_arg1)) (mI ((c : Thread nD τ).loc main_arg5)) (⟨1024 * (ti t) + p.val, by have := ti_lt t; have := p.isLt; omega⟩ : Fin 4096) (⟨512 * (tj t + 4) + q.val, by have := tj_lt t; have := q.isLt; omega⟩ : Fin 8192) := by
  unfold Cert.GateBlocks.blockSum dotT
  refine Finset.sum_congr rfl fun b _ => Finset.sum_congr rfl fun kk _ => ?_
  rw [iblk_1_apply, iblk_7_apply, V_arg1, V_arg5]
  exact congrArg₂ (· * ·)
    (congrArg _ (ix2_congr
      (by show 1024 * (ti (tileStep t b)) + p.val = 1024 * (ti t) + p.val; rw [ti_tileStep t h7 b])
      (by show 256 * (tk (tileStep t b)) + kk.val = 256 * b.val + kk.val; rw [tk_tileStep t h7 b])))
    (congrArg _ (ix2_congr
      (by show 512 * (tj (tileStep t b) + 4) + q.val = 512 * (tj t + 4) + q.val; rw [tj_tileStep t h7 b])
      (by show 256 * (tk (tileStep t b)) + kk.val = 256 * b.val + kk.val; rw [tk_tileStep t h7 b])))

theorem sum_h_8 (c : Dev nD) (t : Fin cfg0.N) (h7 : t.val % 8 = 7) (p : Fin 1024) (q : Fin 512) :
    (∑ b : Fin 8, dotT (iblk mI c 1 (tileStep t b)) (iblk mI c 8 (tileStep t b)) p q)
      = Cert.GateBlocks.blockSum (mI ((c : Thread nD τ).loc main_arg1)) (mI ((c : Thread nD τ).loc main_arg5)) (⟨1024 * (ti t) + p.val, by have := ti_lt t; have := p.isLt; omega⟩ : Fin 4096) (⟨512 * (tj t + 8) + q.val, by have := tj_lt t; have := q.isLt; omega⟩ : Fin 8192) := by
  unfold Cert.GateBlocks.blockSum dotT
  refine Finset.sum_congr rfl fun b _ => Finset.sum_congr rfl fun kk _ => ?_
  rw [iblk_1_apply, iblk_8_apply, V_arg1, V_arg5]
  exact congrArg₂ (· * ·)
    (congrArg _ (ix2_congr
      (by show 1024 * (ti (tileStep t b)) + p.val = 1024 * (ti t) + p.val; rw [ti_tileStep t h7 b])
      (by show 256 * (tk (tileStep t b)) + kk.val = 256 * b.val + kk.val; rw [tk_tileStep t h7 b])))
    (congrArg _ (ix2_congr
      (by show 512 * (tj (tileStep t b) + 8) + q.val = 512 * (tj t + 8) + q.val; rw [tj_tileStep t h7 b])
      (by show 256 * (tk (tileStep t b)) + kk.val = 256 * b.val + kk.val; rw [tk_tileStep t h7 b])))

theorem sum_h_9 (c : Dev nD) (t : Fin cfg0.N) (h7 : t.val % 8 = 7) (p : Fin 1024) (q : Fin 512) :
    (∑ b : Fin 8, dotT (iblk mI c 1 (tileStep t b)) (iblk mI c 9 (tileStep t b)) p q)
      = Cert.GateBlocks.blockSum (mI ((c : Thread nD τ).loc main_arg1)) (mI ((c : Thread nD τ).loc main_arg5)) (⟨1024 * (ti t) + p.val, by have := ti_lt t; have := p.isLt; omega⟩ : Fin 4096) (⟨512 * (tj t + 12) + q.val, by have := tj_lt t; have := q.isLt; omega⟩ : Fin 8192) := by
  unfold Cert.GateBlocks.blockSum dotT
  refine Finset.sum_congr rfl fun b _ => Finset.sum_congr rfl fun kk _ => ?_
  rw [iblk_1_apply, iblk_9_apply, V_arg1, V_arg5]
  exact congrArg₂ (· * ·)
    (congrArg _ (ix2_congr
      (by show 1024 * (ti (tileStep t b)) + p.val = 1024 * (ti t) + p.val; rw [ti_tileStep t h7 b])
      (by show 256 * (tk (tileStep t b)) + kk.val = 256 * b.val + kk.val; rw [tk_tileStep t h7 b])))
    (congrArg _ (ix2_congr
      (by show 512 * (tj (tileStep t b) + 12) + q.val = 512 * (tj t + 12) + q.val; rw [tj_tileStep t h7 b])
      (by show 256 * (tk (tileStep t b)) + kk.val = 256 * b.val + kk.val; rw [tk_tileStep t h7 b])))

/-! ## The bias rows and the previous cell state -/

/-- The two bias vectors at row `R`, added. -/
def biasSum (bx bh : S8192.Idx → EReal) (R : Fin 8192) : EReal := bx (ix1 R) + bh (ix1 R)

theorem biasSum_def (bx bh : S8192.Idx → EReal) (R : Fin 8192) : biasSum bx bh R = bx (ix1 R) + bh (ix1 R) := rfl

theorem bias_10 (c : Dev nD) (t : Fin cfg0.N) (q : Fin 512) :
    row (iblk mI c 10 t) q = biasSum (mI ((c : Thread nD τ).loc main_arg4)) (mI ((c : Thread nD τ).loc main_arg6)) (⟨512 * (tj t) + q.val, by have := tj_lt t; have := q.isLt; omega⟩ : Fin 8192) := by
  unfold row
  exact (iblk_10_apply mI c t q).trans (V_v1_apply mI c _)

theorem bias_11 (c : Dev nD) (t : Fin cfg0.N) (q : Fin 512) :
    row (iblk mI c 11 t) q = biasSum (mI ((c : Thread nD τ).loc main_arg4)) (mI ((c : Thread nD τ).loc main_arg6)) (⟨512 * (tj t + 4) + q.val, by have := tj_lt t; have := q.isLt; omega⟩ : Fin 8192) := by
  unfold row
  exact (iblk_11_apply mI c t q).trans (V_v1_apply mI c _)

theorem bias_12 (c : Dev nD) (t : Fin cfg0.N) (q : Fin 512) :
    row (iblk mI c 12 t) q = biasSum (mI ((c : Thread nD τ).loc main_arg4)) (mI ((c : Thread nD τ).loc main_arg6)) (⟨512 * (tj t + 8) + q.val, by have := tj_lt t; have := q.isLt; omega⟩ : Fin 8192) := by
  unfold row
  exact (iblk_12_apply mI c t q).trans (V_v1_apply mI c _)

theorem bias_13 (c : Dev nD) (t : Fin cfg0.N) (q : Fin 512) :
    row (iblk mI c 13 t) q = biasSum (mI ((c : Thread nD τ).loc main_arg4)) (mI ((c : Thread nD τ).loc main_arg6)) (⟨512 * (tj t + 12) + q.val, by have := tj_lt t; have := q.isLt; omega⟩ : Fin 8192) := by
  unfold row
  exact (iblk_13_apply mI c t q).trans (V_v1_apply mI c _)

theorem cx_14 (c : Dev nD) (t : Fin cfg0.N) (p : Fin 1024) (q : Fin 512) :
    (iblk mI c 14 t : Vec Ideal S1024x512 .f32) (ix2 p q) = (mI ((c : Thread nD τ).loc main_arg2)) (ix2 (⟨1024 * (ti t) + p.val, by have := ti_lt t; have := p.isLt; omega⟩ : Fin 4096) (⟨512 * (tj t) + q.val, by have := tj_lt t; have := q.isLt; omega⟩ : Fin 2048)) :=
  (iblk_14_apply mI c t p q).trans (congrFun (V_arg2 mI c) _)

/-! ## The last step's two results -/

theorem cell_tile (c : Dev nD) (t : Fin cfg0.N) (p : Fin 1024) (q : Fin 512) (a0 a1 a2 : EReal)
    (ha0 : a0 = Cert.GateBlocks.blockSum (mI ((c : Thread nD τ).loc main_arg0)) (mI ((c : Thread nD τ).loc main_arg3)) (⟨1024 * (ti t) + p.val, by have := ti_lt t; have := p.isLt; omega⟩ : Fin 4096) (⟨512 * (tj t) + q.val, by have := tj_lt t; have := q.isLt; omega⟩ : Fin 8192) + Cert.GateBlocks.blockSum (mI ((c : Thread nD τ).loc main_arg1)) (mI ((c : Thread nD τ).loc main_arg5)) (⟨1024 * (ti t) + p.val, by have := ti_lt t; have := p.isLt; omega⟩ : Fin 4096) (⟨512 * (tj t) + q.val, by have := tj_lt t; have := q.isLt; omega⟩ : Fin 8192))
    (ha1 : a1 = Cert.GateBlocks.blockSum (mI ((c : Thread nD τ).loc main_arg0)) (mI ((c : Thread nD τ).loc main_arg3)) (⟨1024 * (ti t) + p.val, by have := ti_lt t; have := p.isLt; omega⟩ : Fin 4096) (⟨512 * (tj t + 4) + q.val, by have := tj_lt t; have := q.isLt; omega⟩ : Fin 8192) + Cert.GateBlocks.blockSum (mI ((c : Thread nD τ).loc main_arg1)) (mI ((c : Thread nD τ).loc main_arg5)) (⟨1024 * (ti t) + p.val, by have := ti_lt t; have := p.isLt; omega⟩ : Fin 4096) (⟨512 * (tj t + 4) + q.val, by have := tj_lt t; have := q.isLt; omega⟩ : Fin 8192))
    (ha2 : a2 = Cert.GateBlocks.blockSum (mI ((c : Thread nD τ).loc main_arg0)) (mI ((c : Thread nD τ).loc main_arg3)) (⟨1024 * (ti t) + p.val, by have := ti_lt t; have := p.isLt; omega⟩ : Fin 4096) (⟨512 * (tj t + 8) + q.val, by have := tj_lt t; have := q.isLt; omega⟩ : Fin 8192) + Cert.GateBlocks.blockSum (mI ((c : Thread nD τ).loc main_arg1)) (mI ((c : Thread nD τ).loc main_arg5)) (⟨1024 * (ti t) + p.val, by have := ti_lt t; have := p.isLt; omega⟩ : Fin 4096) (⟨512 * (tj t + 8) + q.val, by have := tj_lt t; have := q.isLt; omega⟩ : Fin 8192)) :
    Ideal.logistic (a0 + row (iblk mI c 10 t) q) * (iblk mI c 14 t : Vec Ideal S1024x512 .f32) (ix2 p q)
        + Ideal.logistic (a1 + row (iblk mI c 11 t) q) * Ideal.tanh (a2 + row (iblk mI c 12 t) q)
      = Cert.LstmSpec.cellAt (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (⟨1024 * (ti t) + p.val, by have := ti_lt t; have := p.isLt; omega⟩ : Fin 4096) (⟨512 * (tj t) + q.val, by have := tj_lt t; have := q.isLt; omega⟩ : Fin 2048) := by
  subst ha0 ha1 ha2
  rw [bias_10, bias_11, bias_12, cx_14]
  exact Cert.GateBlocks.cell_of_blocks (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (ti t) (tj t) (ti_lt t) (tj_lt t) p q

theorem hidden_tile (c : Dev nD) (t : Fin cfg0.N) (p : Fin 1024) (q : Fin 512) (a3 : EReal)
    (ha3 : a3 = Cert.GateBlocks.blockSum (mI ((c : Thread nD τ).loc main_arg0)) (mI ((c : Thread nD τ).loc main_arg3)) (⟨1024 * (ti t) + p.val, by have := ti_lt t; have := p.isLt; omega⟩ : Fin 4096) (⟨512 * (tj t + 12) + q.val, by have := tj_lt t; have := q.isLt; omega⟩ : Fin 8192) + Cert.GateBlocks.blockSum (mI ((c : Thread nD τ).loc main_arg1)) (mI ((c : Thread nD τ).loc main_arg5)) (⟨1024 * (ti t) + p.val, by have := ti_lt t; have := p.isLt; omega⟩ : Fin 4096) (⟨512 * (tj t + 12) + q.val, by have := tj_lt t; have := q.isLt; omega⟩ : Fin 8192)) :
    Ideal.logistic (a3 + row (iblk mI c 13 t) q)
        * Ideal.tanh (Cert.LstmSpec.cellAt (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (⟨1024 * (ti t) + p.val, by have := ti_lt t; have := p.isLt; omega⟩ : Fin 4096) (⟨512 * (tj t) + q.val, by have := tj_lt t; have := q.isLt; omega⟩ : Fin 2048))
      = Cert.LstmSpec.hiddenAt (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (⟨1024 * (ti t) + p.val, by have := ti_lt t; have := p.isLt; omega⟩ : Fin 4096) (⟨512 * (tj t) + q.val, by have := tj_lt t; have := q.isLt; omega⟩ : Fin 2048) := by
  subst ha3
  rw [bias_13]
  exact Cert.GateBlocks.hidden_of_blocks (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (ti t) (tj t) (ti_lt t) (tj_lt t) p q

end Cert.KernelIdeal.Frame

end
-- ==== Proof.KernelIdeal.Result.lean ====
/-
  The kernel's two result arrays are the LSTM cell's new hidden and cell states.

  At a reduction's last step each accumulator's running sum is the tile's eight step products summed: the full
  contraction over the 2048 features, in blocks of 256, of the input row against the gate's weight row and of the hidden
  row against its recurrent weight row. With the bias row (the two biases added before the call) and the previous cell
  state's block, the step's stores are the cell's formulas at the tile's global coordinates. Each result block is
  written back exactly once, at its tile's last step, and the sixteen tiles cover the array.
-/
import proofs.«164211_j64476049047569_2_alg».proof.Proof.KernelIdeal.AccValue
import proofs.«164211_j64476049047569_2_alg».proof.Proof.KernelIdeal.TileSums

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.PayAt Idealize.ShloMosaic.ValueIdx Cert.LstmSpec

variable (mI : (ℓ : Loc nD τ sig) → Buf (Elt Ideal) ℓ)

/-! ## The accumulators at a last step: the tile's full sums -/

theorem acc_last_0 (c : Dev nD) (t : Fin cfg0.N) (h7 : t.val % 8 = 7) (p : Fin 1024) (q : Fin 512) :
    (accAt mI c t.val t.isLt).1 (ix2 p q)
      = Cert.GateBlocks.blockSum (mI ((c : Thread nD τ).loc main_arg0)) (mI ((c : Thread nD τ).loc main_arg3)) (⟨1024 * (ti t) + p.val, by have := ti_lt t; have := p.isLt; omega⟩ : Fin 4096) (⟨512 * (tj t) + q.val, by have := tj_lt t; have := q.isLt; omega⟩ : Fin 8192) + Cert.GateBlocks.blockSum (mI ((c : Thread nD τ).loc main_arg1)) (mI ((c : Thread nD τ).loc main_arg5)) (⟨1024 * (ti t) + p.val, by have := ti_lt t; have := p.isLt; omega⟩ : Fin 4096) (⟨512 * (tj t) + q.val, by have := tj_lt t; have := q.isLt; omega⟩ : Fin 8192) :=
  (accAt_run_0 mI c p q t.val t.isLt).trans
    ((closed_of_chain (run_0 mI c p q) (prodX_0 mI c p q) (prodH_0 mI c p q) (run_0_zero mI c p q) (run_0_succ mI c p q) t h7).trans
      (congrArg₂ (· + ·) (sum_x_2 mI c t h7 p q) (sum_h_6 mI c t h7 p q)))

theorem acc_last_1 (c : Dev nD) (t : Fin cfg0.N) (h7 : t.val % 8 = 7) (p : Fin 1024) (q : Fin 512) :
    (accAt mI c t.val t.isLt).2.1 (ix2 p q)
      = Cert.GateBlocks.blockSum (mI ((c : Thread nD τ).loc main_arg0)) (mI ((c : Thread nD τ).loc main_arg3)) (⟨1024 * (ti t) + p.val, by have := ti_lt t; have := p.isLt; omega⟩ : Fin 4096) (⟨512 * (tj t + 4) + q.val, by have := tj_lt t; have := q.isLt; omega⟩ : Fin 8192) + Cert.GateBlocks.blockSum (mI ((c : Thread nD τ).loc main_arg1)) (mI ((c : Thread nD τ).loc main_arg5)) (⟨1024 * (ti t) + p.val, by have := ti_lt t; have := p.isLt; omega⟩ : Fin 4096) (⟨512 * (tj t + 4) + q.val, by have := tj_lt t; have := q.isLt; omega⟩ : Fin 8192) :=
  (accAt_run_1 mI c p q t.val t.isLt).trans
    ((closed_of_chain (run_1 mI c p q) (prodX_1 mI c p q) (prodH_1 mI c p q) (run_1_zero mI c p q) (run_1_succ mI c p q) t h7).trans
      (congrArg₂ (· + ·) (sum_x_3 mI c t h7 p q) (sum_h_7 mI c t h7 p q)))

theorem acc_last_2 (c : Dev nD) (t : Fin cfg0.N) (h7 : t.val % 8 = 7) (p : Fin 1024) (q : Fin 512) :
    (accAt mI c t.val t.isLt).2.2.1 (ix2 p q)
      = Cert.GateBlocks.blockSum (mI ((c : Thread nD τ).loc main_arg0)) (mI ((c : Thread nD τ).loc main_arg3)) (⟨1024 * (ti t) + p.val, by have := ti_lt t; have := p.isLt; omega⟩ : Fin 4096) (⟨512 * (tj t + 8) + q.val, by have := tj_lt t; have := q.isLt; omega⟩ : Fin 8192) + Cert.GateBlocks.blockSum (mI ((c : Thread nD τ).loc main_arg1)) (mI ((c : Thread nD τ).loc main_arg5)) (⟨1024 * (ti t) + p.val, by have := ti_lt t; have := p.isLt; omega⟩ : Fin 4096) (⟨512 * (tj t + 8) + q.val, by have := tj_lt t; have := q.isLt; omega⟩ : Fin 8192) :=
  (accAt_run_2 mI c p q t.val t.isLt).trans
    ((closed_of_chain (run_2 mI c p q) (prodX_2 mI c p q) (prodH_2 mI c p q) (run_2_zero mI c p q) (run_2_succ mI c p q) t h7).trans
      (congrArg₂ (· + ·) (sum_x_4 mI c t h7 p q) (sum_h_8 mI c t h7 p q)))

theorem acc_last_3 (c : Dev nD) (t : Fin cfg0.N) (h7 : t.val % 8 = 7) (p : Fin 1024) (q : Fin 512) :
    (accAt mI c t.val t.isLt).2.2.2 (ix2 p q)
      = Cert.GateBlocks.blockSum (mI ((c : Thread nD τ).loc main_arg0)) (mI ((c : Thread nD τ).loc main_arg3)) (⟨1024 * (ti t) + p.val, by have := ti_lt t; have := p.isLt; omega⟩ : Fin 4096) (⟨512 * (tj t + 12) + q.val, by have := tj_lt t; have := q.isLt; omega⟩ : Fin 8192) + Cert.GateBlocks.blockSum (mI ((c : Thread nD τ).loc main_arg1)) (mI ((c : Thread nD τ).loc main_arg5)) (⟨1024 * (ti t) + p.val, by have := ti_lt t; have := p.isLt; omega⟩ : Fin 4096) (⟨512 * (tj t + 12) + q.val, by have := tj_lt t; have := q.isLt; omega⟩ : Fin 8192) :=
  (accAt_run_3 mI c p q t.val t.isLt).trans
    ((closed_of_chain (run_3 mI c p q) (prodX_3 mI c p q) (prodH_3 mI c p q) (run_3_zero mI c p q) (run_3_succ mI c p q) t h7).trans
      (congrArg₂ (· + ·) (sum_x_5 mI c t h7 p q) (sum_h_9 mI c t h7 p q)))

/-! ## The two results at a last step, entry by entry -/

theorem out16_entry (c : Dev nD) (t : Fin cfg0.N) (h7 : t.val % 8 = 7) (p : Fin 1024) (q : Fin 512) :
    out16At mI c t (ix2 p q) = cellAt (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (⟨1024 * (ti t) + p.val, by have := ti_lt t; have := p.isLt; omega⟩ : Fin 4096) (⟨512 * (tj t) + q.val, by have := tj_lt t; have := q.isLt; omega⟩ : Fin 2048) := by
  have h0 : ¬t.val % 8 = 0 := by omega
  rw [out16At_last mI c t h0 h7]
  refine (pay4_apply _ _ _ _ _ _ _ p q).trans ?_
  exact cell_tile mI c t p q _ _ _ (acc_last_0 mI c t h7 p q) (acc_last_1 mI c t h7 p q) (acc_last_2 mI c t h7 p q)

theorem out15_entry (c : Dev nD) (t : Fin cfg0.N) (h7 : t.val % 8 = 7) (p : Fin 1024) (q : Fin 512) :
    out15At mI c t (ix2 p q) = hiddenAt (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6)) (⟨1024 * (ti t) + p.val, by have := ti_lt t; have := p.isLt; omega⟩ : Fin 4096) (⟨512 * (tj t) + q.val, by have := tj_lt t; have := q.isLt; omega⟩ : Fin 2048) := by
  have h0 : ¬t.val % 8 = 0 := by omega
  rw [out15At_last mI c t h0 h7]
  refine (pay5_apply _ _ _ _ _ _ _ _ _ p q).trans ?_
  rw [pay4_apply, cell_tile mI c t p q _ _ _ (acc_last_0 mI c t h7 p q) (acc_last_1 mI c t h7 p q) (acc_last_2 mI c t h7 p q)]
  exact hidden_tile mI c t p q _ (acc_last_3 mI c t h7 p q)

/-! ## From blocks to the arrays -/

/-- The new cell state as contents of the second result array. -/
abbrev cellRes (c : Dev nD) : Buf (Elt Ideal) ((c : Thread nD τ).loc main_v2_1) := cellArr (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6))
/-- The new hidden state as contents of the first result array. -/
abbrev hiddenRes (c : Dev nD) : Buf (Elt Ideal) ((c : Thread nD τ).loc main_v2_0) := hiddenArr (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) (mI ((c : Thread nD τ).loc main_arg6))

/-- What a last step writes back of the cell state is the block of the whole array. -/
theorem flushed16_eq (c : Dev nD) (t : Fin cfg0.N) (hf : (cfg0.win 16).flush t = true) :
    (dats mI 0 c).flushed 16 t = ((cfg0.win 16).blk t).view.read (Elt Ideal) (cellRes mI c) := by
  have h7 : t.val % 8 = 7 := (flush0_16 t).mp hf
  show (cfg0.win 16).cut (grid0.coords t) ((dats mI 0 c).after 16 t) = _
  rw [after_16]
  funext y
  obtain ⟨p, q, rfl⟩ : ∃ (p : Fin 1024) (q : Fin 512), y = ix2 p q := ⟨y 0, y 1, eq_ix2 y⟩
  refine (out16_entry mI c t h7 p q).trans ?_
  exact (oblk_16_apply c (cellRes mI c) t p q).symm

theorem flushed15_eq (c : Dev nD) (t : Fin cfg0.N) (hf : (cfg0.win 15).flush t = true) :
    (dats mI 0 c).flushed 15 t = ((cfg0.win 15).blk t).view.read (Elt Ideal) (hiddenRes mI c) := by
  have h7 : t.val % 8 = 7 := (flush0_15 t).mp hf
  show (cfg0.win 15).cut (grid0.coords t) ((dats mI 0 c).after 15 t) = _
  rw [after_15]
  funext y
  obtain ⟨p, q, rfl⟩ : ∃ (p : Fin 1024) (q : Fin 512), y = ix2 p q := ⟨y 0, y 1, eq_ix2 y⟩
  refine (out15_entry mI c t h7 p q).trans ?_
  exact (oblk_15_apply c (hiddenRes mI c) t p q).symm

/-- The second result array ends at the new cell state. -/
theorem final16 (c : Dev nD) : (dats mI 0 c).arrAt 16 cfg0.N = cellRes mI c :=
  (dats mI 0 c).arrAt_eq_of_cover 16 (cellRes mI c) (flushed16_eq mI c) (cover_16 c)

/-- The first result array ends at the new hidden state. -/
theorem final15 (c : Dev nD) : (dats mI 0 c).arrAt 15 cfg0.N = hiddenRes mI c :=
  (dats mI 0 c).arrAt_eq_of_cover 15 (hiddenRes mI c) (flushed15_eq mI c) (cover_15 c)

end Cert.KernelIdeal.Frame

end
-- ==== Proof.KernelIdeal.BodySound.lean ====
/-
  The body's obligation at every grid point: from the invariant and every window's buffer at what it then holds, the body
  runs to the invariant at the next point and every buffer at what the proof data says it leaves — by cases on the
  reduction step (first, middle, last), each case one run of the body.
-/
import proofs.«164211_j64476049047569_2_alg».proof.Proof.KernelIdeal.Data

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d))
    ∗ (∃ d, owns (c : Thread nD τ) (ms_11 t) fullShare ((dats m 0 c).before 11 t d))
    ∗ (∃ d, owns (c : Thread nD τ) (ms_12 t) fullShare ((dats m 0 c).before 12 t d))
    ∗ (∃ d, owns (c : Thread nD τ) (ms_13 t) fullShare ((dats m 0 c).before 13 t d))
    ∗ (∃ d, owns (c : Thread nD τ) (ms_14 t) fullShare ((dats m 0 c).before 14 t d))
    ∗ (∃ d, owns (c : Thread nD τ) (ms_15 t) fullShare ((dats m 0 c).before 15 t d))
    ∗ (∃ d, owns (c : Thread nD τ) (ms_16 t) fullShare ((dats m 0 c).before 16 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 8000000 in
/-- The body at any point: each input's buffer holds its block; the closed forms say which case the point is in; the
    invariant hands the body the accumulators at what the point before left (at anything before the first point) and
    takes them back at this point's contents; nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms_0 t) fullShare ((dats m 0 c).after 0 t) from by
    unfold Dat.leavesExact; rfl, after_0]
  rw [show (dats m 0 c).leavesExact 1 t = owns (c : Thread nD τ) (ms_1 t) fullShare ((dats m 0 c).after 1 t) from by
    unfold Dat.leavesExact; rfl, after_1]
  rw [show (dats m 0 c).leavesExact 2 t = owns (c : Thread nD τ) (ms_2 t) fullShare ((dats m 0 c).after 2 t) from by
    unfold Dat.leavesExact; rfl, after_2]
  rw [show (dats m 0 c).leavesExact 3 t = owns (c : Thread nD τ) (ms_3 t) fullShare ((dats m 0 c).after 3 t) from by
    unfold Dat.leavesExact; rfl, after_3]
  rw [show (dats m 0 c).leavesExact 4 t = owns (c : Thread nD τ) (ms_4 t) fullShare ((dats m 0 c).after 4 t) from by
    unfold Dat.leavesExact; rfl, after_4]
  rw [show (dats m 0 c).leavesExact 5 t = owns (c : Thread nD τ) (ms_5 t) fullShare ((dats m 0 c).after 5 t) from by
    unfold Dat.leavesExact; rfl, after_5]
  rw [show (dats m 0 c).leavesExact 6 t = owns (c : Thread nD τ) (ms_6 t) fullShare ((dats m 0 c).after 6 t) from by
    unfold Dat.leavesExact; rfl, after_6]
  rw [show (dats m 0 c).leavesExact 7 t = owns (c : Thread nD τ) (ms_7 t) fullShare ((dats m 0 c).after 7 t) from by
    unfold Dat.leavesExact; rfl, after_7]
  rw [show (dats m 0 c).leavesExact 8 t = owns (c : Thread nD τ) (ms_8 t) fullShare ((dats m 0 c).after 8 t) from by
    unfold Dat.leavesExact; rfl, after_8]
  rw [show (dats m 0 c).leavesExact 9 t = owns (c : Thread nD τ) (ms_9 t) fullShare ((dats m 0 c).after 9 t) from by
    unfold Dat.leavesExact; rfl, after_9]
  rw [show (dats m 0 c).leavesExact 10 t = owns (c : Thread nD τ) (ms_10 t) fullShare ((dats m 0 c).after 10 t) from by
    unfold Dat.leavesExact; rfl, after_10]
  rw [show (dats m 0 c).leavesExact 11 t = owns (c : Thread nD τ) (ms_11 t) fullShare ((dats m 0 c).after 11 t) from by
    unfold Dat.leavesExact; rfl, after_11]
  rw [show (dats m 0 c).leavesExact 12 t = owns (c : Thread nD τ) (ms_12 t) fullShare ((dats m 0 c).after 12 t) from by
    unfold Dat.leavesExact; rfl, after_12]
  rw [show (dats m 0 c).leavesExact 13 t = owns (c : Thread nD τ) (ms_13 t) fullShare ((dats m 0 c).after 13 t) from by
    unfold Dat.leavesExact; rfl, after_13]
  rw [show (dats m 0 c).leavesExact 14 t = owns (c : Thread nD τ) (ms_14 t) fullShare ((dats m 0 c).after 14 t) from by
    unfold Dat.leavesExact; rfl, after_14]
  by_cases h0 : t.val % 8 = 0
  · rw [Dat.leavesExact_idle (dats m 0 c) 15 t (idleAt_15 t (fun h => (fun h => by (try dsimp only at h); omega) ((hcond0_1 t).mp h))) (noFlush_15 t (fun h => (fun h => by (try dsimp only at h); omega) ((hcond0_1 t).mp h)))]
    rw [Dat.leavesExact_idle (dats m 0 c) 16 t (idleAt_16 t (fun h => (fun h => by (try dsimp only at h); omega) ((hcond0_1 t).mp h))) (noFlush_16 t (fun h => (fun h => by (try dsimp only at h); omega) ((hcond0_1 t).mp h)))]
    rw [accAt_A m c t h0]
    unfold sout_A_0 sout_A_1 sout_A_2 sout_A_3; (try dsimp only)
    by_cases hz : t.val = 0
    · rw [PhiS_castSucc m c t, PhiS_zero m c _ _ hz, PhiA_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) ((hcond0_0 t).mpr h0) (fun h => (fun h => by (try dsimp only at h); omega) ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16

    · rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun_A c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) ((hcond0_0 t).mpr h0) (fun h => (fun h => by (try dsimp only at h); omega) ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16

  · have hz : t.val ≠ 0 := fun hz => h0 (by rw [hz])
    by_cases h1 : t.val % 8 = 7
    · rw [show (dats m 0 c).leavesExact 15 t = owns (c : Thread nD τ) (ms_15 t) fullShare ((dats m 0 c).after 15 t) from by
        unfold Dat.leavesExact; rw [liveAt_15 t ((hcond0_1 t).mpr h1)], after_15]
      rw [show (dats m 0 c).leavesExact 16 t = owns (c : Thread nD τ) (ms_16 t) fullShare ((dats m 0 c).after 16 t) from by
        unfold Dat.leavesExact; rw [liveAt_16 t ((hcond0_1 t).mpr h1)], after_16]
      rw [accAt_C m c t h0 h1]
      unfold out15At out16At; rw [dif_pos h1, dif_pos h1]
      unfold out_C_15 out_C_16 sout_C_0 sout_C_1 sout_C_2 sout_C_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun_C c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, ⟨%e15, H15⟩, ⟨%e16, H16⟩, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover_C_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (cover_C_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H16
      ipureintro; exact View.read_writes_of_cover _ _ _ _ _ (cover_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

    · rw [Dat.leavesExact_idle (dats m 0 c) 15 t (idleAt_15 t (fun h => h1 ((hcond0_1 t).mp h))) (noFlush_15 t (fun h => h1 ((hcond0_1 t).mp h)))]
      rw [Dat.leavesExact_idle (dats m 0 c) 16 t (idleAt_16 t (fun h => h1 ((hcond0_1 t).mp h))) (noFlush_16 t (fun h => h1 ((hcond0_1 t).mp h)))]
      rw [accAt_B m c t h0 h1]
      unfold sout_B_0 sout_B_1 sout_B_2 sout_B_3; (try dsimp only)
      rw [PhiS_castSucc m c t, PhiS_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((kernelRun_B c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) (ms_16 t) (hs_16 t) scM_0 (Memref.isWhole_whole _) scM_1 (Memref.isWhole_whole _) scM_2 (Memref.isWhole_whole _) scM_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ _ _).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_B_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS3
          ipureintro; exact View.read_writes_of_cover _ _ _ _ _ (scover_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16

end Cert.KernelIdeal.Frame

end
-- ==== Proof.KernelIdeal.Body.lean ====
/-
  The body obligation at every point, and the invariant's two ends: what the launch hands the region is the invariant
  before the first point, and after the last point the invariant gives it back.
-/
import proofs.«164211_j64476049047569_2_alg».proof.Proof.KernelIdeal.BodySound

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

set_option maxHeartbeats 2000000 in
/-- After the last point the invariant gives the plain one back: what the accumulators hold is forgotten. -/
theorem hout (c : Dev nD) : (dats m 0 c).Φ (Fin.last cfg0.N) ⊢ Pipeline.ΦA spec0 c := by
  have e : (dats m 0 c).Φ (Fin.last cfg0.N) = PhiS m c (Fin.last cfg0.N).val (Nat.le_of_lt_succ (Fin.last cfg0.N).isLt) := by
    dsimp only [dats]
  have hz : (Fin.last cfg0.N).val ≠ 0 := by rw [Fin.val_last]; have : cfg0.N = 128 := N_0; omega
  rw [e, PhiS_pos m c _ _ hz, PhiA_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

end Cert.KernelIdeal.Frame

end
-- ==== Proof.KernelIdeal.FrameRun.lean ====
/-
  The launch: the body obligation at every point gives the frame run of the whole program — the two host operations, then
  the region over its 128 grid points — for a pipeline whose weight and bias arrays are each read through four windows
  (each window holding a quarter of its array). At the end every array of the pipeline holds what the proof data says
  and every other buffer what it held when the region was entered; read at the seven argument arrays this is the frame:
  the five that the pipeline reads are inputs, never written, and the two bias vectors bypass the region.
-/
import proofs.«164211_j64476049047569_2_alg».proof.Proof.KernelIdeal.Body
import proofs.«164211_j64476049047569_2_alg».proof.Proof.KernelIdeal.BlocksOut
import proofs.«164211_j64476049047569_2_alg».proof.Proof.LibSharedLaunch

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and every final state has every array of the pipeline at what the
    library computes from the proof data and every other unscoped buffer as the region found it. -/
theorem run_main : θ_run defs (onTc (τ := τ) (main (F := F))) (s₀ m ρ) (Pipeline.FramePost cfgs (dats m) 0 (V m)) :=
  Cert.LibSharedLaunch.θ_run_frame_track_shared cfgs (dats m) (0 : Fin 1) defs₀ Variants.none cellOf_inj winFacts₀0 block_pos0 arr_whole0 stage_whole0 m ρ main
    (fun c => (body_obligation m c).loose) (fun _ _ => rfl) (V m) (hmain m Variants.none)
    (fun c => arrays_of_arrBufs c (dats m 0 c) rfl (V m c) (A_eq m c)) (hin m) (hout m)

/-- The frame run's post read at the seven argument arrays: each ends at its launch contents. -/
theorem args_of_post (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_arg0 m c))),
    ((h c).1 1).trans (((dats m 0 c).arrAt_in 1 rfl _).trans ((A_eq m c 1).trans (V_arg1 m c))),
    ((h c).1 14).trans (((dats m 0 c).arrAt_in 14 rfl _).trans ((A_eq m c 14).trans (V_arg2 m c))),
    ((h c).1 2).trans (((dats m 0 c).arrAt_in 2 rfl _).trans ((A_eq m c 2).trans (V_arg3 m c))),
    ((h c).2 main_arg4 (Pipeline.mem_restRefs_of main_arg4 rfl (by decide))).trans (V_arg4 m c),
    ((h c).1 6).trans (((dats m 0 c).arrAt_in 6 rfl _).trans ((A_eq m c 6).trans (V_arg5 m c))),
    ((h c).2 main_arg6 (Pipeline.mem_restRefs_of main_arg6 rfl (by decide))).trans (V_arg6 m c)⟩

/-- THE FRAME: the program runs to its end without a fault and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_of_post m r h c) (run_main m ρ)

end Cert.KernelIdeal.Frame

end
-- ==== Proof.KernelIdeal.Final.lean ====
/-
  The kernel's run, read: the frame run's post at the two result arrays (the new hidden and cell states) and at the
  seven argument arrays (unchanged).
-/
import proofs.«164211_j64476049047569_2_alg».proof.Proof.KernelIdeal.Result
import proofs.«164211_j64476049047569_2_alg».proof.Proof.KernelIdeal.FrameRun

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal.PayAt Idealize.ShloMosaic.ValueIdx Cert.LstmSpec

variable (mI : (ℓ : Loc nD τ sig) → Buf (Elt Ideal) ℓ)

/-- THE RUN, READ: every execution ends with the two result arrays at the new hidden and cell states of the argument
    arrays' launch contents, the arguments unchanged. -/
theorem run_value (ρ : Dev nD → PrngReg) : θ_run defs (onTc (τ := τ) (main (F := Ideal))) ⟨mI, fun _ => 0, ρ⟩ (fun r => ∀ c : Dev nD,
      r.2.mem ((c.tc : Thread nD τ).loc main_v2_0) = hiddenRes mI c
      ∧ r.2.mem ((c.tc : Thread nD τ).loc main_v2_1) = cellRes mI c
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)
      ∧ r.2.mem ((c.tc : Thread nD τ).loc main_arg4) = mI ((c.tc : Thread nD τ).loc main_arg4)
      ∧ r.2.mem ((c.tc : Thread nD τ).loc main_arg5) = mI ((c.tc : Thread nD τ).loc main_arg5)
      ∧ r.2.mem ((c.tc : Thread nD τ).loc main_arg6) = mI ((c.tc : Thread nD τ).loc main_arg6)) :=
  (θ_run defs _ _).mono (fun r h c => ⟨((h c).1 15).trans (final15 mI c), ((h c).1 16).trans (final16 mI c), args_of_post mI r h c⟩)
    (run_main mI ρ)

end Cert.KernelIdeal.Frame

end
-- ==== Proof.RefGates.lean ====
/-
  The reference program, one operation at a time, read at an index: the [4096, 8192] array of pre-activations at
  column g·2048 + q is the gate g's pre-activation of the specification, and each sigmoid spelled
  1 / (1 + exp (-x)) is the logistic function.
-/
import proofs.«164211_j64476049047569_2_alg».proof.Proof.Spec
import proofs.«164211_j64476049047569_2_alg».proof.Proof.Gen.ReferenceIdeal.Read
import Idealize.ShloMosaic.PureOps.Ideal
import Idealize.ShloMosaic.Lib.ValueIdx

noncomputable section

open scoped BigOperators

namespace Cert.ReferenceIdeal.RefValue

open Cert.ReferenceIdeal Cert.ReferenceIdeal.Gen Cert.ReferenceIdeal.Read Cert.LstmSpec
open Idealize.ShloMosaic Idealize.ShloMosaic.ValueIdx

/-- The pattern of 1.0 denotes the real 1. -/
theorem ofBits_one : Ideal.ofBits .f32 0x3F800000#32 = 1 := by
  simp [Ideal.ofBits, Ideal.ieee, -EReal.coe_mul]; norm_num

/-! ## The index functions at coordinates -/

theorem lidx1 (p : Fin 4096) (c : Fin 8192) (k : Fin 2048) : lidx_main_v1 (ix2 p c) k = ix2 p k :=
  funext fun a => match a with | ⟨0, _⟩ => rfl | ⟨1, _⟩ => rfl

theorem ridx1 (p : Fin 4096) (c : Fin 8192) (k : Fin 2048) : idx_main_v0 (ridx_main_v1 (ix2 p c) k) = ix2 c k :=
  funext fun a => match a with | ⟨0, _⟩ => rfl | ⟨1, _⟩ => rfl

theorem lidx6 (p : Fin 4096) (c : Fin 8192) (k : Fin 2048) : lidx_main_v6 (ix2 p c) k = ix2 p k :=
  funext fun a => match a with | ⟨0, _⟩ => rfl | ⟨1, _⟩ => rfl

theorem ridx6 (p : Fin 4096) (c : Fin 8192) (k : Fin 2048) : idx_main_v5 (ridx_main_v6 (ix2 p c) k) = ix2 c k :=
  funext fun a => match a with | ⟨0, _⟩ => rfl | ⟨1, _⟩ => rfl

theorem bidx3 (p : Fin 4096) (c : Fin 8192) : idx_main_v2 (idx_main_v3 (ix2 p c)) = ix1 c :=
  funext fun a => match a with | ⟨0, _⟩ => rfl

theorem bidx9 (p : Fin 4096) (c : Fin 8192) : idx_main_v8 (idx_main_v9 (ix2 p c)) = ix1 c :=
  funext fun a => match a with | ⟨0, _⟩ => rfl

/-- The pre-activations at row p, column c: the two contractions and the two biases, in the program's order. -/
theorem pre_at (x0 x1 : SAct.Idx → EReal) (x3 : SWts.Idx → EReal) (x4 : SBias.Idx → EReal) (x5 : SWts.Idx → EReal)
    (x6 : SBias.Idx → EReal) (p : Fin 4096) (c : Fin 8192) :
    val_main_v10 (F := Ideal) x0 x1 x3 x4 x5 x6 (ix2 p c)
      = (((∑ k : Fin 2048, x0 (ix2 p k) * x3 (ix2 c k)) + x4 (ix1 c)) + (∑ k : Fin 2048, x1 (ix2 p k) * x5 (ix2 c k))) + x6 (ix1 c) := by
  rw [val_main_v10_apply, val_main_v7_apply, val_main_v4_apply, val_main_v1_apply, val_main_v3_apply, val_main_v2_apply,
    val_main_v6_apply, val_main_v9_apply, val_main_v8_apply, bidx3, bidx9]
  simp only [val_main_v0_apply, val_main_v5_apply, lidx1, ridx1, lidx6, ridx6, Ideal.addf_def]

/-- At column g·2048 + q the pre-activation is the specification's gate g. -/
theorem gate_at (x0 x1 : SAct.Idx → EReal) (x3 : SWts.Idx → EReal) (x4 : SBias.Idx → EReal) (x5 : SWts.Idx → EReal)
    (x6 : SBias.Idx → EReal) (g : Fin 4) (p : Fin 4096) (q : Fin 2048) :
    val_main_v10 (F := Ideal) x0 x1 x3 x4 x5 x6 (ix2 p (gateRow g q)) = gate x0 x1 x3 x4 x5 x6 g p q := by
  rw [pre_at, add_assoc, add_add_add_comm]
  rfl

end Cert.ReferenceIdeal.RefValue

end
-- ==== Proof.RefSpec.lean ====
/-
  The reference program computes the specification: its two results, index by index, are the new hidden state and
  the new cell state of one LSTM cell step over the extended reals.
-/
import proofs.«164211_j64476049047569_2_alg».proof.Proof.Spec
import proofs.«164211_j64476049047569_2_alg».proof.Proof.Gen.ReferenceIdeal.Read
import proofs.«164211_j64476049047569_2_alg».proof.Proof.RefGates
import Idealize.ShloMosaic.PureOps.Ideal
import Idealize.ShloMosaic.Lib.ValueIdx

noncomputable section

open scoped BigOperators

namespace Cert.ReferenceIdeal.RefValue

open Cert.ReferenceIdeal Cert.ReferenceIdeal.Gen Cert.ReferenceIdeal.Read Cert.LstmSpec
open Idealize.ShloMosaic Idealize.ShloMosaic.TcCoe Idealize.SL.Sem Idealize.ShloMosaic.ValueIdx

/-! ## The four column slices at coordinates -/

theorem sidx11 (p : Fin 4096) (q : Fin 2048) : idx_main_v11 (ix2 p q) = ix2 p (gateRow 0 q) :=
  funext fun a => match a with
    | ⟨0, _⟩ => rfl
    | ⟨1, _⟩ => Fin.ext (by show q.val = (0 : Fin 4).val * 2048 + q.val; simp)

theorem sidx18 (p : Fin 4096) (q : Fin 2048) : idx_main_v18 (ix2 p q) = ix2 p (gateRow 1 q) :=
  funext fun a => match a with
    | ⟨0, _⟩ => rfl
    | ⟨1, _⟩ => Fin.ext (by show 2048 + q.val = (1 : Fin 4).val * 2048 + q.val; simp)

theorem sidx25 (p : Fin 4096) (q : Fin 2048) : idx_main_v25 (ix2 p q) = ix2 p (gateRow 2 q) :=
  funext fun a => match a with
    | ⟨0, _⟩ => rfl
    | ⟨1, _⟩ => Fin.ext (by show 4096 + q.val = (2 : Fin 4).val * 2048 + q.val; simp)

theorem sidx27 (p : Fin 4096) (q : Fin 2048) : idx_main_v27 (ix2 p q) = ix2 p (gateRow 3 q) :=
  funext fun a => match a with
    | ⟨0, _⟩ => rfl
    | ⟨1, _⟩ => Fin.ext (by show 6144 + q.val = (3 : Fin 4).val * 2048 + q.val; simp)

section
variable (x0 x1 x2 : SAct.Idx → EReal) (x3 : SWts.Idx → EReal) (x4 : SBias.Idx → EReal) (x5 : SWts.Idx → EReal)
  (x6 : SBias.Idx → EReal) (p : Fin 4096) (q : Fin 2048)

/-! ## The three sigmoids are the logistic function of their gates -/

theorem forget_at :
    val_main_v17 (F := Ideal) x0 x1 x3 x4 x5 x6 (ix2 p q) = Ideal.logistic (gate x0 x1 x3 x4 x5 x6 0 p q) := by
  rw [val_main_v17_apply, val_main_v16_apply, val_main_cst_0_apply, val_main_v15_apply, val_main_v14_apply,
    val_main_cst_apply, val_main_v13_apply, val_main_v12_apply, val_main_v11_apply, sidx11, gate_at]
  simp only [Ideal.ofBits_def, ofBits_one, Ideal.hostDivf_def, Ideal.addf_def, Ideal.hostUnary_exp_def,
    Ideal.hostNegf_def, Ideal.negf_def]
  rfl

theorem input_at :
    val_main_v24 (F := Ideal) x0 x1 x3 x4 x5 x6 (ix2 p q) = Ideal.logistic (gate x0 x1 x3 x4 x5 x6 1 p q) := by
  rw [val_main_v24_apply, val_main_v23_apply, val_main_cst_2_apply, val_main_v22_apply, val_main_v21_apply,
    val_main_cst_1_apply, val_main_v20_apply, val_main_v19_apply, val_main_v18_apply, sidx18, gate_at]
  simp only [Ideal.ofBits_def, ofBits_one, Ideal.hostDivf_def, Ideal.addf_def, Ideal.hostUnary_exp_def,
    Ideal.hostNegf_def, Ideal.negf_def]
  rfl

theorem output_at :
    val_main_v33 (F := Ideal) x0 x1 x3 x4 x5 x6 (ix2 p q) = Ideal.logistic (gate x0 x1 x3 x4 x5 x6 3 p q) := by
  rw [val_main_v33_apply, val_main_v32_apply, val_main_cst_4_apply, val_main_v31_apply, val_main_v30_apply,
    val_main_cst_3_apply, val_main_v29_apply, val_main_v28_apply, val_main_v27_apply, sidx27, gate_at]
  simp only [Ideal.ofBits_def, ofBits_one, Ideal.hostDivf_def, Ideal.addf_def, Ideal.hostUnary_exp_def,
    Ideal.hostNegf_def, Ideal.negf_def]
  rfl

/-- The candidate: the hyperbolic tangent of gate 2. -/
theorem cand_at :
    val_main_v26 (F := Ideal) x0 x1 x3 x4 x5 x6 (ix2 p q) = Ideal.tanh (gate x0 x1 x3 x4 x5 x6 2 p q) := by
  rw [val_main_v26_apply, val_main_v25_apply, sidx25, gate_at]
  rfl

/-! ## The two results at an index -/

theorem cell_at :
    val_main_v36 (F := Ideal) x0 x1 x2 x3 x4 x5 x6 (ix2 p q) = cellAt x0 x1 x2 x3 x4 x5 x6 p q := by
  rw [val_main_v36_apply, val_main_v34_apply, val_main_v35_apply, forget_at, input_at, cand_at]
  rfl

theorem hidden_at :
    val_main_v38 (F := Ideal) x0 x1 x2 x3 x4 x5 x6 (ix2 p q) = hiddenAt x0 x1 x2 x3 x4 x5 x6 p q := by
  rw [val_main_v38_apply, output_at, val_main_v37_apply, cell_at]
  rfl

end

/-! ## The two results as arrays -/

theorem cell_eq (x0 x1 x2 : SAct.Idx → EReal) (x3 : SWts.Idx → EReal) (x4 : SBias.Idx → EReal) (x5 : SWts.Idx → EReal)
    (x6 : SBias.Idx → EReal) :
    val_main_v36 (F := Ideal) x0 x1 x2 x3 x4 x5 x6 = cellArr x0 x1 x2 x3 x4 x5 x6 := by
  funext j
  obtain ⟨p, q, rfl⟩ : ∃ (p : Fin 4096) (q : Fin 2048), j = ix2 p q := ⟨j 0, j 1, eq_ix2 j⟩
  exact cell_at x0 x1 x2 x3 x4 x5 x6 p q

theorem hidden_eq (x0 x1 x2 : SAct.Idx → EReal) (x3 : SWts.Idx → EReal) (x4 : SBias.Idx → EReal) (x5 : SWts.Idx → EReal)
    (x6 : SBias.Idx → EReal) :
    val_main_v38 (F := Ideal) x0 x1 x2 x3 x4 x5 x6 = hiddenArr x0 x1 x2 x3 x4 x5 x6 := by
  funext j
  obtain ⟨p, q, rfl⟩ : ∃ (p : Fin 4096) (q : Fin 2048), j = ix2 p q := ⟨j 0, j 1, eq_ix2 j⟩
  exact hidden_at x0 x1 x2 x3 x4 x5 x6 p q

/-! ## The run -/

/-- Every weakly fair execution of the reference ends with the new hidden state and the new cell state of the
    specification in its two results, the arguments unchanged. -/
theorem run_spec (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v38)
          = Cert.LstmSpec.hiddenArr
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_v36)
          = Cert.LstmSpec.cellArr
              (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) :=
  (θ_run (Cert.ReferenceIdeal.defs (F := Ideal)) _ _).mono
    (fun _ h c => ⟨(h c).1.trans ((val_main_v38_eq m c).trans (hidden_eq _ _ _ _ _ _ _)),
      (h c).2.1.trans ((val_main_v36_eq _ _ _ _ _ _ _).trans (cell_eq _ _ _ _ _ _ _)),
      (h c).2.2⟩)
    (Cert.ReferenceIdeal.Value.run (F := Ideal) m g)

end Cert.ReferenceIdeal.RefValue

end
-- ==== Proof.lean ====
/-
  An LSTM cell step as one fused kernel, against the textbook formula.

  The kernel tiles the batch by 1024 rows and the hidden units by 512, and contracts the 2048 input (and hidden) features
  in eight blocks of 256: per tile it keeps four accumulators — one per gate: forget, input, candidate, output —, resets
  them at the first block, adds at every block the input rows against the gate's input-weight rows plus the hidden rows
  against its recurrent-weight rows, and at the last block adds the gate's bias (the two bias vectors, added once
  before the call), applies the logistic function (the hyperbolic tangent for the candidate) and stores

      cy = σ(f)·cx + σ(i)·tanh(c̃),      hy = σ(o)·tanh(cy).

  The reference computes all four gates at once, x·Wxᵀ + bx + h·Whᵀ + bh over the stacked weights, slices the four gates
  apart, and applies the same formulas with the logistic function spelled 1 / (1 + e⁻ˣ).

  Over the extended reals the two agree entry by entry: a sum over 2048 features is the sum of its eight blocks, addition
  is commutative and associative (so the biases may be added in either grouping, and the two products in either order),
  a change of float format is the identity, and the logistic function is by definition that quotient. No property of the
  inputs is used.

  Both kernel programs' frames are the same argument at two instances: the body runs at every grid point (three cases of
  its two conditions), an input window's buffer holds its block whether fetched or not, the accumulators are carried in
  the region's invariant, and the weight and bias arrays — each read through four windows — are held a quarter per window.
-/
import proofs.«164211_j64476049047569_2_alg».proof.Defs
import proofs.«164211_j64476049047569_2_alg».proof.Proof.Gen.Kernel
import proofs.«164211_j64476049047569_2_alg».proof.Proof.Gen.KernelIdeal
import proofs.«164211_j64476049047569_2_alg».proof.Proof.Gen.ReferenceIdeal
import proofs.«164211_j64476049047569_2_alg».proof.Proof.Gen.Pre_finite_inputs
import proofs.«164211_j64476049047569_2_alg».proof.Proof.Gen.ReferenceIdeal.Run
import proofs.«164211_j64476049047569_2_alg».proof.Proof.Gen.ReferenceIdeal.Read
import proofs.«164211_j64476049047569_2_alg».proof.Proof.Kernel.FrameRun
import proofs.«164211_j64476049047569_2_alg».proof.Proof.KernelIdeal.Final
import proofs.«164211_j64476049047569_2_alg».proof.Proof.RefSpec
import Idealize.ShloMosaic.Adequacy
import Idealize.ShloMosaic.Init

noncomputable section

namespace Cert.Proof

open Idealize.ShloMosaic Idealize.SL.Sem

/-- The kernel as printed runs to its end and leaves its arguments unchanged. -/
theorem frame_kernel : Cert.frame_Kernel := fun m ρ _ => Cert.Kernel.Frame.frame m ρ

/-- So does its reading over the extended reals. -/
theorem frame_kernelIdeal : Cert.frame_KernelIdeal := fun m ρ _ => Cert.KernelIdeal.Frame.frame m ρ

/-- The reference is a straight line of host operations: its run, the results dropped. -/
theorem frame_reference : Cert.frame_ReferenceIdeal := fun m ρ _ =>
  (θ_run Cert.ReferenceIdeal.defs _ _).mono (fun _ h c => (h c).2.2) (Cert.ReferenceIdeal.RefValue.run_spec m ρ)

/-- Nothing was rewritten to read the kernel over the extended reals. -/
theorem preserves : Cert.preserves_Kernel_KernelIdeal := trivial

/-- Both programs end with the new hidden state and the new cell state of the same LSTM cell step. -/
theorem algebraic : Cert.algebraic_KernelIdeal_ReferenceIdeal := by
  intro m ρ m' ρ' _ hagree
  refine ⟨fun c => Cert.KernelIdeal.Frame.hiddenRes m c, fun c => Cert.KernelIdeal.Frame.cellRes m c,
    Cert.KernelIdeal.Frame.run_value m ρ, ?_⟩
  refine (θ_run Cert.ReferenceIdeal.defs _ _).mono (fun r h c => ?_) (Cert.ReferenceIdeal.RefValue.run_spec m' ρ')
  obtain ⟨e0, e1, e2, e3, e4, e5, e6⟩ := hagree c
  obtain ⟨hh, hc, hargs⟩ := h c
  refine ⟨hh.trans ?_, hc.trans ?_, hargs⟩
  · rw [e0, e1, e2, e3, e4, e5, e6]
  · rw [e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
